-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S512 : Shape := ⟨1, ![512]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩

abbrev nBuf : Space → Nat
  | .hbm => 45
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S_, .f32⟩
  | .hbm, ⟨5, _⟩ => ⟨S4096x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x1, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1x1, .f32⟩
  | .local _ .vmem, ⟨6, _⟩ => ⟨S1x1, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1x1, .f32⟩
  | .local _ .vmem, ⟨12, _⟩ => ⟨S1x1, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_cst_7 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

class Facts₀ : Prop where
  reducesTo_S4096x512_S_d0_1 : S4096x512.ReducesTo [0, 1] S_
  h_S_ : 0 < S_.numel
  reducesTo_S4096x512_S512_d0 : S4096x512.ReducesTo [0] S512
  reducesTo_S512_S_d0 : S512.ReducesTo [0] S_
  shapeCasts_S_S1x1 : S_.ShapeCasts S1x1
  inb_S1x1_S1x1_0_0 : ∀ a, (![0, 0] : Fin 2 → Nat) a + S1x1.size a ≤ S1x1.size a
  h_S1x1 : 0 < S1x1.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  shapeCasts_S1x1_S1x1 : S1x1.ShapeCasts S1x1
  broadcasts_S1x1_S1024x1024 : S1x1.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .f32 = 32 ∨ (Rect.block (s := S4096x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x512.size a
  hwx1_2 : ∀ i : grid1.Coords, EltTy.bits .f32 = 32 ∨ (Rect.block (s := S4096x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x512.size a
  hwx2_1 : ∀ i : grid2.Coords, EltTy.bits .f32 = 32 ∨ (Rect.block (s := S4096x512) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S4096x512.size a
  hwx2_2 : ∀ i : grid2.Coords, EltTy.bits .f32 = 32 ∨ (Rect.block (s := S4096x512) S1024x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v15) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S1x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S4096x4096 : Shape := ⟨2, ![4096, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S512x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S4096x4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096x4096, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4096x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096x4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_cst_11 : Ref sig .tc := ⟨.hbm, 63, rfl⟩
abbrev main_v49 : Ref sig .tc := ⟨.hbm, 64, rfl⟩
abbrev main_v50 : Ref sig .tc := ⟨.hbm, 65, rfl⟩
abbrev main_cst_12 : Ref sig .tc := ⟨.hbm, 66, rfl⟩
abbrev main_v51 : Ref sig .tc := ⟨.hbm, 67, rfl⟩
abbrev main_cst_13 : Ref sig .tc := ⟨.hbm, 68, rfl⟩
abbrev main_v52 : Ref sig .tc := ⟨.hbm, 69, rfl⟩
abbrev main_v53 : Ref sig .tc := ⟨.hbm, 70, rfl⟩
abbrev main_cst_14 : Ref sig .tc := ⟨.hbm, 71, rfl⟩
abbrev main_v54 : Ref sig .tc := ⟨.hbm, 72, rfl⟩
abbrev main_cst_15 : Ref sig .tc := ⟨.hbm, 73, rfl⟩
abbrev main_v55 : Ref sig .tc := ⟨.hbm, 74, rfl⟩
abbrev main_v56 : Ref sig .tc := ⟨.hbm, 75, rfl⟩
abbrev main_cst_16 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  concatenates_S4096x512_S4096x512_S8192x512_d0 : Shape.Concatenates [S4096x512, S4096x512] S8192x512 0
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  slices_S8192x8192_S4096x4096_0_0 : S8192x8192.Slices ![0, 0] S4096x4096
  reducesTo_S4096x4096_S_d0_1 : S4096x4096.ReducesTo [0, 1] S_
  slices_S8192x8192_S4096x4096_4096_4096 : S8192x8192.Slices ![4096, 4096] S4096x4096
  slices_S8192x8192_S4096x4096_0_4096 : S8192x8192.Slices ![0, 4096] S4096x4096
  slices_S8192x8192_S4096x4096_4096_0 : S8192x8192.Slices ![4096, 0] S4096x4096
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KB.Runs0.lean ====
/-
  Quadrant 0 of the discrepancy (pallas_call 0): what its block-sum body is run over. The grid has 4 x 4 points; at a
  point the body sees the bandwidth (a 1x1 block that never moves), 1024 rows of the first cloud, 1024 rows of the second,
  and the 1x1 accumulator, whose block never moves either and is written back after the last point only. The body resets
  the accumulator at the first point (both coordinates zero) and adds the block's sum at every point.
-/
import proofs.«101678_j64098091925653_1_alg».proof.Proof.Gen.Kernel.Launch
import proofs.«101678_j64098091925653_1_alg».proof.Proof.Gen.Kernel.Skeleton
import proofs.«101678_j64098091925653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the quadrant finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block index
    has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-- The body's one branch: "both grid coordinates are zero", as the body computes it. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the 16 points only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The accumulator's one staging buffer, through which its contents are stated. -/
abbrev VO0_3 : View sig .tc .vmem S1x1 .f32 := (Memref.whole cc0_stg3_0 : Memref sig .tc .vmem S1x1 .f32).view
/-- Each window's current staging memref at point `t`, as the pipeline passes it to the body, and its wholeness. -/
abbrev ms0_0 (t : Fin cfg0.N) : Memref sig .tc .vmem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

end Cert.Kernel.Gen

end
-- ==== Proof.KB.Run0A.lean ====
/-
  Quadrant 0's body run whole at the first point (the accumulator is reset, then the block's sum added):
  on whole staging buffers — the bandwidth, the two row blocks, the accumulator at anything — the body runs to the
  end holding the inputs as they were and the accumulator with the stores the run finds.
-/
import proofs.«101678_j64098091925653_1_alg».proof.Proof.KB.Runs0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond0_0 i)
    (x0 : Vec F S1x1 .f32) (x1 : Vec F S1024x512 .f32) (x2 : Vec F S1024x512 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__mmd_block_sum_kernel i arg2 harg2 arg3 harg3 arg4 harg4 arg5 harg5) K } := by
  refine ⟨?_, fun E K => ?run⟩
  case run =>
    simp only [cc0__mmd_block_sum_kernel_eq_skeleton]; unfold cc0__mmd_block_sum_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Gen

end
-- ==== Proof.KB.Run0B.lean ====
/-
  Quadrant 0's body run whole at a later point (the block's sum is added to what the accumulator holds):
  on whole staging buffers — the bandwidth, the two row blocks, the accumulator at its running contents — the body runs to the
  end holding the inputs as they were and the accumulator with the stores the run finds.
-/
import proofs.«101678_j64098091925653_1_alg».proof.Proof.KB.Run0A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond0_0 i)
    (x0 : Vec F S1x1 .f32) (x1 : Vec F S1024x512 .f32) (x2 : Vec F S1024x512 .f32) (xo3 : Vec F S1x1 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__mmd_block_sum_kernel i arg2 harg2 arg3 harg3 arg4 harg4 arg5 harg5) K } := by
  refine ⟨?_, fun E K => ?run⟩
  case run =>
    simp only [cc0__mmd_block_sum_kernel_eq_skeleton]; unfold cc0__mmd_block_sum_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Gen

end
-- ==== Proof.KB.Body0.lean ====
/-
  Quadrant 0: what the accumulator holds after each of the 16 points, the pipeline's proof data, and the body's
  obligation at every point. After the first point the accumulator holds the first block's sum over a fresh zero; after
  a later point, the point's block sum added to what the point before left (the accumulator's buffer is not written back
  between points: its block index never moves). The two row blocks are cut from ONE array, which the two windows hold at the two halves of the full share.
-/
import proofs.«101678_j64098091925653_1_alg».proof.Proof.KB.Run0B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores cover the accumulator's 1x1 buffer. -/
theorem cover0_A_3 (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond0_0 i)
    (x0 : Vec F S1x1 .f32) (x1 : Vec F S1024x512 .f32) (x2 : Vec F S1024x512 .f32) (y : S1x1.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x1.size (by sl_kernel_rfl) y

/-- What the first point leaves in the accumulator: its stores read back. -/
def out0_A_3 (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond0_0 i)
    (x0 : Vec F S1x1 .f32) (x1 : Vec F S1024x512 .f32) (x2 : Vec F S1024x512 .f32) : Vec F S1x1 .f32 :=
  VO0_3.read (Elt F) (VO0_3.writes (Elt F) VO0_3.junk (kernelRun0_A c i arg2 harg2 arg3 harg3 arg4 harg4 arg5 harg5 hc0 x0 x1 x2).1)

/-- A later point's store covers the accumulator's 1x1 buffer. -/
theorem cover0_B_3 (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond0_0 i)
    (x0 : Vec F S1x1 .f32) (x1 : Vec F S1024x512 .f32) (x2 : Vec F S1024x512 .f32) (xo3 : Vec F S1x1 .f32) (y : S1x1.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x1.size (by sl_kernel_rfl) y

/-- What a later point leaves in the accumulator, from what it found there. -/
def out0_B_3 (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond0_0 i)
    (x0 : Vec F S1x1 .f32) (x1 : Vec F S1024x512 .f32) (x2 : Vec F S1024x512 .f32) (xo3 : Vec F S1x1 .f32) : Vec F S1x1 .f32 :=
  VO0_3.read (Elt F) (VO0_3.writes (Elt F) VO0_3.junk (kernelRun0_B c i arg2 harg2 arg3 harg3 arg4 harg4 arg5 harg5 hc0 x0 x1 x2 xo3).1)

section
variable (V : (c : Dev nD) → (b : Ref sig .tc) → Buf (Elt F) ((c : Thread nD τ).loc b))

/-- THE ACCUMULATION: what the accumulator holds after the body at position `n` of the grid's row-major walk. -/
def outsAt0 (c : Dev nD) : (n : ℕ) → n < cfg0.N → Vec F S1x1 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩) (iblk0 V c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn))

theorem outsAt0_A (c : Dev nD) (t : Fin cfg0.N) (h0 : t.val % 16 = 0) :
    outsAt0 V c t.val t.isLt = out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t) (iblk0 V c 2 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (iblk0 V c 2 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The share of its array each input window holds: the two row-block windows read one array, at the two halves of the full share. -/
def shares0 : Fin cfg0.W → PosShare TreeShare
  | ⟨0, _⟩ => fullShare
  | ⟨1, _⟩ => fullShare.left
  | ⟨2, _⟩ => fullShare.right
  | ⟨3, _⟩ => fullShare

/-- The proof data of quadrant 0's pipeline on core `c`: the arrays as the quadrant finds them; after the body at point `t`
    each input's buffer at its block and the accumulator's at `outsAt0`; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt)
  Φ _ := Pipeline.ΦA spec0 c
  q := shares0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a later point the accumulator's buffer holds what the body left at the point before: it was not written back
    between (only the last point writes it back). -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' buffers hold their blocks; the point is the first or a later one, and at a later one
    the accumulator holds what the point before left; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  have hN : t.val < 16 := lt_of_lt_of_eq t.isLt (show cfg0.N = 16 from N_0)
  by_cases h0 : t.val % 16 = 0
  · rw [outsAt0_A V c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B V c t h0]
    simp only [before0_3_B V c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) (iblk0 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Gen

end
-- ==== Proof.KB.Runs1.lean ====
/-
  Quadrant 1 of the discrepancy (pallas_call 1): what its block-sum body is run over. The grid has 4 x 4 points; at a
  point the body sees the bandwidth (a 1x1 block that never moves), 1024 rows of the first cloud, 1024 rows of the second,
  and the 1x1 accumulator, whose block never moves either and is written back after the last point only. The body resets
  the accumulator at the first point (both coordinates zero) and adds the block's sum at every point.
-/
import proofs.«101678_j64098091925653_1_alg».proof.Proof.Gen.Kernel.Launch
import proofs.«101678_j64098091925653_1_alg».proof.Proof.Gen.Kernel.Skeleton
import proofs.«101678_j64098091925653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the quadrant finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (unfetched, the block index
    has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- The body's one branch: "both grid coordinates are zero", as the body computes it. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the 16 points only. -/
theorem hcond1_0 : ∀ t : Fin cfg1.N, cond1_0 (grid1.coords t) ↔ t.val % 16 = 0 :=
  (by decide +kernel : ∀ t : Fin grid1.N, cond1_0 (grid1.coords t) ↔ t.val % 16 = 0)

/-- The accumulator's one staging buffer, through which its contents are stated. -/
abbrev VO1_3 : View sig .tc .vmem S1x1 .f32 := (Memref.whole cc1_stg3_0 : Memref sig .tc .vmem S1x1 .f32).view
/-- Each window's current staging memref at point `t`, as the pipeline passes it to the body, and its wholeness. -/
abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)

end Cert.Kernel.Gen

end
-- ==== Proof.KB.Run1A.lean ====
/-
  Quadrant 1's body run whole at the first point (the accumulator is reset, then the block's sum added):
  on whole staging buffers — the bandwidth, the two row blocks, the accumulator at anything — the body runs to the
  end holding the inputs as they were and the accumulator with the stores the run finds.
-/
import proofs.«101678_j64098091925653_1_alg».proof.Proof.KB.Runs1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond1_0 i)
    (x0 : Vec F S1x1 .f32) (x1 : Vec F S1024x512 .f32) (x2 : Vec F S1024x512 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__mmd_block_sum_kernel i arg2 harg2 arg3 harg3 arg4 harg4 arg5 harg5) K } := by
  refine ⟨?_, fun E K => ?run⟩
  case run =>
    simp only [cc1__mmd_block_sum_kernel_eq_skeleton]; unfold cc1__mmd_block_sum_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Gen

end
-- ==== Proof.KB.Run1B.lean ====
/-
  Quadrant 1's body run whole at a later point (the block's sum is added to what the accumulator holds):
  on whole staging buffers — the bandwidth, the two row blocks, the accumulator at its running contents — the body runs to the
  end holding the inputs as they were and the accumulator with the stores the run finds.
-/
import proofs.«101678_j64098091925653_1_alg».proof.Proof.KB.Run1A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond1_0 i)
    (x0 : Vec F S1x1 .f32) (x1 : Vec F S1024x512 .f32) (x2 : Vec F S1024x512 .f32) (xo3 : Vec F S1x1 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__mmd_block_sum_kernel i arg2 harg2 arg3 harg3 arg4 harg4 arg5 harg5) K } := by
  refine ⟨?_, fun E K => ?run⟩
  case run =>
    simp only [cc1__mmd_block_sum_kernel_eq_skeleton]; unfold cc1__mmd_block_sum_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Gen

end
-- ==== Proof.KB.Body1.lean ====
/-
  Quadrant 1: what the accumulator holds after each of the 16 points, the pipeline's proof data, and the body's
  obligation at every point. After the first point the accumulator holds the first block's sum over a fresh zero; after
  a later point, the point's block sum added to what the point before left (the accumulator's buffer is not written back
  between points: its block index never moves). The two row blocks are cut from ONE array, which the two windows hold at the two halves of the full share.
-/
import proofs.«101678_j64098091925653_1_alg».proof.Proof.KB.Run1B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores cover the accumulator's 1x1 buffer. -/
theorem cover1_A_3 (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond1_0 i)
    (x0 : Vec F S1x1 .f32) (x1 : Vec F S1024x512 .f32) (x2 : Vec F S1024x512 .f32) (y : S1x1.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1x1.size (by sl_kernel_rfl) y

/-- What the first point leaves in the accumulator: its stores read back. -/
def out1_A_3 (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond1_0 i)
    (x0 : Vec F S1x1 .f32) (x1 : Vec F S1024x512 .f32) (x2 : Vec F S1024x512 .f32) : Vec F S1x1 .f32 :=
  VO1_3.read (Elt F) (VO1_3.writes (Elt F) VO1_3.junk (kernelRun1_A c i arg2 harg2 arg3 harg3 arg4 harg4 arg5 harg5 hc0 x0 x1 x2).1)

/-- A later point's store covers the accumulator's 1x1 buffer. -/
theorem cover1_B_3 (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond1_0 i)
    (x0 : Vec F S1x1 .f32) (x1 : Vec F S1024x512 .f32) (x2 : Vec F S1024x512 .f32) (xo3 : Vec F S1x1 .f32) (y : S1x1.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S1x1.size (by sl_kernel_rfl) y

/-- What a later point leaves in the accumulator, from what it found there. -/
def out1_B_3 (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond1_0 i)
    (x0 : Vec F S1x1 .f32) (x1 : Vec F S1024x512 .f32) (x2 : Vec F S1024x512 .f32) (xo3 : Vec F S1x1 .f32) : Vec F S1x1 .f32 :=
  VO1_3.read (Elt F) (VO1_3.writes (Elt F) VO1_3.junk (kernelRun1_B c i arg2 harg2 arg3 harg3 arg4 harg4 arg5 harg5 hc0 x0 x1 x2 xo3).1)

section
variable (V : (c : Dev nD) → (b : Ref sig .tc) → Buf (Elt F) ((c : Thread nD τ).loc b))

/-- THE ACCUMULATION: what the accumulator holds after the body at position `n` of the grid's row-major walk. -/
def outsAt1 (c : Dev nD) : (n : ℕ) → n < cfg1.N → Vec F S1x1 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 16 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 16 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The share of its array each input window holds: the two row-block windows read one array, at the two halves of the full share. -/
def shares1 : Fin cfg1.W → PosShare TreeShare
  | ⟨0, _⟩ => fullShare
  | ⟨1, _⟩ => fullShare.left
  | ⟨2, _⟩ => fullShare.right
  | ⟨3, _⟩ => fullShare

/-- The proof data of quadrant 1's pipeline on core `c`: the arrays as the quadrant finds them; after the body at point `t`
    each input's buffer at its block and the accumulator's at `outsAt1`; the invariant the scoped rest and the generator
    register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q := shares1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later point the accumulator's buffer holds what the body left at the point before: it was not written back
    between (only the last point writes it back). -/
theorem before1_3_B (c : Dev nD) (t : Fin cfg1.N) (h0 : ¬t.val % 16 = 0) (d) :
    (dat1 V c).before 3 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' buffers hold their blocks; the point is the first or a later one, and at a later one
    the accumulator holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 16 := lt_of_lt_of_eq t.isLt (show cfg1.N = 16 from N_1)
  by_cases h0 : t.val % 16 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Gen

end
-- ==== Proof.KB.Runs2.lean ====
/-
  Quadrant 2 of the discrepancy (pallas_call 2): what its block-sum body is run over. The grid has 4 x 4 points; at a
  point the body sees the bandwidth (a 1x1 block that never moves), 1024 rows of the first cloud, 1024 rows of the second,
  and the 1x1 accumulator, whose block never moves either and is written back after the last point only. The body resets
  the accumulator at the first point (both coordinates zero) and adds the block's sum at every point.
-/
import proofs.«101678_j64098091925653_1_alg».proof.Proof.Gen.Kernel.Launch
import proofs.«101678_j64098091925653_1_alg».proof.Proof.Gen.Kernel.Skeleton
import proofs.«101678_j64098091925653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the quadrant finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (unfetched, the block index
    has not moved since the fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end

/-- The body's one branch: "both grid coordinates are zero", as the body computes it. -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the 16 points only. -/
theorem hcond2_0 : ∀ t : Fin cfg2.N, cond2_0 (grid2.coords t) ↔ t.val % 16 = 0 :=
  (by decide +kernel : ∀ t : Fin grid2.N, cond2_0 (grid2.coords t) ↔ t.val % 16 = 0)

/-- The accumulator's one staging buffer, through which its contents are stated. -/
abbrev VO2_3 : View sig .tc .vmem S1x1 .f32 := (Memref.whole cc2_stg3_0 : Memref sig .tc .vmem S1x1 .f32).view
/-- Each window's current staging memref at point `t`, as the pipeline passes it to the body, and its wholeness. -/
abbrev ms2_0 (t : Fin cfg2.N) : Memref sig .tc .vmem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

end Cert.Kernel.Gen

end
-- ==== Proof.KB.Run2A.lean ====
/-
  Quadrant 2's body run whole at the first point (the accumulator is reset, then the block's sum added):
  on whole staging buffers — the bandwidth, the two row blocks, the accumulator at anything — the body runs to the
  end holding the inputs as they were and the accumulator with the stores the run finds.
-/
import proofs.«101678_j64098091925653_1_alg».proof.Proof.KB.Runs2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond2_0 i)
    (x0 : Vec F S1x1 .f32) (x1 : Vec F S1024x512 .f32) (x2 : Vec F S1024x512 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__mmd_block_sum_kernel i arg2 harg2 arg3 harg3 arg4 harg4 arg5 harg5) K } := by
  refine ⟨?_, fun E K => ?run⟩
  case run =>
    simp only [cc2__mmd_block_sum_kernel_eq_skeleton]; unfold cc2__mmd_block_sum_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Gen

end
-- ==== Proof.KB.Run2B.lean ====
/-
  Quadrant 2's body run whole at a later point (the block's sum is added to what the accumulator holds):
  on whole staging buffers — the bandwidth, the two row blocks, the accumulator at its running contents — the body runs to the
  end holding the inputs as they were and the accumulator with the stores the run finds.
-/
import proofs.«101678_j64098091925653_1_alg».proof.Proof.KB.Run2A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond2_0 i)
    (x0 : Vec F S1x1 .f32) (x1 : Vec F S1024x512 .f32) (x2 : Vec F S1024x512 .f32) (xo3 : Vec F S1x1 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__mmd_block_sum_kernel i arg2 harg2 arg3 harg3 arg4 harg4 arg5 harg5) K } := by
  refine ⟨?_, fun E K => ?run⟩
  case run =>
    simp only [cc2__mmd_block_sum_kernel_eq_skeleton]; unfold cc2__mmd_block_sum_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Gen

end
-- ==== Proof.KB.Body2.lean ====
/-
  Quadrant 2: what the accumulator holds after each of the 16 points, the pipeline's proof data, and the body's
  obligation at every point. After the first point the accumulator holds the first block's sum over a fresh zero; after
  a later point, the point's block sum added to what the point before left (the accumulator's buffer is not written back
  between points: its block index never moves).
-/
import proofs.«101678_j64098091925653_1_alg».proof.Proof.KB.Run2B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores cover the accumulator's 1x1 buffer. -/
theorem cover2_A_3 (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond2_0 i)
    (x0 : Vec F S1x1 .f32) (x1 : Vec F S1024x512 .f32) (x2 : Vec F S1024x512 .f32) (y : S1x1.Idx) :
    ∃ pc ∈ (kernelRun2_A c i arg2 harg2 arg3 harg3 arg4 harg4 arg5 harg5 hc0 x0 x1 x2).1, y ∈ pc.1.set :=
  View.cover_of_tiledL (kernelRun2_A c i arg2 harg2 arg3 harg3 arg4 harg4 arg5 harg5 hc0 x0 x1 x2).1 S1x1.size (by sl_kernel_rfl) y

/-- What the first point leaves in the accumulator: its stores read back. -/
def out2_A_3 (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond2_0 i)
    (x0 : Vec F S1x1 .f32) (x1 : Vec F S1024x512 .f32) (x2 : Vec F S1024x512 .f32) : Vec F S1x1 .f32 :=
  VO2_3.read (Elt F) (VO2_3.writes (Elt F) VO2_3.junk (kernelRun2_A c i arg2 harg2 arg3 harg3 arg4 harg4 arg5 harg5 hc0 x0 x1 x2).1)

/-- A later point's store covers the accumulator's 1x1 buffer. -/
theorem cover2_B_3 (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond2_0 i)
    (x0 : Vec F S1x1 .f32) (x1 : Vec F S1024x512 .f32) (x2 : Vec F S1024x512 .f32) (xo3 : Vec F S1x1 .f32) (y : S1x1.Idx) :
    ∃ pc ∈ (kernelRun2_B c i arg2 harg2 arg3 harg3 arg4 harg4 arg5 harg5 hc0 x0 x1 x2 xo3).1, y ∈ pc.1.set :=
  View.cover_of_tiledL (kernelRun2_B c i arg2 harg2 arg3 harg3 arg4 harg4 arg5 harg5 hc0 x0 x1 x2 xo3).1 S1x1.size (by sl_kernel_rfl) y

/-- What a later point leaves in the accumulator, from what it found there. -/
def out2_B_3 (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond2_0 i)
    (x0 : Vec F S1x1 .f32) (x1 : Vec F S1024x512 .f32) (x2 : Vec F S1024x512 .f32) (xo3 : Vec F S1x1 .f32) : Vec F S1x1 .f32 :=
  VO2_3.read (Elt F) (VO2_3.writes (Elt F) VO2_3.junk (kernelRun2_B c i arg2 harg2 arg3 harg3 arg4 harg4 arg5 harg5 hc0 x0 x1 x2 xo3).1)

section
variable (V : (c : Dev nD) → (b : Ref sig .tc) → Buf (Elt F) ((c : Thread nD τ).loc b))

/-- THE ACCUMULATION: what the accumulator holds after the body at position `n` of the grid's row-major walk. -/
def outsAt2 (c : Dev nD) : (n : ℕ) → n < cfg2.N → Vec F S1x1 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 16 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) ((hcond2_0 ⟨n + 1, hn⟩).mpr h0) (iblk2 V c 0 ⟨n + 1, hn⟩) (iblk2 V c 1 ⟨n + 1, hn⟩) (iblk2 V c 2 ⟨n + 1, hn⟩)
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn))

theorem outsAt2_A (c : Dev nD) (t : Fin cfg2.N) (h0 : t.val % 16 = 0) :
    outsAt2 V c t.val t.isLt = out2_A_3 c (grid2.coords t) (ms2_0 t) (hs2_0 t) (ms2_1 t) (hs2_1 t) (ms2_2 t) (hs2_2 t) (ms2_3 t) (hs2_3 t) ((hcond2_0 t).mpr h0) (iblk2 V c 0 t) (iblk2 V c 1 t) (iblk2 V c 2 t) := by
  obtain ⟨n, hn⟩ := t
  cases n with
  | zero => exact rfl
  | succ n => exact (dif_pos h0).trans rfl

theorem outsAt2_B (c : Dev nD) (t : Fin cfg2.N) (h0 : ¬t.val % 16 = 0) :
    outsAt2 V c t.val t.isLt = out2_B_3 c (grid2.coords t) (ms2_0 t) (hs2_0 t) (ms2_1 t) (hs2_1 t) (ms2_2 t) (hs2_2 t) (ms2_3 t) (hs2_3 t) (fun h => h0 ((hcond2_0 t).mp h)) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The share of its array each input window holds (every array is read by one window: the full share). -/
def shares2 : Fin cfg2.W → PosShare TreeShare := fun _ => fullShare

/-- The proof data of quadrant 2's pipeline on core `c`: the arrays as the quadrant finds them; after the body at point `t`
    each input's buffer at its block and the accumulator's at `outsAt2`; the invariant the scoped rest and the generator
    register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt)
  Φ _ := Pipeline.ΦA spec2 c
  q := shares2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a later point the accumulator's buffer holds what the body left at the point before: it was not written back
    between (only the last point writes it back). -/
theorem before2_3_B (c : Dev nD) (t : Fin cfg2.N) (h0 : ¬t.val % 16 = 0) (d) :
    (dat2 V c).before 3 t d = (outsAt2 V c (t.val - 1) (Nat.lt_of_le_of_lt (Nat.sub_le _ _) t.isLt)) := by
  have hN : t.val < 16 := lt_of_lt_of_eq t.isLt (show cfg2.N = 16 from N_2)
  rw [Dat.before_out_kept _ 3 rfl t (by omega) (Bool.eq_false_iff.mpr fun h => by have := (flush2_3 _).mp h; dsimp only at this; omega)
    (fun _ => rfl) (fun _ _ => rfl)]
  dsimp only [dat2]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
/-- The body at any point: the inputs' buffers hold their blocks; the point is the first or a later one, and at a later one
    the accumulator holds what the point before left; so the matching run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 16 := lt_of_lt_of_eq t.isLt (show cfg2.N = 16 from N_2)
  by_cases h0 : t.val % 16 = 0
  · rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ ((hcond2_0 t).mpr h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _)
  · rw [outsAt2_B V c t h0]
    simp only [before2_3_B V c t h0]
    unfold out2_B_3
    iintro ⟨HΦ, Ho, ⟨%d0, H0⟩, ⟨%d1, H1⟩, ⟨%d2, H2⟩, ⟨%d3, H3⟩⟩
    iapply ((kernelRun2_B c (grid2.coords t) _ _ _ _ _ _ _ _ (fun h => h0 ((hcond2_0 t).mp h)) (iblk2 V c 0 t) (iblk2 V c 1 t) (iblk2 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Gen

end
-- ==== Proof.KB.Shared0.lean ====
/-
  Quadrant 0: the windows' arrays among the core's unscoped buffers, when two windows read ONE array.

  Between regions the core holds every unscoped buffer whole at the full share. The quadrant's four windows name three
  distinct buffers: the bandwidth, the cloud both row-block windows are cut from, and the accumulator. Entering the region,
  the cloud's buffer is split along its share into the two halves the two windows hold; leaving it, the two halves, which
  hold the same contents, are joined again. The other two buffers pass whole.
-/
import proofs.«101678_j64098091925653_1_alg».proof.Proof.KB.Body0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind quadrant 0's windows: three, the cloud's named by two windows. -/
theorem arrImage0 : Finset.univ.image (Pipeline.arrRef spec0) = {main_v15, main_arg0, main_v16} := by decide

section
variable (V : (c : Dev nD) → (b : Ref sig .tc) → Buf (Elt F) ((c : Thread nD τ).loc b))

/-- The core's unscoped buffers are the buffers behind the windows and the rest. -/
theorem unscopedBufs_split0 (c : Dev nD) (W : (b : Ref sig .tc) → Buf (Elt F) ((c : Thread nD τ).loc b)) :
    (unscopedBufs c W : sProp 𝕄) = iprop((Pipeline.arrBufs spec0 c W : sProp 𝕄) ∗ Pipeline.unscopedRest spec0 c W) :=
  Pipeline.unscopedBufs_split₀ cfgs 0 winFacts₀0.arr_unscoped c W

/-- The buffers behind the windows, one by one: each whole at the full share. -/
theorem arrBufs0_eq (c : Dev nD) (W : (b : Ref sig .tc) → Buf (Elt F) ((c : Thread nD τ).loc b)) :
    (Pipeline.arrBufs spec0 c W : sProp 𝕄)
      = iprop((((c : Thread nD τ).loc main_v15) ↦{fullShare} W main_v15) ∗ (((c : Thread nD τ).loc main_arg0) ↦{fullShare} W main_arg0)
          ∗ (((c : Thread nD τ).loc main_v16) ↦{fullShare} W main_v16)) := by
  unfold Pipeline.arrBufs
  rw [arrImage0, bigSep_insert (by decide), bigSep_insert (by decide), bigSep_singleton]
  rfl

/-- The pipeline's arrays, window by window: the bandwidth and the accumulator whole at the full share, the cloud at the
    left half for the first row-block window and at the right half for the second. -/
theorem arrays0_eq (c : Dev nD) (G : (w : Fin cfg0.W) → Buf (Elt F) ((cfg0.win w).arr.view.loc (c : Thread nD τ))) :
    (dat0 V c).arrays G
      = iprop((((c : Thread nD τ).loc main_v15) ↦{fullShare} G 0) ∗ (((c : Thread nD τ).loc main_arg0) ↦{fullShare.left} G 1)
          ∗ (((c : Thread nD τ).loc main_arg0) ↦{fullShare.right} G 2) ∗ (((c : Thread nD τ).loc main_v16) ↦{fullShare} G 3)) := by
  have h : (dat0 V c).arrays G
      = bigSep Finset.univ fun w => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

/-- ENTRY: the core's unscoped buffers at contents `V c` are the pipeline's arrays at the entry contents — the cloud's buffer
    split into its two halves, one per row-block window — and the unscoped rest. -/
theorem arrays_of_unscopedBufs0 (c : Dev nD) :
    (unscopedBufs c (V c) : sProp 𝕄)
      ⊢ iprop((dat0 V c).arrays ((dat0 V c).arrAt · 0) ∗ Pipeline.unscopedRest spec0 c (V c)) := by
  rw [unscopedBufs_split0, arrBufs0_eq, arrays0_eq]
  refine sep_mono ?_ .rfl
  iintro ⟨H15, Ha, H16⟩
  ihave Ha := (pointsTo_share (PosShare.mem_left_op_right fullShare)).1 $$ Ha
  icases Ha with ⟨Ha₁, Ha₂⟩
  isplitl [H15]; · iexact H15
  isplitl [Ha₁]; · iexact Ha₁
  isplitl [Ha₂]; · iexact Ha₂
  iexact H16

/-- EXIT: the pipeline's arrays at contents `G` and the unscoped rest at `V c` are the core's unscoped buffers at any
    valuation `V'` that has the arrays at `G` and agrees with `V c` off them: the two row-block windows then hold the
    cloud's two halves at the same contents, and the halves join. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V c b) :
    iprop((dat0 V c).arrays G ∗ Pipeline.unscopedRest spec0 c (V c)) ⊢ (unscopedBufs c V' : sProp 𝕄) := by
  rw [unscopedBufs_split0, arrBufs0_eq, arrays0_eq, hG 0, hG 1, hG 2, hG 3]
  refine sep_mono ?_ (Entails.of_eq ?_)
  · iintro ⟨H15, Ha₁, Ha₂, H16⟩
    isplitl [H15]; · iexact H15
    isplitl [Ha₁ Ha₂]
    · iapply (pointsTo_share (PosShare.mem_left_op_right fullShare)).2
      isplitl [Ha₁]; · iexact Ha₁
      iexact Ha₂
    iexact H16
  · unfold Pipeline.unscopedRest
    exact bigSep_congr fun b hb => by rw [hrest b (Finset.mem_sdiff.mp hb).2]

end

end Cert.Kernel.Gen

end
-- ==== Proof.KB.Shared1.lean ====
/-
  Quadrant 1: the windows' arrays among the core's unscoped buffers, when two windows read ONE array.

  Between regions the core holds every unscoped buffer whole at the full share. The quadrant's four windows name three
  distinct buffers: the bandwidth, the cloud both row-block windows are cut from, and the accumulator. Entering the region,
  the cloud's buffer is split along its share into the two halves the two windows hold; leaving it, the two halves, which
  hold the same contents, are joined again. The other two buffers pass whole.
-/
import proofs.«101678_j64098091925653_1_alg».proof.Proof.KB.Body1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind quadrant 1's windows: three, the cloud's named by two windows. -/
theorem arrImage1 : Finset.univ.image (Pipeline.arrRef spec1) = {main_v18, main_arg1, main_v19} := by decide

section
variable (V : (c : Dev nD) → (b : Ref sig .tc) → Buf (Elt F) ((c : Thread nD τ).loc b))

/-- The core's unscoped buffers are the buffers behind the windows and the rest. -/
theorem unscopedBufs_split1 (c : Dev nD) (W : (b : Ref sig .tc) → Buf (Elt F) ((c : Thread nD τ).loc b)) :
    (unscopedBufs c W : sProp 𝕄) = iprop((Pipeline.arrBufs spec1 c W : sProp 𝕄) ∗ Pipeline.unscopedRest spec1 c W) :=
  Pipeline.unscopedBufs_split₀ cfgs 1 winFacts₀1.arr_unscoped c W

/-- The buffers behind the windows, one by one: each whole at the full share. -/
theorem arrBufs1_eq (c : Dev nD) (W : (b : Ref sig .tc) → Buf (Elt F) ((c : Thread nD τ).loc b)) :
    (Pipeline.arrBufs spec1 c W : sProp 𝕄)
      = iprop((((c : Thread nD τ).loc main_v18) ↦{fullShare} W main_v18) ∗ (((c : Thread nD τ).loc main_arg1) ↦{fullShare} W main_arg1)
          ∗ (((c : Thread nD τ).loc main_v19) ↦{fullShare} W main_v19)) := by
  unfold Pipeline.arrBufs
  rw [arrImage1, bigSep_insert (by decide), bigSep_insert (by decide), bigSep_singleton]
  rfl

/-- The pipeline's arrays, window by window: the bandwidth and the accumulator whole at the full share, the cloud at the
    left half for the first row-block window and at the right half for the second. -/
theorem arrays1_eq (c : Dev nD) (G : (w : Fin cfg1.W) → Buf (Elt F) ((cfg1.win w).arr.view.loc (c : Thread nD τ))) :
    (dat1 V c).arrays G
      = iprop((((c : Thread nD τ).loc main_v18) ↦{fullShare} G 0) ∗ (((c : Thread nD τ).loc main_arg1) ↦{fullShare.left} G 1)
          ∗ (((c : Thread nD τ).loc main_arg1) ↦{fullShare.right} G 2) ∗ (((c : Thread nD τ).loc main_v19) ↦{fullShare} G 3)) := by
  have h : (dat1 V c).arrays G
      = bigSep Finset.univ fun w => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY: the core's unscoped buffers at contents `V c` are the pipeline's arrays at the entry contents — the cloud's buffer
    split into its two halves, one per row-block window — and the unscoped rest. -/
theorem arrays_of_unscopedBufs1 (c : Dev nD) :
    (unscopedBufs c (V c) : sProp 𝕄)
      ⊢ iprop((dat1 V c).arrays ((dat1 V c).arrAt · 0) ∗ Pipeline.unscopedRest spec1 c (V c)) := by
  rw [unscopedBufs_split1, arrBufs1_eq, arrays1_eq]
  refine sep_mono ?_ .rfl
  iintro ⟨H15, Ha, H16⟩
  ihave Ha := (pointsTo_share (PosShare.mem_left_op_right fullShare)).1 $$ Ha
  icases Ha with ⟨Ha₁, Ha₂⟩
  isplitl [H15]; · iexact H15
  isplitl [Ha₁]; · iexact Ha₁
  isplitl [Ha₂]; · iexact Ha₂
  iexact H16

/-- EXIT: the pipeline's arrays at contents `G` and the unscoped rest at `V c` are the core's unscoped buffers at any
    valuation `V'` that has the arrays at `G` and agrees with `V c` off them: the two row-block windows then hold the
    cloud's two halves at the same contents, and the halves join. -/
theorem unscopedBufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [unscopedBufs_split1, arrBufs1_eq, arrays1_eq, hG 0, hG 1, hG 2, hG 3]
  refine sep_mono ?_ (Entails.of_eq ?_)
  · iintro ⟨H15, Ha₁, Ha₂, H16⟩
    isplitl [H15]; · iexact H15
    isplitl [Ha₁ Ha₂]
    · iapply (pointsTo_share (PosShare.mem_left_op_right fullShare)).2
      isplitl [Ha₁]; · iexact Ha₁
      iexact Ha₂
    iexact H16
  · unfold Pipeline.unscopedRest
    exact bigSep_congr fun b hb => by rw [hrest b (Finset.mem_sdiff.mp hb).2]

end

end Cert.Kernel.Gen

end
-- ==== Proof.KB.Segs.lean ====
/-
  The whole program as a chain of segments: host operations (the bandwidth), quadrant 0 (first cloud against itself),
  two reshapes, quadrant 1 (second cloud against itself), two reshapes, quadrant 2 (first against second), and the host
  operations that combine the three sums. The buffer contents at each boundary are a fold from the launch memory: a host
  stretch applies its operations, a quadrant replaces its accumulator's array by what its pipeline wrote back. Every weakly
  fair execution terminates and ends with every unscoped buffer at the last boundary's contents — in particular the two
  argument arrays as launched and the result at the fold's value.
-/
import proofs.«101678_j64098091925653_1_alg».proof.Proof.KB.Body0
import proofs.«101678_j64098091925653_1_alg».proof.Proof.KB.Body1
import proofs.«101678_j64098091925653_1_alg».proof.Proof.KB.Body2
import proofs.«101678_j64098091925653_1_alg».proof.Proof.KB.Shared0
import proofs.«101678_j64098091925653_1_alg».proof.Proof.KB.Shared1
import proofs.«101678_j64098091925653_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first host stretch (the bandwidth and its 1x1 reshape). -/
abbrev W1 : Dev nD → Valuation τ sig (Elt F) := fun c => StableHlo.after hostOps0 (W0 m c)
abbrev R1 : (c : Dev nD) → (b : Ref sig .tc) → Buf (Elt F) ((c : Thread nD τ).loc b) := fun c b => W1 m c b

/-- What quadrant 0's pipeline leaves in its accumulator's array. -/
def o0 (c : Dev nD) : Buf (Elt F) ((c : Thread nD τ).loc main_v16) := (dat0 (R1 m) c).arrAt 3 cfg0.N
/-- After quadrant 0: the accumulator's array at what the pipeline left, every other buffer as entered. -/
def W2 (c : Dev nD) : Valuation τ sig (Elt F) := Function.update (W1 m c) main_v16 (o0 m c)
abbrev R2 : (c : Dev nD) → (b : Ref sig .tc) → Buf (Elt F) ((c : Thread nD τ).loc b) := fun c b => W2 m c b
theorem W2_out (c : Dev nD) : W2 m c main_v16 = o0 m c := by unfold W2; exact Function.update_self _ _ _
theorem W2_of_ne (c : Dev nD) (b : Ref sig .tc) (hb : b ≠ main_v16) : W2 m c b = W1 m c b := by
  unfold W2; exact Function.update_of_ne (StableHlo.devRef_ne_of_ne hb) _ _
/-- At quadrant 0's exit each of its arrays holds what the pipeline leaves — an input's array what it held (nothing
    writes it), the accumulator's the write-back — -/
theorem hF0 (c : Dev nD) (w : Fin cfg0.W) : (dat0 (R1 m) c).arrAt w cfg0.N = R2 m c (Pipeline.arrRef spec0 w) := by
  match w with
  | ⟨0, _⟩ => exact (((dat0 (R1 m) c).arrAt_in 0 rfl _).trans (A_eq0 (R1 m) c 0)).trans (W2_of_ne m c _ (by decide)).symm
  | ⟨1, _⟩ => exact (((dat0 (R1 m) c).arrAt_in 1 rfl _).trans (A_eq0 (R1 m) c 1)).trans (W2_of_ne m c _ (by decide)).symm
  | ⟨2, _⟩ => exact (((dat0 (R1 m) c).arrAt_in 2 rfl _).trans (A_eq0 (R1 m) c 2)).trans (W2_of_ne m c _ (by decide)).symm
  | ⟨3, _⟩ => exact (W2_out m c).symm
/-- and every other buffer what it held at entry. -/
theorem hrest0 (c : Dev nD) : ∀ b, b ∉ Finset.univ.image (Pipeline.arrRef spec0) → R2 m c b = R1 m c b :=
  fun b hb => W2_of_ne m c b fun e => hb (Finset.mem_image.mpr ⟨3, Finset.mem_univ _, e.symm⟩)
/-- After the host operations that follow quadrant 0. -/
abbrev W3 : Dev nD → Valuation τ sig (Elt F) := fun c => StableHlo.after hostOps1 (W2 m c)
abbrev R3 : (c : Dev nD) → (b : Ref sig .tc) → Buf (Elt F) ((c : Thread nD τ).loc b) := fun c b => W3 m c b

/-- What quadrant 1's pipeline leaves in its accumulator's array. -/
def o1 (c : Dev nD) : Buf (Elt F) ((c : Thread nD τ).loc main_v19) := (dat1 (R3 m) c).arrAt 3 cfg1.N
/-- After quadrant 1: the accumulator's array at what the pipeline left, every other buffer as entered. -/
def W4 (c : Dev nD) : Valuation τ sig (Elt F) := Function.update (W3 m c) main_v19 (o1 m c)
abbrev R4 : (c : Dev nD) → (b : Ref sig .tc) → Buf (Elt F) ((c : Thread nD τ).loc b) := fun c b => W4 m c b
theorem W4_out (c : Dev nD) : W4 m c main_v19 = o1 m c := by unfold W4; exact Function.update_self _ _ _
theorem W4_of_ne (c : Dev nD) (b : Ref sig .tc) (hb : b ≠ main_v19) : W4 m c b = W3 m c b := by
  unfold W4; exact Function.update_of_ne (StableHlo.devRef_ne_of_ne hb) _ _
/-- At quadrant 1's exit each of its arrays holds what the pipeline leaves — an input's array what it held (nothing
    writes it), the accumulator's the write-back — -/
theorem hF1 (c : Dev nD) (w : Fin cfg1.W) : (dat1 (R3 m) c).arrAt w cfg1.N = R4 m c (Pipeline.arrRef spec1 w) := by
  match w with
  | ⟨0, _⟩ => exact (((dat1 (R3 m) c).arrAt_in 0 rfl _).trans (A_eq1 (R3 m) c 0)).trans (W4_of_ne m c _ (by decide)).symm
  | ⟨1, _⟩ => exact (((dat1 (R3 m) c).arrAt_in 1 rfl _).trans (A_eq1 (R3 m) c 1)).trans (W4_of_ne m c _ (by decide)).symm
  | ⟨2, _⟩ => exact (((dat1 (R3 m) c).arrAt_in 2 rfl _).trans (A_eq1 (R3 m) c 2)).trans (W4_of_ne m c _ (by decide)).symm
  | ⟨3, _⟩ => exact (W4_out m c).symm
/-- and every other buffer what it held at entry. -/
theorem hrest1 (c : Dev nD) : ∀ b, b ∉ Finset.univ.image (Pipeline.arrRef spec1) → R4 m c b = R3 m c b :=
  fun b hb => W4_of_ne m c b fun e => hb (Finset.mem_image.mpr ⟨3, Finset.mem_univ _, e.symm⟩)
/-- After the host operations that follow quadrant 1. -/
abbrev W5 : Dev nD → Valuation τ sig (Elt F) := fun c => StableHlo.after hostOps2 (W4 m c)
abbrev R5 : (c : Dev nD) → (b : Ref sig .tc) → Buf (Elt F) ((c : Thread nD τ).loc b) := fun c b => W5 m c b

/-- What quadrant 2's pipeline leaves in its accumulator's array. -/
def o2 (c : Dev nD) : Buf (Elt F) ((c : Thread nD τ).loc main_v22) := (dat2 (R5 m) c).arrAt 3 cfg2.N
/-- After quadrant 2: the accumulator's array at what the pipeline left, every other buffer as entered. -/
def W6 (c : Dev nD) : Valuation τ sig (Elt F) := Function.update (W5 m c) main_v22 (o2 m c)
abbrev R6 : (c : Dev nD) → (b : Ref sig .tc) → Buf (Elt F) ((c : Thread nD τ).loc b) := fun c b => W6 m c b
theorem W6_out (c : Dev nD) : W6 m c main_v22 = o2 m c := by unfold W6; exact Function.update_self _ _ _
theorem W6_of_ne (c : Dev nD) (b : Ref sig .tc) (hb : b ≠ main_v22) : W6 m c b = W5 m c b := by
  unfold W6; exact Function.update_of_ne (StableHlo.devRef_ne_of_ne hb) _ _
/-- At quadrant 2's exit each of its arrays holds what the pipeline leaves — an input's array what it held (nothing
    writes it), the accumulator's the write-back — -/
theorem hF2 (c : Dev nD) (w : Fin cfg2.W) : (dat2 (R5 m) c).arrAt w cfg2.N = R6 m c (Pipeline.arrRef spec2 w) := by
  match w with
  | ⟨0, _⟩ => exact (((dat2 (R5 m) c).arrAt_in 0 rfl _).trans (A_eq2 (R5 m) c 0)).trans (W6_of_ne m c _ (by decide)).symm
  | ⟨1, _⟩ => exact (((dat2 (R5 m) c).arrAt_in 1 rfl _).trans (A_eq2 (R5 m) c 1)).trans (W6_of_ne m c _ (by decide)).symm
  | ⟨2, _⟩ => exact (((dat2 (R5 m) c).arrAt_in 2 rfl _).trans (A_eq2 (R5 m) c 2)).trans (W6_of_ne m c _ (by decide)).symm
  | ⟨3, _⟩ => exact (W6_out m c).symm
/-- and every other buffer what it held at entry. -/
theorem hrest2 (c : Dev nD) : ∀ b, b ∉ Finset.univ.image (Pipeline.arrRef spec2) → R6 m c b = R5 m c b :=
  fun b hb => W6_of_ne m c b fun e => hb (Finset.mem_image.mpr ⟨3, Finset.mem_univ _, e.symm⟩)
/-- After the host operations that follow quadrant 2. -/
abbrev W7 : Dev nD → Valuation τ sig (Elt F) := fun c => StableHlo.after hostOps3 (W6 m c)
abbrev R7 : (c : Dev nD) → (b : Ref sig .tc) → Buf (Elt F) ((c : Thread nD τ).loc b) := fun c b => W7 m c b

/-! ## The arguments end as launched -/

theorem W7_main_arg0 (c : Dev nD) : W7 m c main_arg0 = m ((c : Thread nD τ).loc main_arg0) :=
  (StableHlo.after_of_writes_sub hostOps3 _ hostOps3_writes (r := main_arg0) (by decide)).trans <|
  (W6_of_ne m c main_arg0 (by decide)).trans <|
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl
theorem W7_main_arg1 (c : Dev nD) : W7 m c main_arg1 = m ((c : Thread nD τ).loc main_arg1) :=
  (StableHlo.after_of_writes_sub hostOps3 _ hostOps3_writes (r := main_arg1) (by decide)).trans <|
  (W6_of_ne m c main_arg1 (by decide)).trans <|
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  (W2_of_ne m c main_arg1 (by decide)).trans <|
  (StableHlo.after_of_writes_sub hostOps0 _ hostOps0_writes (r := main_arg1) (by decide)).trans rfl

/-! ## The proof data family and the thread state -/

/-- Every pipeline's proof data, each at its quadrant's entry contents. -/
def pdats : (p : Fin 3) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The quadrants as segments -/

set_option backward.isDefEq.respectTransparency.types false in
/-- QUADRANT 0 as a segment of the program: entered with every unscoped buffer at `W1`, left with them at `W2` (the
    accumulator's array at what the pipeline wrote back, everything else as entered). Its arrays are split out of the
    unscoped buffers at entry and put back at exit (the shared array at its two half shares); the generator register goes into the invariant and comes back; nothing
    is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := arrays_of_unscopedBufs0 (R1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (R1 m) c (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- QUADRANT 1 as a segment of the program: entered with every unscoped buffer at `W3`, left with them at `W4` (the
    accumulator's array at what the pipeline wrote back, everything else as entered). Its arrays are split out of the
    unscoped buffers at entry and put back at exit (the shared array at its two half shares); the generator register goes into the invariant and comes back; nothing
    is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := arrays_of_unscopedBufs1 (R3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (R3 m) c (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- QUADRANT 2 as a segment of the program: entered with every unscoped buffer at `W5`, left with them at `W6` (the
    accumulator's array at what the pipeline wrote back, everything else as entered). Its arrays are split out of the
    unscoped buffers at entry and put back at exit; the generator register goes into the invariant and comes back; nothing
    is owed; the kernel has no semaphore of its own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (R5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev progSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (progSegs m) := (main_chain c).trans (by chain_rfl)

set_option backward.isDefEq.respectTransparency.types false in
/-- THE RUN: from any memory with zero counters every weakly fair execution of the program terminates, nothing faulting,
    and every final state has every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (progSegs m)
    (fun c Q => by rw [main_run m c])
    (by simp only [progSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: the two argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W7_main_arg0 m c), (h c _ (mem_uc main_arg1 (by decide))).trans (W7_main_arg1 m c)⟩) (run_all m ρ)

end Cert.Kernel.Gen

end
-- ==== Proof.KI.Runs0.lean ====
/-
  Quadrant 0 of the discrepancy (pallas_call 0): what its block-sum body is run over. The grid has 4 x 4 points; at a
  point the body sees the bandwidth (a 1x1 block that never moves), 1024 rows of the first cloud, 1024 rows of the second,
  and the 1x1 accumulator, whose block never moves either and is written back after the last point only. The body resets
  the accumulator at the first point (both coordinates zero) and adds the block's sum at every point.
-/
import proofs.«101678_j64098091925653_1_alg».proof.Proof.Gen.KernelIdeal.Launch
import proofs.«101678_j64098091925653_1_alg».proof.Proof.Gen.KernelIdeal.Skeleton
import proofs.«101678_j64098091925653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the quadrant finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block index
    has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-- The body's one branch: "both grid coordinates are zero", as the body computes it. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the 16 points only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The accumulator's one staging buffer, through which its contents are stated. -/
abbrev VO0_3 : View sig .tc .vmem S1x1 .f32 := (Memref.whole cc0_stg3_0 : Memref sig .tc .vmem S1x1 .f32).view
/-- Each window's current staging memref at point `t`, as the pipeline passes it to the body, and its wholeness. -/
abbrev ms0_0 (t : Fin cfg0.N) : Memref sig .tc .vmem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

end Cert.KernelIdeal.Gen

end
-- ==== Proof.KI.Run0A.lean ====
/-
  Quadrant 0's body run whole at the first point (the accumulator is reset, then the block's sum added):
  on whole staging buffers — the bandwidth, the two row blocks, the accumulator at anything — the body runs to the
  end holding the inputs as they were and the accumulator with the stores the run finds.
-/
import proofs.«101678_j64098091925653_1_alg».proof.Proof.KI.Runs0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond0_0 i)
    (x0 : Vec F S1x1 .f32) (x1 : Vec F S1024x512 .f32) (x2 : Vec F S1024x512 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__mmd_block_sum_kernel i arg2 harg2 arg3 harg3 arg4 harg4 arg5 harg5) K } := by
  refine ⟨?_, fun E K => ?run⟩
  case run =>
    simp only [cc0__mmd_block_sum_kernel_eq_skeleton]; unfold cc0__mmd_block_sum_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Gen

end
-- ==== Proof.KI.Run0B.lean ====
/-
  Quadrant 0's body run whole at a later point (the block's sum is added to what the accumulator holds):
  on whole staging buffers — the bandwidth, the two row blocks, the accumulator at its running contents — the body runs to the
  end holding the inputs as they were and the accumulator with the stores the run finds.
-/
import proofs.«101678_j64098091925653_1_alg».proof.Proof.KI.Run0A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond0_0 i)
    (x0 : Vec F S1x1 .f32) (x1 : Vec F S1024x512 .f32) (x2 : Vec F S1024x512 .f32) (xo3 : Vec F S1x1 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__mmd_block_sum_kernel i arg2 harg2 arg3 harg3 arg4 harg4 arg5 harg5) K } := by
  refine ⟨?_, fun E K => ?run⟩
  case run =>
    simp only [cc0__mmd_block_sum_kernel_eq_skeleton]; unfold cc0__mmd_block_sum_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Gen

end
-- ==== Proof.KI.Body0.lean ====
/-
  Quadrant 0: what the accumulator holds after each of the 16 points, the pipeline's proof data, and the body's
  obligation at every point. After the first point the accumulator holds the first block's sum over a fresh zero; after
  a later point, the point's block sum added to what the point before left (the accumulator's buffer is not written back
  between points: its block index never moves). The two row blocks are cut from ONE array, which the two windows hold at the two halves of the full share.
-/
import proofs.«101678_j64098091925653_1_alg».proof.Proof.KI.Run0B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores cover the accumulator's 1x1 buffer. -/
theorem cover0_A_3 (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond0_0 i)
    (x0 : Vec F S1x1 .f32) (x1 : Vec F S1024x512 .f32) (x2 : Vec F S1024x512 .f32) (y : S1x1.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x1.size (by sl_kernel_rfl) y

/-- What the first point leaves in the accumulator: its stores read back. -/
def out0_A_3 (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond0_0 i)
    (x0 : Vec F S1x1 .f32) (x1 : Vec F S1024x512 .f32) (x2 : Vec F S1024x512 .f32) : Vec F S1x1 .f32 :=
  VO0_3.read (Elt F) (VO0_3.writes (Elt F) VO0_3.junk (kernelRun0_A c i arg2 harg2 arg3 harg3 arg4 harg4 arg5 harg5 hc0 x0 x1 x2).1)

/-- A later point's store covers the accumulator's 1x1 buffer. -/
theorem cover0_B_3 (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond0_0 i)
    (x0 : Vec F S1x1 .f32) (x1 : Vec F S1024x512 .f32) (x2 : Vec F S1024x512 .f32) (xo3 : Vec F S1x1 .f32) (y : S1x1.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x1.size (by sl_kernel_rfl) y

/-- What a later point leaves in the accumulator, from what it found there. -/
def out0_B_3 (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond0_0 i)
    (x0 : Vec F S1x1 .f32) (x1 : Vec F S1024x512 .f32) (x2 : Vec F S1024x512 .f32) (xo3 : Vec F S1x1 .f32) : Vec F S1x1 .f32 :=
  VO0_3.read (Elt F) (VO0_3.writes (Elt F) VO0_3.junk (kernelRun0_B c i arg2 harg2 arg3 harg3 arg4 harg4 arg5 harg5 hc0 x0 x1 x2 xo3).1)

section
variable (V : (c : Dev nD) → (b : Ref sig .tc) → Buf (Elt F) ((c : Thread nD τ).loc b))

/-- THE ACCUMULATION: what the accumulator holds after the body at position `n` of the grid's row-major walk. -/
def outsAt0 (c : Dev nD) : (n : ℕ) → n < cfg0.N → Vec F S1x1 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩) (iblk0 V c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn))

theorem outsAt0_A (c : Dev nD) (t : Fin cfg0.N) (h0 : t.val % 16 = 0) :
    outsAt0 V c t.val t.isLt = out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t) (iblk0 V c 2 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (iblk0 V c 2 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The share of its array each input window holds: the two row-block windows read one array, at the two halves of the full share. -/
def shares0 : Fin cfg0.W → PosShare TreeShare
  | ⟨0, _⟩ => fullShare
  | ⟨1, _⟩ => fullShare.left
  | ⟨2, _⟩ => fullShare.right
  | ⟨3, _⟩ => fullShare

/-- The proof data of quadrant 0's pipeline on core `c`: the arrays as the quadrant finds them; after the body at point `t`
    each input's buffer at its block and the accumulator's at `outsAt0`; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt)
  Φ _ := Pipeline.ΦA spec0 c
  q := shares0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a later point the accumulator's buffer holds what the body left at the point before: it was not written back
    between (only the last point writes it back). -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' buffers hold their blocks; the point is the first or a later one, and at a later one
    the accumulator holds what the point before left; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  have hN : t.val < 16 := lt_of_lt_of_eq t.isLt (show cfg0.N = 16 from N_0)
  by_cases h0 : t.val % 16 = 0
  · rw [outsAt0_A V c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B V c t h0]
    simp only [before0_3_B V c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) (iblk0 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Gen

end
-- ==== Proof.KI.Runs1.lean ====
/-
  Quadrant 1 of the discrepancy (pallas_call 1): what its block-sum body is run over. The grid has 4 x 4 points; at a
  point the body sees the bandwidth (a 1x1 block that never moves), 1024 rows of the first cloud, 1024 rows of the second,
  and the 1x1 accumulator, whose block never moves either and is written back after the last point only. The body resets
  the accumulator at the first point (both coordinates zero) and adds the block's sum at every point.
-/
import proofs.«101678_j64098091925653_1_alg».proof.Proof.Gen.KernelIdeal.Launch
import proofs.«101678_j64098091925653_1_alg».proof.Proof.Gen.KernelIdeal.Skeleton
import proofs.«101678_j64098091925653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the quadrant finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (unfetched, the block index
    has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- The body's one branch: "both grid coordinates are zero", as the body computes it. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the 16 points only. -/
theorem hcond1_0 : ∀ t : Fin cfg1.N, cond1_0 (grid1.coords t) ↔ t.val % 16 = 0 :=
  (by decide +kernel : ∀ t : Fin grid1.N, cond1_0 (grid1.coords t) ↔ t.val % 16 = 0)

/-- The accumulator's one staging buffer, through which its contents are stated. -/
abbrev VO1_3 : View sig .tc .vmem S1x1 .f32 := (Memref.whole cc1_stg3_0 : Memref sig .tc .vmem S1x1 .f32).view
/-- Each window's current staging memref at point `t`, as the pipeline passes it to the body, and its wholeness. -/
abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)

end Cert.KernelIdeal.Gen

end
-- ==== Proof.KI.Run1A.lean ====
/-
  Quadrant 1's body run whole at the first point (the accumulator is reset, then the block's sum added):
  on whole staging buffers — the bandwidth, the two row blocks, the accumulator at anything — the body runs to the
  end holding the inputs as they were and the accumulator with the stores the run finds.
-/
import proofs.«101678_j64098091925653_1_alg».proof.Proof.KI.Runs1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond1_0 i)
    (x0 : Vec F S1x1 .f32) (x1 : Vec F S1024x512 .f32) (x2 : Vec F S1024x512 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__mmd_block_sum_kernel i arg2 harg2 arg3 harg3 arg4 harg4 arg5 harg5) K } := by
  refine ⟨?_, fun E K => ?run⟩
  case run =>
    simp only [cc1__mmd_block_sum_kernel_eq_skeleton]; unfold cc1__mmd_block_sum_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Gen

end
-- ==== Proof.KI.Run1B.lean ====
/-
  Quadrant 1's body run whole at a later point (the block's sum is added to what the accumulator holds):
  on whole staging buffers — the bandwidth, the two row blocks, the accumulator at its running contents — the body runs to the
  end holding the inputs as they were and the accumulator with the stores the run finds.
-/
import proofs.«101678_j64098091925653_1_alg».proof.Proof.KI.Run1A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond1_0 i)
    (x0 : Vec F S1x1 .f32) (x1 : Vec F S1024x512 .f32) (x2 : Vec F S1024x512 .f32) (xo3 : Vec F S1x1 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__mmd_block_sum_kernel i arg2 harg2 arg3 harg3 arg4 harg4 arg5 harg5) K } := by
  refine ⟨?_, fun E K => ?run⟩
  case run =>
    simp only [cc1__mmd_block_sum_kernel_eq_skeleton]; unfold cc1__mmd_block_sum_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Gen

end
-- ==== Proof.KI.Body1.lean ====
/-
  Quadrant 1: what the accumulator holds after each of the 16 points, the pipeline's proof data, and the body's
  obligation at every point. After the first point the accumulator holds the first block's sum over a fresh zero; after
  a later point, the point's block sum added to what the point before left (the accumulator's buffer is not written back
  between points: its block index never moves). The two row blocks are cut from ONE array, which the two windows hold at the two halves of the full share.
-/
import proofs.«101678_j64098091925653_1_alg».proof.Proof.KI.Run1B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores cover the accumulator's 1x1 buffer. -/
theorem cover1_A_3 (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond1_0 i)
    (x0 : Vec F S1x1 .f32) (x1 : Vec F S1024x512 .f32) (x2 : Vec F S1024x512 .f32) (y : S1x1.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1x1.size (by sl_kernel_rfl) y

/-- What the first point leaves in the accumulator: its stores read back. -/
def out1_A_3 (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond1_0 i)
    (x0 : Vec F S1x1 .f32) (x1 : Vec F S1024x512 .f32) (x2 : Vec F S1024x512 .f32) : Vec F S1x1 .f32 :=
  VO1_3.read (Elt F) (VO1_3.writes (Elt F) VO1_3.junk (kernelRun1_A c i arg2 harg2 arg3 harg3 arg4 harg4 arg5 harg5 hc0 x0 x1 x2).1)

/-- A later point's store covers the accumulator's 1x1 buffer. -/
theorem cover1_B_3 (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond1_0 i)
    (x0 : Vec F S1x1 .f32) (x1 : Vec F S1024x512 .f32) (x2 : Vec F S1024x512 .f32) (xo3 : Vec F S1x1 .f32) (y : S1x1.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S1x1.size (by sl_kernel_rfl) y

/-- What a later point leaves in the accumulator, from what it found there. -/
def out1_B_3 (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond1_0 i)
    (x0 : Vec F S1x1 .f32) (x1 : Vec F S1024x512 .f32) (x2 : Vec F S1024x512 .f32) (xo3 : Vec F S1x1 .f32) : Vec F S1x1 .f32 :=
  VO1_3.read (Elt F) (VO1_3.writes (Elt F) VO1_3.junk (kernelRun1_B c i arg2 harg2 arg3 harg3 arg4 harg4 arg5 harg5 hc0 x0 x1 x2 xo3).1)

section
variable (V : (c : Dev nD) → (b : Ref sig .tc) → Buf (Elt F) ((c : Thread nD τ).loc b))

/-- THE ACCUMULATION: what the accumulator holds after the body at position `n` of the grid's row-major walk. -/
def outsAt1 (c : Dev nD) : (n : ℕ) → n < cfg1.N → Vec F S1x1 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 16 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 16 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The share of its array each input window holds: the two row-block windows read one array, at the two halves of the full share. -/
def shares1 : Fin cfg1.W → PosShare TreeShare
  | ⟨0, _⟩ => fullShare
  | ⟨1, _⟩ => fullShare.left
  | ⟨2, _⟩ => fullShare.right
  | ⟨3, _⟩ => fullShare

/-- The proof data of quadrant 1's pipeline on core `c`: the arrays as the quadrant finds them; after the body at point `t`
    each input's buffer at its block and the accumulator's at `outsAt1`; the invariant the scoped rest and the generator
    register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q := shares1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later point the accumulator's buffer holds what the body left at the point before: it was not written back
    between (only the last point writes it back). -/
theorem before1_3_B (c : Dev nD) (t : Fin cfg1.N) (h0 : ¬t.val % 16 = 0) (d) :
    (dat1 V c).before 3 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' buffers hold their blocks; the point is the first or a later one, and at a later one
    the accumulator holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 16 := lt_of_lt_of_eq t.isLt (show cfg1.N = 16 from N_1)
  by_cases h0 : t.val % 16 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Gen

end
-- ==== Proof.KI.Runs2.lean ====
/-
  Quadrant 2 of the discrepancy (pallas_call 2): what its block-sum body is run over. The grid has 4 x 4 points; at a
  point the body sees the bandwidth (a 1x1 block that never moves), 1024 rows of the first cloud, 1024 rows of the second,
  and the 1x1 accumulator, whose block never moves either and is written back after the last point only. The body resets
  the accumulator at the first point (both coordinates zero) and adds the block's sum at every point.
-/
import proofs.«101678_j64098091925653_1_alg».proof.Proof.Gen.KernelIdeal.Launch
import proofs.«101678_j64098091925653_1_alg».proof.Proof.Gen.KernelIdeal.Skeleton
import proofs.«101678_j64098091925653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the quadrant finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (unfetched, the block index
    has not moved since the fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end

/-- The body's one branch: "both grid coordinates are zero", as the body computes it. -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the 16 points only. -/
theorem hcond2_0 : ∀ t : Fin cfg2.N, cond2_0 (grid2.coords t) ↔ t.val % 16 = 0 :=
  (by decide +kernel : ∀ t : Fin grid2.N, cond2_0 (grid2.coords t) ↔ t.val % 16 = 0)

/-- The accumulator's one staging buffer, through which its contents are stated. -/
abbrev VO2_3 : View sig .tc .vmem S1x1 .f32 := (Memref.whole cc2_stg3_0 : Memref sig .tc .vmem S1x1 .f32).view
/-- Each window's current staging memref at point `t`, as the pipeline passes it to the body, and its wholeness. -/
abbrev ms2_0 (t : Fin cfg2.N) : Memref sig .tc .vmem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

end Cert.KernelIdeal.Gen

end
-- ==== Proof.KI.Run2A.lean ====
/-
  Quadrant 2's body run whole at the first point (the accumulator is reset, then the block's sum added):
  on whole staging buffers — the bandwidth, the two row blocks, the accumulator at anything — the body runs to the
  end holding the inputs as they were and the accumulator with the stores the run finds.
-/
import proofs.«101678_j64098091925653_1_alg».proof.Proof.KI.Runs2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond2_0 i)
    (x0 : Vec F S1x1 .f32) (x1 : Vec F S1024x512 .f32) (x2 : Vec F S1024x512 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__mmd_block_sum_kernel i arg2 harg2 arg3 harg3 arg4 harg4 arg5 harg5) K } := by
  refine ⟨?_, fun E K => ?run⟩
  case run =>
    simp only [cc2__mmd_block_sum_kernel_eq_skeleton]; unfold cc2__mmd_block_sum_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Gen

end
-- ==== Proof.KI.Run2B.lean ====
/-
  Quadrant 2's body run whole at a later point (the block's sum is added to what the accumulator holds):
  on whole staging buffers — the bandwidth, the two row blocks, the accumulator at its running contents — the body runs to the
  end holding the inputs as they were and the accumulator with the stores the run finds.
-/
import proofs.«101678_j64098091925653_1_alg».proof.Proof.KI.Run2A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond2_0 i)
    (x0 : Vec F S1x1 .f32) (x1 : Vec F S1024x512 .f32) (x2 : Vec F S1024x512 .f32) (xo3 : Vec F S1x1 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__mmd_block_sum_kernel i arg2 harg2 arg3 harg3 arg4 harg4 arg5 harg5) K } := by
  refine ⟨?_, fun E K => ?run⟩
  case run =>
    simp only [cc2__mmd_block_sum_kernel_eq_skeleton]; unfold cc2__mmd_block_sum_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Gen

end
-- ==== Proof.KI.Body2.lean ====
/-
  Quadrant 2: what the accumulator holds after each of the 16 points, the pipeline's proof data, and the body's
  obligation at every point. After the first point the accumulator holds the first block's sum over a fresh zero; after
  a later point, the point's block sum added to what the point before left (the accumulator's buffer is not written back
  between points: its block index never moves).
-/
import proofs.«101678_j64098091925653_1_alg».proof.Proof.KI.Run2B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores cover the accumulator's 1x1 buffer. -/
theorem cover2_A_3 (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond2_0 i)
    (x0 : Vec F S1x1 .f32) (x1 : Vec F S1024x512 .f32) (x2 : Vec F S1024x512 .f32) (y : S1x1.Idx) :
    ∃ pc ∈ (kernelRun2_A c i arg2 harg2 arg3 harg3 arg4 harg4 arg5 harg5 hc0 x0 x1 x2).1, y ∈ pc.1.set :=
  View.cover_of_tiledL (kernelRun2_A c i arg2 harg2 arg3 harg3 arg4 harg4 arg5 harg5 hc0 x0 x1 x2).1 S1x1.size (by sl_kernel_rfl) y

/-- What the first point leaves in the accumulator: its stores read back. -/
def out2_A_3 (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond2_0 i)
    (x0 : Vec F S1x1 .f32) (x1 : Vec F S1024x512 .f32) (x2 : Vec F S1024x512 .f32) : Vec F S1x1 .f32 :=
  VO2_3.read (Elt F) (VO2_3.writes (Elt F) VO2_3.junk (kernelRun2_A c i arg2 harg2 arg3 harg3 arg4 harg4 arg5 harg5 hc0 x0 x1 x2).1)

/-- A later point's store covers the accumulator's 1x1 buffer. -/
theorem cover2_B_3 (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond2_0 i)
    (x0 : Vec F S1x1 .f32) (x1 : Vec F S1024x512 .f32) (x2 : Vec F S1024x512 .f32) (xo3 : Vec F S1x1 .f32) (y : S1x1.Idx) :
    ∃ pc ∈ (kernelRun2_B c i arg2 harg2 arg3 harg3 arg4 harg4 arg5 harg5 hc0 x0 x1 x2 xo3).1, y ∈ pc.1.set :=
  View.cover_of_tiledL (kernelRun2_B c i arg2 harg2 arg3 harg3 arg4 harg4 arg5 harg5 hc0 x0 x1 x2 xo3).1 S1x1.size (by sl_kernel_rfl) y

/-- What a later point leaves in the accumulator, from what it found there. -/
def out2_B_3 (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond2_0 i)
    (x0 : Vec F S1x1 .f32) (x1 : Vec F S1024x512 .f32) (x2 : Vec F S1024x512 .f32) (xo3 : Vec F S1x1 .f32) : Vec F S1x1 .f32 :=
  VO2_3.read (Elt F) (VO2_3.writes (Elt F) VO2_3.junk (kernelRun2_B c i arg2 harg2 arg3 harg3 arg4 harg4 arg5 harg5 hc0 x0 x1 x2 xo3).1)

section
variable (V : (c : Dev nD) → (b : Ref sig .tc) → Buf (Elt F) ((c : Thread nD τ).loc b))

/-- THE ACCUMULATION: what the accumulator holds after the body at position `n` of the grid's row-major walk. -/
def outsAt2 (c : Dev nD) : (n : ℕ) → n < cfg2.N → Vec F S1x1 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 16 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) ((hcond2_0 ⟨n + 1, hn⟩).mpr h0) (iblk2 V c 0 ⟨n + 1, hn⟩) (iblk2 V c 1 ⟨n + 1, hn⟩) (iblk2 V c 2 ⟨n + 1, hn⟩)
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn))

theorem outsAt2_A (c : Dev nD) (t : Fin cfg2.N) (h0 : t.val % 16 = 0) :
    outsAt2 V c t.val t.isLt = out2_A_3 c (grid2.coords t) (ms2_0 t) (hs2_0 t) (ms2_1 t) (hs2_1 t) (ms2_2 t) (hs2_2 t) (ms2_3 t) (hs2_3 t) ((hcond2_0 t).mpr h0) (iblk2 V c 0 t) (iblk2 V c 1 t) (iblk2 V c 2 t) := by
  obtain ⟨n, hn⟩ := t
  cases n with
  | zero => exact rfl
  | succ n => exact (dif_pos h0).trans rfl

theorem outsAt2_B (c : Dev nD) (t : Fin cfg2.N) (h0 : ¬t.val % 16 = 0) :
    outsAt2 V c t.val t.isLt = out2_B_3 c (grid2.coords t) (ms2_0 t) (hs2_0 t) (ms2_1 t) (hs2_1 t) (ms2_2 t) (hs2_2 t) (ms2_3 t) (hs2_3 t) (fun h => h0 ((hcond2_0 t).mp h)) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The share of its array each input window holds (every array is read by one window: the full share). -/
def shares2 : Fin cfg2.W → PosShare TreeShare := fun _ => fullShare

/-- The proof data of quadrant 2's pipeline on core `c`: the arrays as the quadrant finds them; after the body at point `t`
    each input's buffer at its block and the accumulator's at `outsAt2`; the invariant the scoped rest and the generator
    register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt)
  Φ _ := Pipeline.ΦA spec2 c
  q := shares2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a later point the accumulator's buffer holds what the body left at the point before: it was not written back
    between (only the last point writes it back). -/
theorem before2_3_B (c : Dev nD) (t : Fin cfg2.N) (h0 : ¬t.val % 16 = 0) (d) :
    (dat2 V c).before 3 t d = (outsAt2 V c (t.val - 1) (Nat.lt_of_le_of_lt (Nat.sub_le _ _) t.isLt)) := by
  have hN : t.val < 16 := lt_of_lt_of_eq t.isLt (show cfg2.N = 16 from N_2)
  rw [Dat.before_out_kept _ 3 rfl t (by omega) (Bool.eq_false_iff.mpr fun h => by have := (flush2_3 _).mp h; dsimp only at this; omega)
    (fun _ => rfl) (fun _ _ => rfl)]
  dsimp only [dat2]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
/-- The body at any point: the inputs' buffers hold their blocks; the point is the first or a later one, and at a later one
    the accumulator holds what the point before left; so the matching run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 16 := lt_of_lt_of_eq t.isLt (show cfg2.N = 16 from N_2)
  by_cases h0 : t.val % 16 = 0
  · rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ ((hcond2_0 t).mpr h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _)
  · rw [outsAt2_B V c t h0]
    simp only [before2_3_B V c t h0]
    unfold out2_B_3
    iintro ⟨HΦ, Ho, ⟨%d0, H0⟩, ⟨%d1, H1⟩, ⟨%d2, H2⟩, ⟨%d3, H3⟩⟩
    iapply ((kernelRun2_B c (grid2.coords t) _ _ _ _ _ _ _ _ (fun h => h0 ((hcond2_0 t).mp h)) (iblk2 V c 0 t) (iblk2 V c 1 t) (iblk2 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Gen

end
-- ==== Proof.KI.Shared0.lean ====
/-
  Quadrant 0: the windows' arrays among the core's unscoped buffers, when two windows read ONE array.

  Between regions the core holds every unscoped buffer whole at the full share. The quadrant's four windows name three
  distinct buffers: the bandwidth, the cloud both row-block windows are cut from, and the accumulator. Entering the region,
  the cloud's buffer is split along its share into the two halves the two windows hold; leaving it, the two halves, which
  hold the same contents, are joined again. The other two buffers pass whole.
-/
import proofs.«101678_j64098091925653_1_alg».proof.Proof.KI.Body0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind quadrant 0's windows: three, the cloud's named by two windows. -/
theorem arrImage0 : Finset.univ.image (Pipeline.arrRef spec0) = {main_v15, main_arg0, main_v16} := by decide

section
variable (V : (c : Dev nD) → (b : Ref sig .tc) → Buf (Elt F) ((c : Thread nD τ).loc b))

/-- The core's unscoped buffers are the buffers behind the windows and the rest. -/
theorem unscopedBufs_split0 (c : Dev nD) (W : (b : Ref sig .tc) → Buf (Elt F) ((c : Thread nD τ).loc b)) :
    (unscopedBufs c W : sProp 𝕄) = iprop((Pipeline.arrBufs spec0 c W : sProp 𝕄) ∗ Pipeline.unscopedRest spec0 c W) :=
  Pipeline.unscopedBufs_split₀ cfgs 0 winFacts₀0.arr_unscoped c W

/-- The buffers behind the windows, one by one: each whole at the full share. -/
theorem arrBufs0_eq (c : Dev nD) (W : (b : Ref sig .tc) → Buf (Elt F) ((c : Thread nD τ).loc b)) :
    (Pipeline.arrBufs spec0 c W : sProp 𝕄)
      = iprop((((c : Thread nD τ).loc main_v15) ↦{fullShare} W main_v15) ∗ (((c : Thread nD τ).loc main_arg0) ↦{fullShare} W main_arg0)
          ∗ (((c : Thread nD τ).loc main_v16) ↦{fullShare} W main_v16)) := by
  unfold Pipeline.arrBufs
  rw [arrImage0, bigSep_insert (by decide), bigSep_insert (by decide), bigSep_singleton]
  rfl

/-- The pipeline's arrays, window by window: the bandwidth and the accumulator whole at the full share, the cloud at the
    left half for the first row-block window and at the right half for the second. -/
theorem arrays0_eq (c : Dev nD) (G : (w : Fin cfg0.W) → Buf (Elt F) ((cfg0.win w).arr.view.loc (c : Thread nD τ))) :
    (dat0 V c).arrays G
      = iprop((((c : Thread nD τ).loc main_v15) ↦{fullShare} G 0) ∗ (((c : Thread nD τ).loc main_arg0) ↦{fullShare.left} G 1)
          ∗ (((c : Thread nD τ).loc main_arg0) ↦{fullShare.right} G 2) ∗ (((c : Thread nD τ).loc main_v16) ↦{fullShare} G 3)) := by
  have h : (dat0 V c).arrays G
      = bigSep Finset.univ fun w => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

/-- ENTRY: the core's unscoped buffers at contents `V c` are the pipeline's arrays at the entry contents — the cloud's buffer
    split into its two halves, one per row-block window — and the unscoped rest. -/
theorem arrays_of_unscopedBufs0 (c : Dev nD) :
    (unscopedBufs c (V c) : sProp 𝕄)
      ⊢ iprop((dat0 V c).arrays ((dat0 V c).arrAt · 0) ∗ Pipeline.unscopedRest spec0 c (V c)) := by
  rw [unscopedBufs_split0, arrBufs0_eq, arrays0_eq]
  refine sep_mono ?_ .rfl
  iintro ⟨H15, Ha, H16⟩
  ihave Ha := (pointsTo_share (PosShare.mem_left_op_right fullShare)).1 $$ Ha
  icases Ha with ⟨Ha₁, Ha₂⟩
  isplitl [H15]; · iexact H15
  isplitl [Ha₁]; · iexact Ha₁
  isplitl [Ha₂]; · iexact Ha₂
  iexact H16

/-- EXIT: the pipeline's arrays at contents `G` and the unscoped rest at `V c` are the core's unscoped buffers at any
    valuation `V'` that has the arrays at `G` and agrees with `V c` off them: the two row-block windows then hold the
    cloud's two halves at the same contents, and the halves join. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V c b) :
    iprop((dat0 V c).arrays G ∗ Pipeline.unscopedRest spec0 c (V c)) ⊢ (unscopedBufs c V' : sProp 𝕄) := by
  rw [unscopedBufs_split0, arrBufs0_eq, arrays0_eq, hG 0, hG 1, hG 2, hG 3]
  refine sep_mono ?_ (Entails.of_eq ?_)
  · iintro ⟨H15, Ha₁, Ha₂, H16⟩
    isplitl [H15]; · iexact H15
    isplitl [Ha₁ Ha₂]
    · iapply (pointsTo_share (PosShare.mem_left_op_right fullShare)).2
      isplitl [Ha₁]; · iexact Ha₁
      iexact Ha₂
    iexact H16
  · unfold Pipeline.unscopedRest
    exact bigSep_congr fun b hb => by rw [hrest b (Finset.mem_sdiff.mp hb).2]

end

end Cert.KernelIdeal.Gen

end
-- ==== Proof.KI.Shared1.lean ====
/-
  Quadrant 1: the windows' arrays among the core's unscoped buffers, when two windows read ONE array.

  Between regions the core holds every unscoped buffer whole at the full share. The quadrant's four windows name three
  distinct buffers: the bandwidth, the cloud both row-block windows are cut from, and the accumulator. Entering the region,
  the cloud's buffer is split along its share into the two halves the two windows hold; leaving it, the two halves, which
  hold the same contents, are joined again. The other two buffers pass whole.
-/
import proofs.«101678_j64098091925653_1_alg».proof.Proof.KI.Body1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind quadrant 1's windows: three, the cloud's named by two windows. -/
theorem arrImage1 : Finset.univ.image (Pipeline.arrRef spec1) = {main_v18, main_arg1, main_v19} := by decide

section
variable (V : (c : Dev nD) → (b : Ref sig .tc) → Buf (Elt F) ((c : Thread nD τ).loc b))

/-- The core's unscoped buffers are the buffers behind the windows and the rest. -/
theorem unscopedBufs_split1 (c : Dev nD) (W : (b : Ref sig .tc) → Buf (Elt F) ((c : Thread nD τ).loc b)) :
    (unscopedBufs c W : sProp 𝕄) = iprop((Pipeline.arrBufs spec1 c W : sProp 𝕄) ∗ Pipeline.unscopedRest spec1 c W) :=
  Pipeline.unscopedBufs_split₀ cfgs 1 winFacts₀1.arr_unscoped c W

/-- The buffers behind the windows, one by one: each whole at the full share. -/
theorem arrBufs1_eq (c : Dev nD) (W : (b : Ref sig .tc) → Buf (Elt F) ((c : Thread nD τ).loc b)) :
    (Pipeline.arrBufs spec1 c W : sProp 𝕄)
      = iprop((((c : Thread nD τ).loc main_v18) ↦{fullShare} W main_v18) ∗ (((c : Thread nD τ).loc main_arg1) ↦{fullShare} W main_arg1)
          ∗ (((c : Thread nD τ).loc main_v19) ↦{fullShare} W main_v19)) := by
  unfold Pipeline.arrBufs
  rw [arrImage1, bigSep_insert (by decide), bigSep_insert (by decide), bigSep_singleton]
  rfl

/-- The pipeline's arrays, window by window: the bandwidth and the accumulator whole at the full share, the cloud at the
    left half for the first row-block window and at the right half for the second. -/
theorem arrays1_eq (c : Dev nD) (G : (w : Fin cfg1.W) → Buf (Elt F) ((cfg1.win w).arr.view.loc (c : Thread nD τ))) :
    (dat1 V c).arrays G
      = iprop((((c : Thread nD τ).loc main_v18) ↦{fullShare} G 0) ∗ (((c : Thread nD τ).loc main_arg1) ↦{fullShare.left} G 1)
          ∗ (((c : Thread nD τ).loc main_arg1) ↦{fullShare.right} G 2) ∗ (((c : Thread nD τ).loc main_v19) ↦{fullShare} G 3)) := by
  have h : (dat1 V c).arrays G
      = bigSep Finset.univ fun w => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY: the core's unscoped buffers at contents `V c` are the pipeline's arrays at the entry contents — the cloud's buffer
    split into its two halves, one per row-block window — and the unscoped rest. -/
theorem arrays_of_unscopedBufs1 (c : Dev nD) :
    (unscopedBufs c (V c) : sProp 𝕄)
      ⊢ iprop((dat1 V c).arrays ((dat1 V c).arrAt · 0) ∗ Pipeline.unscopedRest spec1 c (V c)) := by
  rw [unscopedBufs_split1, arrBufs1_eq, arrays1_eq]
  refine sep_mono ?_ .rfl
  iintro ⟨H15, Ha, H16⟩
  ihave Ha := (pointsTo_share (PosShare.mem_left_op_right fullShare)).1 $$ Ha
  icases Ha with ⟨Ha₁, Ha₂⟩
  isplitl [H15]; · iexact H15
  isplitl [Ha₁]; · iexact Ha₁
  isplitl [Ha₂]; · iexact Ha₂
  iexact H16

/-- EXIT: the pipeline's arrays at contents `G` and the unscoped rest at `V c` are the core's unscoped buffers at any
    valuation `V'` that has the arrays at `G` and agrees with `V c` off them: the two row-block windows then hold the
    cloud's two halves at the same contents, and the halves join. -/
theorem unscopedBufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [unscopedBufs_split1, arrBufs1_eq, arrays1_eq, hG 0, hG 1, hG 2, hG 3]
  refine sep_mono ?_ (Entails.of_eq ?_)
  · iintro ⟨H15, Ha₁, Ha₂, H16⟩
    isplitl [H15]; · iexact H15
    isplitl [Ha₁ Ha₂]
    · iapply (pointsTo_share (PosShare.mem_left_op_right fullShare)).2
      isplitl [Ha₁]; · iexact Ha₁
      iexact Ha₂
    iexact H16
  · unfold Pipeline.unscopedRest
    exact bigSep_congr fun b hb => by rw [hrest b (Finset.mem_sdiff.mp hb).2]

end

end Cert.KernelIdeal.Gen

end
-- ==== Proof.KI.Segs.lean ====
/-
  The whole program as a chain of segments: host operations (the bandwidth), quadrant 0 (first cloud against itself),
  two reshapes, quadrant 1 (second cloud against itself), two reshapes, quadrant 2 (first against second), and the host
  operations that combine the three sums. The buffer contents at each boundary are a fold from the launch memory: a host
  stretch applies its operations, a quadrant replaces its accumulator's array by what its pipeline wrote back. Every weakly
  fair execution terminates and ends with every unscoped buffer at the last boundary's contents — in particular the two
  argument arrays as launched and the result at the fold's value.
-/
import proofs.«101678_j64098091925653_1_alg».proof.Proof.KI.Body0
import proofs.«101678_j64098091925653_1_alg».proof.Proof.KI.Body1
import proofs.«101678_j64098091925653_1_alg».proof.Proof.KI.Body2
import proofs.«101678_j64098091925653_1_alg».proof.Proof.KI.Shared0
import proofs.«101678_j64098091925653_1_alg».proof.Proof.KI.Shared1
import proofs.«101678_j64098091925653_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first host stretch (the bandwidth and its 1x1 reshape). -/
abbrev W1 : Dev nD → Valuation τ sig (Elt F) := fun c => StableHlo.after hostOps0 (W0 m c)
abbrev R1 : (c : Dev nD) → (b : Ref sig .tc) → Buf (Elt F) ((c : Thread nD τ).loc b) := fun c b => W1 m c b

/-- What quadrant 0's pipeline leaves in its accumulator's array. -/
def o0 (c : Dev nD) : Buf (Elt F) ((c : Thread nD τ).loc main_v16) := (dat0 (R1 m) c).arrAt 3 cfg0.N
/-- After quadrant 0: the accumulator's array at what the pipeline left, every other buffer as entered. -/
def W2 (c : Dev nD) : Valuation τ sig (Elt F) := Function.update (W1 m c) main_v16 (o0 m c)
abbrev R2 : (c : Dev nD) → (b : Ref sig .tc) → Buf (Elt F) ((c : Thread nD τ).loc b) := fun c b => W2 m c b
theorem W2_out (c : Dev nD) : W2 m c main_v16 = o0 m c := by unfold W2; exact Function.update_self _ _ _
theorem W2_of_ne (c : Dev nD) (b : Ref sig .tc) (hb : b ≠ main_v16) : W2 m c b = W1 m c b := by
  unfold W2; exact Function.update_of_ne (StableHlo.devRef_ne_of_ne hb) _ _
/-- At quadrant 0's exit each of its arrays holds what the pipeline leaves — an input's array what it held (nothing
    writes it), the accumulator's the write-back — -/
theorem hF0 (c : Dev nD) (w : Fin cfg0.W) : (dat0 (R1 m) c).arrAt w cfg0.N = R2 m c (Pipeline.arrRef spec0 w) := by
  match w with
  | ⟨0, _⟩ => exact (((dat0 (R1 m) c).arrAt_in 0 rfl _).trans (A_eq0 (R1 m) c 0)).trans (W2_of_ne m c _ (by decide)).symm
  | ⟨1, _⟩ => exact (((dat0 (R1 m) c).arrAt_in 1 rfl _).trans (A_eq0 (R1 m) c 1)).trans (W2_of_ne m c _ (by decide)).symm
  | ⟨2, _⟩ => exact (((dat0 (R1 m) c).arrAt_in 2 rfl _).trans (A_eq0 (R1 m) c 2)).trans (W2_of_ne m c _ (by decide)).symm
  | ⟨3, _⟩ => exact (W2_out m c).symm
/-- and every other buffer what it held at entry. -/
theorem hrest0 (c : Dev nD) : ∀ b, b ∉ Finset.univ.image (Pipeline.arrRef spec0) → R2 m c b = R1 m c b :=
  fun b hb => W2_of_ne m c b fun e => hb (Finset.mem_image.mpr ⟨3, Finset.mem_univ _, e.symm⟩)
/-- After the host operations that follow quadrant 0. -/
abbrev W3 : Dev nD → Valuation τ sig (Elt F) := fun c => StableHlo.after hostOps1 (W2 m c)
abbrev R3 : (c : Dev nD) → (b : Ref sig .tc) → Buf (Elt F) ((c : Thread nD τ).loc b) := fun c b => W3 m c b

/-- What quadrant 1's pipeline leaves in its accumulator's array. -/
def o1 (c : Dev nD) : Buf (Elt F) ((c : Thread nD τ).loc main_v19) := (dat1 (R3 m) c).arrAt 3 cfg1.N
/-- After quadrant 1: the accumulator's array at what the pipeline left, every other buffer as entered. -/
def W4 (c : Dev nD) : Valuation τ sig (Elt F) := Function.update (W3 m c) main_v19 (o1 m c)
abbrev R4 : (c : Dev nD) → (b : Ref sig .tc) → Buf (Elt F) ((c : Thread nD τ).loc b) := fun c b => W4 m c b
theorem W4_out (c : Dev nD) : W4 m c main_v19 = o1 m c := by unfold W4; exact Function.update_self _ _ _
theorem W4_of_ne (c : Dev nD) (b : Ref sig .tc) (hb : b ≠ main_v19) : W4 m c b = W3 m c b := by
  unfold W4; exact Function.update_of_ne (StableHlo.devRef_ne_of_ne hb) _ _
/-- At quadrant 1's exit each of its arrays holds what the pipeline leaves — an input's array what it held (nothing
    writes it), the accumulator's the write-back — -/
theorem hF1 (c : Dev nD) (w : Fin cfg1.W) : (dat1 (R3 m) c).arrAt w cfg1.N = R4 m c (Pipeline.arrRef spec1 w) := by
  match w with
  | ⟨0, _⟩ => exact (((dat1 (R3 m) c).arrAt_in 0 rfl _).trans (A_eq1 (R3 m) c 0)).trans (W4_of_ne m c _ (by decide)).symm
  | ⟨1, _⟩ => exact (((dat1 (R3 m) c).arrAt_in 1 rfl _).trans (A_eq1 (R3 m) c 1)).trans (W4_of_ne m c _ (by decide)).symm
  | ⟨2, _⟩ => exact (((dat1 (R3 m) c).arrAt_in 2 rfl _).trans (A_eq1 (R3 m) c 2)).trans (W4_of_ne m c _ (by decide)).symm
  | ⟨3, _⟩ => exact (W4_out m c).symm
/-- and every other buffer what it held at entry. -/
theorem hrest1 (c : Dev nD) : ∀ b, b ∉ Finset.univ.image (Pipeline.arrRef spec1) → R4 m c b = R3 m c b :=
  fun b hb => W4_of_ne m c b fun e => hb (Finset.mem_image.mpr ⟨3, Finset.mem_univ _, e.symm⟩)
/-- After the host operations that follow quadrant 1. -/
abbrev W5 : Dev nD → Valuation τ sig (Elt F) := fun c => StableHlo.after hostOps2 (W4 m c)
abbrev R5 : (c : Dev nD) → (b : Ref sig .tc) → Buf (Elt F) ((c : Thread nD τ).loc b) := fun c b => W5 m c b

/-- What quadrant 2's pipeline leaves in its accumulator's array. -/
def o2 (c : Dev nD) : Buf (Elt F) ((c : Thread nD τ).loc main_v22) := (dat2 (R5 m) c).arrAt 3 cfg2.N
/-- After quadrant 2: the accumulator's array at what the pipeline left, every other buffer as entered. -/
def W6 (c : Dev nD) : Valuation τ sig (Elt F) := Function.update (W5 m c) main_v22 (o2 m c)
abbrev R6 : (c : Dev nD) → (b : Ref sig .tc) → Buf (Elt F) ((c : Thread nD τ).loc b) := fun c b => W6 m c b
theorem W6_out (c : Dev nD) : W6 m c main_v22 = o2 m c := by unfold W6; exact Function.update_self _ _ _
theorem W6_of_ne (c : Dev nD) (b : Ref sig .tc) (hb : b ≠ main_v22) : W6 m c b = W5 m c b := by
  unfold W6; exact Function.update_of_ne (StableHlo.devRef_ne_of_ne hb) _ _
/-- At quadrant 2's exit each of its arrays holds what the pipeline leaves — an input's array what it held (nothing
    writes it), the accumulator's the write-back — -/
theorem hF2 (c : Dev nD) (w : Fin cfg2.W) : (dat2 (R5 m) c).arrAt w cfg2.N = R6 m c (Pipeline.arrRef spec2 w) := by
  match w with
  | ⟨0, _⟩ => exact (((dat2 (R5 m) c).arrAt_in 0 rfl _).trans (A_eq2 (R5 m) c 0)).trans (W6_of_ne m c _ (by decide)).symm
  | ⟨1, _⟩ => exact (((dat2 (R5 m) c).arrAt_in 1 rfl _).trans (A_eq2 (R5 m) c 1)).trans (W6_of_ne m c _ (by decide)).symm
  | ⟨2, _⟩ => exact (((dat2 (R5 m) c).arrAt_in 2 rfl _).trans (A_eq2 (R5 m) c 2)).trans (W6_of_ne m c _ (by decide)).symm
  | ⟨3, _⟩ => exact (W6_out m c).symm
/-- and every other buffer what it held at entry. -/
theorem hrest2 (c : Dev nD) : ∀ b, b ∉ Finset.univ.image (Pipeline.arrRef spec2) → R6 m c b = R5 m c b :=
  fun b hb => W6_of_ne m c b fun e => hb (Finset.mem_image.mpr ⟨3, Finset.mem_univ _, e.symm⟩)
/-- After the host operations that follow quadrant 2. -/
abbrev W7 : Dev nD → Valuation τ sig (Elt F) := fun c => StableHlo.after hostOps3 (W6 m c)
abbrev R7 : (c : Dev nD) → (b : Ref sig .tc) → Buf (Elt F) ((c : Thread nD τ).loc b) := fun c b => W7 m c b

/-! ## The arguments end as launched -/

theorem W7_main_arg0 (c : Dev nD) : W7 m c main_arg0 = m ((c : Thread nD τ).loc main_arg0) :=
  (StableHlo.after_of_writes_sub hostOps3 _ hostOps3_writes (r := main_arg0) (by decide)).trans <|
  (W6_of_ne m c main_arg0 (by decide)).trans <|
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl
theorem W7_main_arg1 (c : Dev nD) : W7 m c main_arg1 = m ((c : Thread nD τ).loc main_arg1) :=
  (StableHlo.after_of_writes_sub hostOps3 _ hostOps3_writes (r := main_arg1) (by decide)).trans <|
  (W6_of_ne m c main_arg1 (by decide)).trans <|
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  (W2_of_ne m c main_arg1 (by decide)).trans <|
  (StableHlo.after_of_writes_sub hostOps0 _ hostOps0_writes (r := main_arg1) (by decide)).trans rfl

/-! ## The proof data family and the thread state -/

/-- Every pipeline's proof data, each at its quadrant's entry contents. -/
def pdats : (p : Fin 3) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The quadrants as segments -/

set_option backward.isDefEq.respectTransparency.types false in
/-- QUADRANT 0 as a segment of the program: entered with every unscoped buffer at `W1`, left with them at `W2` (the
    accumulator's array at what the pipeline wrote back, everything else as entered). Its arrays are split out of the
    unscoped buffers at entry and put back at exit (the shared array at its two half shares); the generator register goes into the invariant and comes back; nothing
    is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := arrays_of_unscopedBufs0 (R1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (R1 m) c (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- QUADRANT 1 as a segment of the program: entered with every unscoped buffer at `W3`, left with them at `W4` (the
    accumulator's array at what the pipeline wrote back, everything else as entered). Its arrays are split out of the
    unscoped buffers at entry and put back at exit (the shared array at its two half shares); the generator register goes into the invariant and comes back; nothing
    is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := arrays_of_unscopedBufs1 (R3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (R3 m) c (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- QUADRANT 2 as a segment of the program: entered with every unscoped buffer at `W5`, left with them at `W6` (the
    accumulator's array at what the pipeline wrote back, everything else as entered). Its arrays are split out of the
    unscoped buffers at entry and put back at exit; the generator register goes into the invariant and comes back; nothing
    is owed; the kernel has no semaphore of its own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (R5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev progSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (progSegs m) := (main_chain c).trans (by chain_rfl)

set_option backward.isDefEq.respectTransparency.types false in
/-- THE RUN: from any memory with zero counters every weakly fair execution of the program terminates, nothing faulting,
    and every final state has every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (progSegs m)
    (fun c Q => by rw [main_run m c])
    (by simp only [progSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: the two argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W7_main_arg0 m c), (h c _ (mem_uc main_arg1 (by decide))).trans (W7_main_arg1 m c)⟩) (run_all m ρ)

end Cert.KernelIdeal.Gen

end
-- ==== Proof.KI.Fold.lean ====
/-
  How single buffers travel through the program's fold of boundary contents. A host stretch leaves every buffer that none
  of its operations writes as it found it, and a quadrant changes its accumulator's array only. So the two argument arrays
  reach every quadrant as launched, the bandwidth scalar computed by the first stretch is still there after the first two
  quadrants, and each quadrant's reshaped sum stays put until the last stretch reads it.
-/
import proofs.«101678_j64098091925653_1_alg».proof.Proof.KI.Segs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The argument arrays at the quadrants' entries -/

/-- The first stretch writes neither argument array. -/
theorem W1_arg0 (c : Dev nD) : W1 m c main_arg0 = m ((c : Thread nD τ).loc main_arg0) :=
  (StableHlo.after_of_writes_sub hostOps0 _ hostOps0_writes (r := main_arg0) (by decide)).trans rfl
theorem W1_arg1 (c : Dev nD) : W1 m c main_arg1 = m ((c : Thread nD τ).loc main_arg1) :=
  (StableHlo.after_of_writes_sub hostOps0 _ hostOps0_writes (r := main_arg1) (by decide)).trans rfl

/-- Nor do quadrant 0 and the stretch after it. -/
theorem W3_arg0 (c : Dev nD) : W3 m c main_arg0 = m ((c : Thread nD τ).loc main_arg0) :=
  (StableHlo.after_of_writes_sub hostOps1 _ hostOps1_writes (r := main_arg0) (by decide)).trans <|
  (W2_of_ne m c main_arg0 (by decide)).trans <|
  W1_arg0 m c
theorem W3_arg1 (c : Dev nD) : W3 m c main_arg1 = m ((c : Thread nD τ).loc main_arg1) :=
  (StableHlo.after_of_writes_sub hostOps1 _ hostOps1_writes (r := main_arg1) (by decide)).trans <|
  (W2_of_ne m c main_arg1 (by decide)).trans <|
  W1_arg1 m c

/-- Nor do quadrant 1 and the stretch after it. -/
theorem W5_arg0 (c : Dev nD) : W5 m c main_arg0 = m ((c : Thread nD τ).loc main_arg0) :=
  (StableHlo.after_of_writes_sub hostOps2 _ hostOps2_writes (r := main_arg0) (by decide)).trans <|
  (W4_of_ne m c main_arg0 (by decide)).trans <|
  W3_arg0 m c
theorem W5_arg1 (c : Dev nD) : W5 m c main_arg1 = m ((c : Thread nD τ).loc main_arg1) :=
  (StableHlo.after_of_writes_sub hostOps2 _ hostOps2_writes (r := main_arg1) (by decide)).trans <|
  (W4_of_ne m c main_arg1 (by decide)).trans <|
  W3_arg1 m c

/-! ## The bandwidth scalar survives the first two quadrants -/

theorem W2_v14 (c : Dev nD) : W2 m c main_v14 = W1 m c main_v14 := W2_of_ne m c main_v14 (by decide)
theorem W4_v14 (c : Dev nD) : W4 m c main_v14 = W1 m c main_v14 :=
  (W4_of_ne m c main_v14 (by decide)).trans <|
  (StableHlo.after_of_writes_sub hostOps1 _ hostOps1_writes (r := main_v14) (by decide)).trans <|
  W2_v14 m c

/-! ## The quadrants' sums stay until the last stretch -/

theorem W6_v17 (c : Dev nD) : W6 m c main_v17 = W3 m c main_v17 :=
  (W6_of_ne m c main_v17 (by decide)).trans <|
  (StableHlo.after_of_writes_sub hostOps2 _ hostOps2_writes (r := main_v17) (by decide)).trans <|
  W4_of_ne m c main_v17 (by decide)
theorem W6_v20 (c : Dev nD) : W6 m c main_v20 = W5 m c main_v20 := W6_of_ne m c main_v20 (by decide)

end Cert.KernelIdeal.Gen

end
-- ==== Proof.KI.Pieces0.lean ====
/-
  Quadrant 0: what one run of the body leaves in the accumulator, as a value. At the first point the body stores a
  zero, reads it back and stores the sum of the point's block over it; at a later point it stores the sum of the
  point's block over what the accumulator held. Each run's last store covers the 1x1 buffer, so what is left is that
  store's payload; every load reads a whole buffer through the full rectangle at offset zero, which is the buffer's
  contents.
-/
import proofs.«101678_j64098091925653_1_alg».proof.Proof.KI.Body0
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every load and store of the body: zero on both axes. -/
theorem hz0 : (![0, 0] : Fin 2 → Nat) = fun _ => 0 := funext fun a => by fin_cases a <;> rfl

/-- A later point leaves the block's sum added to what the accumulator held. -/
theorem out0_B_3_eq (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond0_0 i)
    (x0 : Vec F S1x1 .f32) (x1 : Vec F S1024x512 .f32) (x2 : Vec F S1024x512 .f32) (xo3 : Vec F S1x1 .f32) :
    out0_B_3 c i arg2 harg2 arg3 harg3 arg4 harg4 arg5 harg5 hc0 x0 x1 x2 xo3
      = k0_pay1 (k0_pay3 x1 x2) (k0_pay4 x0) (k0_pay5 x1 x2 x0) (k0_pay6 x1 x2) (k0_pay7 x0) xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz0]
  simp only [View.readAt_eq_ld, harg2.read_unread, harg3.read_unread, harg4.read_unread, harg5.read_unread,
    View.ld_unit_zero (S := S1x1) hz0, View.ld_unit_zero (S := S1024x512) hz0]

/-- The first point leaves the block's sum added to the zero it has just stored and read back. -/
theorem out0_A_3_eq (c : Dev nD) (i : grid0.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond0_0 i)
    (x0 : Vec F S1x1 .f32) (x1 : Vec F S1024x512 .f32) (x2 : Vec F S1024x512 .f32) :
    out0_A_3 c i arg2 harg2 arg3 harg3 arg4 harg4 arg5 harg5 hc0 x0 x1 x2
      = k0_pay1 (k0_pay3 x1 x2) (k0_pay4 x0) (k0_pay5 x1 x2 x0) (k0_pay6 x1 x2) (k0_pay7 x0) (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x1) hz0, View.readCov_unit_zero (S := S1x1) _ hz0]
  simp only [View.readAt_eq_ld, harg2.read_unread, harg3.read_unread, harg4.read_unread,
    View.ld_unit_zero (S := S1x1) hz0, View.ld_unit_zero (S := S1024x512) hz0]

end Cert.KernelIdeal.Gen

end
-- ==== Proof.Spec.lean ====
/-
  The results of the two programs as closed formulas over the extended reals.

  Both programs compute a multi-bandwidth Gaussian-kernel discrepancy of two point clouds `a`, `b` (4096 points of
  dimension 512 each). With `dist u v = |u|² + |v|² - 2 u·v` (the squared distance in Gram form) and a bandwidth `bw`, an
  entry of the kernel matrix is the sum of five terms `exp (-dist / (bw · 2^k))`, `k = 0 … 4`.

  * The kernel takes the bandwidth from the identity `∑ᵢⱼ dist(tᵢ, tⱼ) = 2 n ∑ᵢ |tᵢ|² - 2 |∑ᵢ tᵢ|²` over the
    `n = 8192` stacked points (so `2 n = 16384`), multiplies `-dist` by the reciprocal `1 / (bw · 2^k)`, sums three quadrants
    (a against a, b against b, a against b) and returns `XX/N + YY/N - 2·(XY/N)`, `N = 4096²`.
  * The reference stacks the points, sums `dist` over all pairs for the bandwidth, divides `-dist` by `bw · 2^k`, and
    returns `XX/N + YY/N - XY/N - YX/N` over the four quadrants of the stacked kernel matrix.

  The formulas keep each program's own order of operations (which matters at the corners of the extended reals); that
  the two agree on finite inputs is the algebra module's theorem.
-/
import Idealize.ShloMosaic.PureOps.Ideal

noncomputable section

namespace Cert.MMD

open Idealize.ShloMosaic

/-- A point's squared norm. -/
def sq (u : Fin 512 → EReal) : EReal := ∑ d, u d * u d

/-- The inner product of two points. -/
def dot (u v : Fin 512 → EReal) : EReal := ∑ d, u d * v d

/-- The squared distance of two points in Gram form, `(|u|² + |v|²) - 2 (u·v)`. -/
def dist (u v : Fin 512 → EReal) : EReal := (sq u + sq v) - ((2 : ℝ) : EReal) * dot u v

/-- The kernel's five-term entry: `-L` spelt `0 - L`, times the reciprocal of `bw · 2^k` (the first reciprocal of `bw` itself). -/
def kterm (L bw : EReal) : EReal :=
  Ideal.exp ((((0 : ℝ) : EReal) - L) * Ideal.div ((1 : ℝ) : EReal) bw)
    + Ideal.exp ((((0 : ℝ) : EReal) - L) * Ideal.div ((1 : ℝ) : EReal) (bw * ((2 : ℝ) : EReal)))
    + Ideal.exp ((((0 : ℝ) : EReal) - L) * Ideal.div ((1 : ℝ) : EReal) (bw * ((4 : ℝ) : EReal)))
    + Ideal.exp ((((0 : ℝ) : EReal) - L) * Ideal.div ((1 : ℝ) : EReal) (bw * ((8 : ℝ) : EReal)))
    + Ideal.exp ((((0 : ℝ) : EReal) - L) * Ideal.div ((1 : ℝ) : EReal) (bw * ((16 : ℝ) : EReal)))

/-- The reference's five-term entry: from zero, `-L` divided by `bw · 2^k`. -/
def rterm (L bw : EReal) : EReal :=
  ((0 : ℝ) : EReal)
    + Ideal.exp (Ideal.div (-L) (bw * ((1 : ℝ) : EReal)))
    + Ideal.exp (Ideal.div (-L) (bw * ((2 : ℝ) : EReal)))
    + Ideal.exp (Ideal.div (-L) (bw * ((4 : ℝ) : EReal)))
    + Ideal.exp (Ideal.div (-L) (bw * ((8 : ℝ) : EReal)))
    + Ideal.exp (Ideal.div (-L) (bw * ((16 : ℝ) : EReal)))

/-- One quadrant of the kernel's sum: every point of `A` against every point of `B`. -/
def kquad (A B : Fin 4096 → Fin 512 → EReal) (bw : EReal) : EReal := ∑ p, ∑ q, kterm (dist (A p) (B q)) bw

/-- One quadrant of the reference's sum. -/
def rquad (A B : Fin 4096 → Fin 512 → EReal) (bw : EReal) : EReal := ∑ p, ∑ q, rterm (dist (A p) (B q)) bw

/-- The kernel's bandwidth: `(16384 ∑|t|² - 2 |∑ t|²) / 67100672 / 4` over the points of both clouds. -/
def kbw (a b : Fin 4096 → Fin 512 → EReal) : EReal :=
  Ideal.div (Ideal.div
    (((16384 : ℝ) : EReal) * ((∑ p, ∑ d, a p d * a p d) + (∑ p, ∑ d, b p d * b p d))
      - ((2 : ℝ) : EReal) * ∑ d, ((∑ p, a p d) + (∑ p, b p d)) * ((∑ p, a p d) + (∑ p, b p d)))
    ((67100672 : ℝ) : EReal)) ((4 : ℝ) : EReal)

/-- The kernel's result. -/
def kernelSpec (a b : Fin 4096 → Fin 512 → EReal) : EReal :=
  (Ideal.div (kquad a a (kbw a b)) ((16777216 : ℝ) : EReal) + Ideal.div (kquad b b (kbw a b)) ((16777216 : ℝ) : EReal))
    - ((2 : ℝ) : EReal) * Ideal.div (kquad a b (kbw a b)) ((16777216 : ℝ) : EReal)

/-- The two clouds stacked: rows `0 … 4095` are `a`'s, rows `4096 … 8191` are `b`'s. -/
def cat (a b : Fin 4096 → Fin 512 → EReal) : Fin 8192 → Fin 512 → EReal :=
  fun i => if h : i.val < 4096 then a ⟨i.val, h⟩ else b ⟨i.val - 4096, by have := i.isLt; omega⟩

/-- The reference's bandwidth: the sum of `dist` over all pairs of stacked points, `/ 67100672 / 4`. -/
def rbw (T : Fin 8192 → Fin 512 → EReal) : EReal :=
  Ideal.div (Ideal.div (∑ i, ∑ j, dist (T i) (T j)) ((67100672 : ℝ) : EReal)) ((4 : ℝ) : EReal)

/-- The reference's result. -/
def refSpec (a b : Fin 4096 → Fin 512 → EReal) : EReal :=
  ((Ideal.div (rquad a a (rbw (cat a b))) ((16777216 : ℝ) : EReal) + Ideal.div (rquad b b (rbw (cat a b))) ((16777216 : ℝ) : EReal))
    - Ideal.div (rquad a b (rbw (cat a b))) ((16777216 : ℝ) : EReal))
    - Ideal.div (rquad b a (rbw (cat a b))) ((16777216 : ℝ) : EReal)

end Cert.MMD

end
-- ==== Proof.Consts.lean ====
/-
  The float constants the two programs spell, as the extended reals their bit patterns denote. Stated once here so
  that no other module unfolds the reading of a bit pattern.
-/
import Idealize.ShloMosaic.PureOps.Ideal

noncomputable section

namespace Cert.MMD.Consts

open Idealize.ShloMosaic

/-- `+0.0` denotes `0`. -/
theorem ofBits_0 : Ideal.ofBits .f32 0x00000000#32 = ((0 : ℝ) : EReal) := by
  simp [Ideal.ofBits, Ideal.ieee]

/-- `1.0` denotes `1`. -/
theorem ofBits_1 : Ideal.ofBits .f32 0x3F800000#32 = ((1 : ℝ) : EReal) := by
  simp [Ideal.ofBits, Ideal.ieee, -EReal.coe_mul]; norm_num

/-- `2.0` denotes `2`. -/
theorem ofBits_2 : Ideal.ofBits .f32 0x40000000#32 = ((2 : ℝ) : EReal) := by
  simp [Ideal.ofBits, Ideal.ieee, -EReal.coe_mul]; norm_num

/-- `4.0` denotes `4`. -/
theorem ofBits_4 : Ideal.ofBits .f32 0x40800000#32 = ((4 : ℝ) : EReal) := by
  simp [Ideal.ofBits, Ideal.ieee, -EReal.coe_mul]; norm_num

/-- `8.0` denotes `8`. -/
theorem ofBits_8 : Ideal.ofBits .f32 0x41000000#32 = ((8 : ℝ) : EReal) := by
  simp [Ideal.ofBits, Ideal.ieee, -EReal.coe_mul]; norm_num

/-- `16.0` denotes `16`. -/
theorem ofBits_16 : Ideal.ofBits .f32 0x41800000#32 = ((16 : ℝ) : EReal) := by
  simp [Ideal.ofBits, Ideal.ieee, -EReal.coe_mul]; norm_num

/-- `16384.0` (twice the number of stacked points) denotes `16384`. -/
theorem ofBits_16384 : Ideal.ofBits .f32 0x46800000#32 = ((16384 : ℝ) : EReal) := by
  simp [Ideal.ofBits, Ideal.ieee, -EReal.coe_mul]; norm_num

/-- The pattern of `8192 · 8191` (the number of ordered pairs of distinct stacked points) denotes `67100672`. -/
theorem ofBits_67100672 : Ideal.ofBits .f32 0x4C7FF800#32 = ((67100672 : ℝ) : EReal) := by
  simp [Ideal.ofBits, Ideal.ieee, -EReal.coe_mul]; norm_num

/-- The pattern of `4096²` (the number of entries of a quadrant) denotes `16777216`. -/
theorem ofBits_16777216 : Ideal.ofBits .f32 0x4B800000#32 = ((16777216 : ℝ) : EReal) := by
  simp [Ideal.ofBits, Ideal.ieee, -EReal.coe_mul]; norm_num

end Cert.MMD.Consts

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.PayloadDist.lean ====
/-
  The squared-distance matrix the kernel body forms, read entry by entry.

  From two blocks `a`, `b` of 1024 points of dimension 512 the body takes each block's row sums of squares, lays the
  first out as a column and the second (a column turned into a row) as a row, spreads both over the 1024 × 1024 grid,
  adds them, and subtracts twice the matrix of inner products of the rows of `a` with the rows of `b`. Entry (r, c) is
  therefore `(|a r|² + |b c|²) - 2 (a r · b c)`, the squared distance of point `r` of `a` and point `c` of `b` in Gram form.
  A change of float format is the identity on the extended reals, and the zero the sums and the product start from is
  absorbed.
-/
import proofs.«101678_j64098091925653_1_alg».proof.Proof.Gen.KernelIdeal.Skeleton
import proofs.«101678_j64098091925653_1_alg».proof.Proof.Spec
import proofs.«101678_j64098091925653_1_alg».proof.Proof.Consts
import proofs.«101678_j64098091925653_1_alg».proof.Proof.LibDotLastAxes
import proofs.«101678_j64098091925653_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MMD.Payload

open Idealize.ShloMosaic Idealize.ShloMosaic.ValueIdx
open Cert.KernelIdeal Cert.KernelIdeal.Gen

/-- The index a sum along the second axis of a 1024 × 512 block visits: row `r`, column `k`. -/
theorem lift_row512 (r : Fin 1024) (k : Fin 512) :
    reduces_S1024x512_S1024.lift (ix1 r) k = (ix2 r k : S1024x512.Idx) := by
  funext ax; apply Fin.ext
  match ax with
  | ⟨0, _⟩ => rfl
  | ⟨1, _⟩ => rfl

/-- A block's row sums of squares, at row `r`: the squared norm of point `r`. -/
theorem rowSq_apply (x : Vec Ideal S1024x512 .f32) (r : Fin 1024) :
    multiReduction (F := Ideal) .add [1] S1024 (mulf x x) 0x00000000#32 reduces_S1024x512_S1024 (.inl rfl) rfl (ix1 r)
      = Cert.MMD.sq (fun d => x (ix2 r d)) := by
  refine (Ideal.multiReduction_add_single (mulf x x) 0x00000000#32 reduces_S1024x512_S1024 (.inl rfl) rfl (ix1 r)).trans ?_
  show ∑ k : Fin 512, mulf (F := Ideal) (φ := .f32) x x (reduces_S1024x512_S1024.lift (ix1 r) k) = ∑ d : Fin 512, x (ix2 r d) * x (ix2 r d)
  refine Finset.sum_congr rfl fun k _ => ?_
  rw [lift_row512, mulf_apply]

/-- The matrix of inner products of the rows of `a` with the rows of `b`, at (r, c). -/
theorem gram_apply (a b : Vec Ideal S1024x512 .f32) (r c : Fin 1024) :
    matmul (F := Ideal) dot_S1024x512_S1024x512_S1024x1024_1_1_0_0_n_n none
        (truncf .bf16 a bitsLt_bf16_f32) (truncf .bf16 b bitsLt_bf16_f32) (constant (F := Ideal) S1024x1024 .f32 0x00000000#32) (ix2 r c)
      = Cert.MMD.dot (fun d => a (ix2 r d)) (fun d => b (ix2 c d)) :=
  Idealize.ShloMosaic.DotLastAxes.matmul_zero_apply (M := 1024) (K := 512) (N := 1024)
    dot_S1024x512_S1024x512_S1024x1024_1_1_0_0_n_n_wf none _ _ r c

/-- Entry (r, c) of the body's distance matrix. -/
theorem dist_apply (a b : Vec Ideal S1024x512 .f32) (r c : Fin 1024) :
    k0_pay3 (F := Ideal) a b (ix2 r c)
      = Cert.MMD.dist (fun d => a (ix2 r d)) (fun d => b (ix2 c d)) := by
  unfold k0_pay3
  dsimp only
  rw [subf_apply, addf_apply, mulf_apply, broadcast_apply, gram_apply,
    Cert.LibLayout.broadcastTo_a1_ab_apply, Cert.LibLayout.shapeCast_a_a1_apply, rowSq_apply,
    broadcastTo_1b_ab_apply, transpose_ix2_apply, Cert.LibLayout.shapeCast_a_a1_apply, rowSq_apply]
  show _ - Ideal.ofBits .f32 0x40000000#32 * _ = _
  rw [Cert.MMD.Consts.ofBits_2]
  rfl

end Cert.MMD.Payload

end
-- ==== Proof.PayloadParts.lean ====
/-
  What the kernel body stores into its 1 × 1 output, as a closed formula over the extended reals.

  With `D r c` the squared distance of point `r` of block `a` and point `c` of block `b` (the distance module), the body
  forms for every pair the five Gaussian terms `exp ((0 - D r c) · (1 / (bw · 2^k)))`, `k = 0 … 4` (the reciprocal is taken
  once on the 1 × 1 bandwidth and spread over the grid), adds them, sums every row, then sums the column of row sums, and
  adds the total to what the output held before. The zero each sum starts from is absorbed. At the first grid point the
  output is set to zero beforehand.
-/
import proofs.«101678_j64098091925653_1_alg».proof.Proof.PayloadDist

noncomputable section

open scoped BigOperators

namespace Cert.MMD.Payload

open Idealize.ShloMosaic Idealize.ShloMosaic.ValueIdx
open Cert.KernelIdeal Cert.KernelIdeal.Gen

variable {α : Type}

/-! ## Layout steps read at coordinates -/

/-- A 1 × 1 array spread over an `a × b` grid reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => exact (if_pos rfl).symm
  | ⟨1, _⟩ => exact (if_pos rfl).symm

/-- The exponential of an array, at an index. -/
theorem exp_apply {s : Shape} {φ : FTy} (x : FVec Ideal s φ) (i : s.Idx) : exp x i = Ideal.exp (x i) := rfl

/-- The index a sum along the second axis of the 1024 × 1024 grid visits: row `r`, column `k`. -/
theorem lift_row1024 (r : Fin 1024) (k : Fin 1024) :
    reduces_S1024x1024_S1024.lift (ix1 r) k = (ix2 r k : S1024x1024.Idx) := by
  funext ax; apply Fin.ext
  match ax with
  | ⟨0, _⟩ => rfl
  | ⟨1, _⟩ => rfl

/-- The index a sum down a 1024 × 1 column visits: row `k` of the one column. -/
theorem lift_col (q : Fin 1) (k : Fin 1024) :
    reduces_S1024x1_S1.lift (ix1 q) k = (ix2 k q : S1024x1.Idx) := by
  funext ax; apply Fin.ext
  match ax with
  | ⟨0, _⟩ => rfl
  | ⟨1, _⟩ => rfl

/-- A row sum over the grid, at row `r`. -/
theorem rowSum_apply (x : FVec Ideal S1024x1024 .f32) (r : Fin 1024) :
    multiReduction (F := Ideal) .add [1] S1024 x 0x00000000#32 reduces_S1024x1024_S1024 (.inl rfl) rfl (ix1 r)
      = ∑ c : Fin 1024, x (ix2 r c) := by
  refine (Ideal.multiReduction_add_single x 0x00000000#32 reduces_S1024x1024_S1024 (.inl rfl) rfl (ix1 r)).trans ?_
  show ∑ k : Fin 1024, x (reduces_S1024x1024_S1024.lift (ix1 r) k) = ∑ c : Fin 1024, x (ix2 r c)
  refine Finset.sum_congr rfl fun k _ => ?_
  rw [lift_row1024]

/-- The sum down a column. -/
theorem colSum_apply (x : FVec Ideal S1024x1 .f32) (q : Fin 1) :
    multiReduction (F := Ideal) .add [0] S1 x 0x00000000#32 reduces_S1024x1_S1 (.inl rfl) rfl (ix1 q)
      = ∑ r : Fin 1024, x (ix2 r q) := by
  refine (Ideal.multiReduction_add_single x 0x00000000#32 reduces_S1024x1_S1 (.inl rfl) rfl (ix1 q)).trans ?_
  show ∑ k : Fin 1024, x (reduces_S1024x1_S1.lift (ix1 q) k) = ∑ r : Fin 1024, x (ix2 r q)
  refine Finset.sum_congr rfl fun k _ => ?_
  rw [lift_col]

/-! ## The parts of the body, entry by entry -/

/-- The bandwidth as the body reads it: the 1 × 1 block itself. -/
theorem bw_eq (bw : Vec Ideal S1x1 .f32) : k0_pay4 (F := Ideal) bw = bw := by
  unfold k0_pay4
  exact shapeCast_self _ _

/-- The negated distance, `0 - D r c`. -/
theorem neg_apply (a b : Vec Ideal S1024x512 .f32) (r c : Fin 1024) :
    k0_pay6 (F := Ideal) a b (ix2 r c)
      = ((0 : ℝ) : EReal) - Cert.MMD.dist (fun d => a (ix2 r d)) (fun d => b (ix2 c d)) := by
  unfold k0_pay6
  rw [subf_apply, broadcast_apply, dist_apply]
  show Ideal.ofBits .f32 0x00000000#32 - _ = _
  rw [Cert.MMD.Consts.ofBits_0]

/-- The second reciprocal, `1 / (bw · 2)`, spread over the grid. -/
theorem recip2_apply (bw : Vec Ideal S1x1 .f32) (r c : Fin 1024) :
    k0_pay7 (F := Ideal) bw (ix2 r c)
      = Ideal.div ((1 : ℝ) : EReal) (bw (ix2 0 0) * ((2 : ℝ) : EReal)) := by
  unfold k0_pay7
  rw [broadcastTo_11_ab_apply, divf_apply, mulf_apply, broadcast_apply, broadcast_apply, bw_eq]
  show Ideal.div (Ideal.ofBits .f32 0x3F800000#32) (_ * Ideal.ofBits .f32 0x40000000#32) = _
  rw [Cert.MMD.Consts.ofBits_1, Cert.MMD.Consts.ofBits_2]

/-- The first Gaussian term, `exp ((0 - D r c) · (1 / bw))`. -/
theorem term0_apply (a b : Vec Ideal S1024x512 .f32) (bw : Vec Ideal S1x1 .f32) (r c : Fin 1024) :
    k0_pay5 (F := Ideal) a b bw (ix2 r c)
      = Ideal.exp ((((0 : ℝ) : EReal) - Cert.MMD.dist (fun d => a (ix2 r d)) (fun d => b (ix2 c d)))
          * Ideal.div ((1 : ℝ) : EReal) (bw (ix2 0 0))) := by
  unfold k0_pay5
  rw [exp_apply, mulf_apply, subf_apply, broadcast_apply, dist_apply, broadcastTo_11_ab_apply, divf_apply,
    broadcast_apply, bw_eq]
  show Ideal.exp ((Ideal.ofBits .f32 0x00000000#32 - _) * Ideal.div (Ideal.ofBits .f32 0x3F800000#32) _) = _
  rw [Cert.MMD.Consts.ofBits_0, Cert.MMD.Consts.ofBits_1]

end Cert.MMD.Payload

end
-- ==== Proof.Payload.lean ====
/-
  The value the kernel body stores into its 1 × 1 output: what the output held before plus the sum, over every pair of a
  point of block `a` and a point of block `b`, of the five Gaussian terms of their squared distance; and the zero stored at
  the first grid point. The three launches of the kernel (a against a, b against b, a against b) run the same body, so the
  three families of definitions are the same functions.
-/
import proofs.«101678_j64098091925653_1_alg».proof.Proof.PayloadParts

noncomputable section

open scoped BigOperators

namespace Cert.MMD.Payload

open Idealize.ShloMosaic Idealize.ShloMosaic.ValueIdx
open Cert.KernelIdeal Cert.KernelIdeal.Gen

/-- The last stage of the body over arbitrary earlier values: the remaining four terms are formed from the distance
    matrix `D`, the negated distance `Nn`, the bandwidth `w` and the second reciprocal `R`, added to the first term `T`,
    summed over rows and then down the column, and added to the previous contents `prev`. -/
theorem total_apply (D : FVec Ideal S1024x1024 .f32) (w : FVec Ideal S1x1 .f32) (T Nn R : FVec Ideal S1024x1024 .f32)
    (prev : Vec Ideal S1x1 .f32) (p q : Fin 1) :
    k0_pay1 (F := Ideal) D w T Nn R prev (ix2 p q)
      = prev (ix2 p q) + ∑ r : Fin 1024, ∑ c : Fin 1024,
          ((((T (ix2 r c) + Ideal.exp (Nn (ix2 r c) * R (ix2 r c)))
            + Ideal.exp ((((0 : ℝ) : EReal) - D (ix2 r c)) * Ideal.div ((1 : ℝ) : EReal) (w (ix2 0 0) * ((4 : ℝ) : EReal))))
            + Ideal.exp ((((0 : ℝ) : EReal) - D (ix2 r c)) * Ideal.div ((1 : ℝ) : EReal) (w (ix2 0 0) * ((8 : ℝ) : EReal))))
            + Ideal.exp ((((0 : ℝ) : EReal) - D (ix2 r c)) * Ideal.div ((1 : ℝ) : EReal) (w (ix2 0 0) * ((16 : ℝ) : EReal)))) := by
  unfold k0_pay1
  dsimp only
  rw [addf_apply, shapeCast_self, shapeCast_a_1a_apply, colSum_apply]
  refine congrArg (prev (ix2 p q) + ·) (Finset.sum_congr rfl fun r _ => ?_)
  rw [Cert.LibLayout.shapeCast_a_a1_apply, rowSum_apply]
  refine Finset.sum_congr rfl fun c _ => ?_
  simp only [addf_apply, exp_apply, mulf_apply, subf_apply, broadcast_apply, broadcastTo_11_ab_apply, divf_apply]
  show ((((_ + _) + Ideal.exp ((Ideal.ofBits .f32 0x00000000#32 - _) * Ideal.div (Ideal.ofBits .f32 0x3F800000#32) (_ * Ideal.ofBits .f32 0x40800000#32)))
      + Ideal.exp ((Ideal.ofBits .f32 0x00000000#32 - _) * Ideal.div (Ideal.ofBits .f32 0x3F800000#32) (_ * Ideal.ofBits .f32 0x41000000#32)))
      + Ideal.exp ((Ideal.ofBits .f32 0x00000000#32 - _) * Ideal.div (Ideal.ofBits .f32 0x3F800000#32) (_ * Ideal.ofBits .f32 0x41800000#32))) = _
  rw [Cert.MMD.Consts.ofBits_0, Cert.MMD.Consts.ofBits_1, Cert.MMD.Consts.ofBits_4, Cert.MMD.Consts.ofBits_8,
    Cert.MMD.Consts.ofBits_16]

/-- What the body stores: the previous contents plus the block's sum of kernel entries. -/
theorem stored0 (a b : Vec Ideal S1024x512 .f32) (bw prev : Vec Ideal S1x1 .f32) (j : S1x1.Idx) :
    k0_pay1 (F := Ideal) (k0_pay3 a b) (k0_pay4 bw) (k0_pay5 a b bw) (k0_pay6 a b) (k0_pay7 bw) prev j
      = prev j + ∑ r : Fin 1024, ∑ c : Fin 1024,
          Cert.MMD.kterm (Cert.MMD.dist (fun d => a (ix2 r d)) (fun d => b (ix2 c d))) (bw (ix2 0 0)) := by
  obtain ⟨p, q, rfl⟩ : ∃ (p : Fin 1) (q : Fin 1), j = ix2 p q := ⟨j 0, j 1, eq_ix2 j⟩
  rw [total_apply]
  refine congrArg (prev (ix2 p q) + ·) (Finset.sum_congr rfl fun r _ => Finset.sum_congr rfl fun c _ => ?_)
  rw [term0_apply, neg_apply, recip2_apply, dist_apply, bw_eq]
  rfl

/-- What the first grid point stores first: zero. -/
theorem zero0 (j : S1x1.Idx) : k0_pay2 (F := Ideal) j = ((0 : ℝ) : EReal) := by
  unfold k0_pay2
  show Ideal.ofBits .f32 0x00000000#32 = _
  exact Cert.MMD.Consts.ofBits_0

/-! ## Launch 1: the same functions under their own names -/

theorem dist_eq1 (a b : Vec Ideal S1024x512 .f32) : k1_pay3 (F := Ideal) a b = k0_pay3 a b := rfl
theorem bw_eq1 (bw : Vec Ideal S1x1 .f32) : k1_pay4 (F := Ideal) bw = k0_pay4 bw := rfl
theorem term0_eq1 (a b : Vec Ideal S1024x512 .f32) (bw : Vec Ideal S1x1 .f32) :
    k1_pay5 (F := Ideal) a b bw = k0_pay5 a b bw := rfl
theorem neg_eq1 (a b : Vec Ideal S1024x512 .f32) : k1_pay6 (F := Ideal) a b = k0_pay6 a b := rfl
theorem recip2_eq1 (bw : Vec Ideal S1x1 .f32) : k1_pay7 (F := Ideal) bw = k0_pay7 bw := rfl
theorem total_eq1 (D : FVec Ideal S1024x1024 .f32) (w : FVec Ideal S1x1 .f32) (T Nn R : FVec Ideal S1024x1024 .f32)
    (prev : Vec Ideal S1x1 .f32) : k1_pay1 (F := Ideal) D w T Nn R prev = k0_pay1 D w T Nn R prev := rfl

theorem stored1 (a b : Vec Ideal S1024x512 .f32) (bw prev : Vec Ideal S1x1 .f32) (j : S1x1.Idx) :
    k1_pay1 (F := Ideal) (k1_pay3 a b) (k1_pay4 bw) (k1_pay5 a b bw) (k1_pay6 a b) (k1_pay7 bw) prev j
      = prev j + ∑ r : Fin 1024, ∑ c : Fin 1024,
          Cert.MMD.kterm (Cert.MMD.dist (fun d => a (ix2 r d)) (fun d => b (ix2 c d))) (bw (ix2 0 0)) := by
  rw [total_eq1, dist_eq1, bw_eq1, term0_eq1, neg_eq1, recip2_eq1]
  exact stored0 a b bw prev j

theorem zero1 (j : S1x1.Idx) : k1_pay2 (F := Ideal) j = ((0 : ℝ) : EReal) := zero0 j

/-! ## Launch 2: the same functions under their own names -/

theorem dist_eq2 (a b : Vec Ideal S1024x512 .f32) : k2_pay3 (F := Ideal) a b = k0_pay3 a b := rfl
theorem bw_eq2 (bw : Vec Ideal S1x1 .f32) : k2_pay4 (F := Ideal) bw = k0_pay4 bw := rfl
theorem term0_eq2 (a b : Vec Ideal S1024x512 .f32) (bw : Vec Ideal S1x1 .f32) :
    k2_pay5 (F := Ideal) a b bw = k0_pay5 a b bw := rfl
theorem neg_eq2 (a b : Vec Ideal S1024x512 .f32) : k2_pay6 (F := Ideal) a b = k0_pay6 a b := rfl
theorem recip2_eq2 (bw : Vec Ideal S1x1 .f32) : k2_pay7 (F := Ideal) bw = k0_pay7 bw := rfl
theorem total_eq2 (D : FVec Ideal S1024x1024 .f32) (w : FVec Ideal S1x1 .f32) (T Nn R : FVec Ideal S1024x1024 .f32)
    (prev : Vec Ideal S1x1 .f32) : k2_pay1 (F := Ideal) D w T Nn R prev = k0_pay1 D w T Nn R prev := rfl

theorem stored2 (a b : Vec Ideal S1024x512 .f32) (bw prev : Vec Ideal S1x1 .f32) (j : S1x1.Idx) :
    k2_pay1 (F := Ideal) (k2_pay3 a b) (k2_pay4 bw) (k2_pay5 a b bw) (k2_pay6 a b) (k2_pay7 bw) prev j
      = prev j + ∑ r : Fin 1024, ∑ c : Fin 1024,
          Cert.MMD.kterm (Cert.MMD.dist (fun d => a (ix2 r d)) (fun d => b (ix2 c d))) (bw (ix2 0 0)) := by
  rw [total_eq2, dist_eq2, bw_eq2, term0_eq2, neg_eq2, recip2_eq2]
  exact stored0 a b bw prev j

theorem zero2 (j : S1x1.Idx) : k2_pay2 (F := Ideal) j = ((0 : ℝ) : EReal) := zero0 j

end Cert.MMD.Payload

end
-- ==== Proof.Blocks.lean ====
/-
  How a quadrant's double sum is assembled from square blocks.

  An axis of 4096 positions is cut into 4 runs of 1024, so a 4096 × 4096 quadrant is a 4 × 4 grid of 1024 × 1024 blocks; the
  grid is walked row by row, point `n = 4 a + b` being block row `a = n / 4` and block column `b = n % 4`. Two facts:

  * the sums over the sixteen blocks add up to the double sum over the whole quadrant (a sum over `m · n` consecutive
    positions is the sum over `m` runs of the sums over the `n` positions of a run, used once for the grid, once for the columns
    and once for the rows, with one exchange of the order of summation in between);
  * a value that starts at the first block's sum (from zero) and takes up one block's sum per grid point holds, at the last
    point, the sum over all blocks.

  Both hold in any commutative additive monoid; the extended reals are one.
-/
import proofs.«101678_j64098091925653_1_alg».proof.Proof.Spec

noncomputable section

namespace Cert.MMD.Blocks

section Monoid

variable {M : Type*} [AddCommMonoid M]

/-- A sum over `m · n` consecutive positions is the sum over `m` runs of the sums over the `n` positions of a run, position
    `b` of run `a` being `n · a + b`. -/
theorem sum_runs (m n N : ℕ) (hN : N = m * n) (g : Fin N → M) (e : Fin m → Fin n → Fin N)
    (he : ∀ a b, (e a b).val = n * a.val + b.val) :
    ∑ a, ∑ b, g (e a b) = ∑ i, g i := by
  subst hN
  rw [← Equiv.sum_comp finProdFinEquiv g, Fintype.sum_prod_type]
  refine Finset.sum_congr rfl fun a _ => Finset.sum_congr rfl fun b _ => congrArg g (Fin.ext ?_)
  rw [he]
  exact Nat.add_comm _ _

/-- A value that starts at the first term and takes up one more term at every step is, after step `n`, the sum of the
    terms up to `n`. -/
theorem running_sum (N : ℕ) (g : Fin N → M) (acc : (n : ℕ) → n < N → M)
    (h0 : ∀ h : 0 < N, acc 0 h = g ⟨0, h⟩)
    (hs : ∀ n (hn : n + 1 < N), acc (n + 1) hn = acc n (Nat.lt_of_succ_lt hn) + g ⟨n + 1, hn⟩)
    (n : ℕ) (hn : n < N) :
    acc n hn = ∑ k ∈ Finset.range (n + 1), (if h : k < N then g ⟨k, h⟩ else 0) := by
  induction n with
  | zero => rw [Finset.sum_range_one, dif_pos hn, h0 hn]
  | succ n ih => rw [Finset.sum_range_succ, dif_pos hn, hs n hn, ih (Nat.lt_of_succ_lt hn)]

/-- After the last step it is the sum of all terms. -/
theorem running_sum_last (N : ℕ) (g : Fin N → M) (acc : (n : ℕ) → n < N → M)
    (h0 : ∀ h : 0 < N, acc 0 h = g ⟨0, h⟩)
    (hs : ∀ n (hn : n + 1 < N), acc (n + 1) hn = acc n (Nat.lt_of_succ_lt hn) + g ⟨n + 1, hn⟩)
    (n : ℕ) (hn : n < N) (hlast : n + 1 = N) :
    acc n hn = ∑ k, g k := by
  rw [running_sum N g acc h0 hs n hn, hlast, Finset.sum_range]
  exact Finset.sum_congr rfl fun k _ => dif_pos k.isLt

end Monoid

/-! ## The 4 × 4 grid of 1024 × 1024 blocks -/

/-- Grid point `4 a + b`: block row `a`, block column `b`. -/
def gridPt (a b : Fin 4) : Fin 16 := ⟨4 * a.val + b.val, by have := a.isLt; have := b.isLt; omega⟩

/-- Position `1024 a + r`: entry `r` of run `a` of an axis of 4096 cut into 4 runs of 1024. -/
def runPos (a : Fin 4) (r : Fin 1024) : Fin 4096 := ⟨1024 * a.val + r.val, by have := a.isLt; have := r.isLt; omega⟩

end Cert.MMD.Blocks

namespace Cert.MMD

open Blocks

/-- The sixteen blocks, walked row by row, add up to the whole quadrant. -/
theorem sum_blocks (f : Fin 4096 → Fin 4096 → EReal) (blkrow blkcol : Fin 16 → Fin 1024 → Fin 4096)
    (hrow : ∀ n r, (blkrow n r).val = 1024 * (n.val / 4) + r.val)
    (hcol : ∀ n c, (blkcol n c).val = 1024 * (n.val % 4) + c.val) :
    ∑ n : Fin 16, ∑ r : Fin 1024, ∑ c : Fin 1024, f (blkrow n r) (blkcol n c) = ∑ p : Fin 4096, ∑ q : Fin 4096, f p q := by
  have hr : ∀ a b r, blkrow (gridPt a b) r = runPos a r := fun a b r => Fin.ext (by
    rw [hrow]
    show 1024 * ((4 * a.val + b.val) / 4) + r.val = 1024 * a.val + r.val
    have := b.isLt; omega)
  have hc : ∀ a b c, blkcol (gridPt a b) c = runPos b c := fun a b c => Fin.ext (by
    rw [hcol]
    show 1024 * ((4 * a.val + b.val) % 4) + c.val = 1024 * b.val + c.val
    have := b.isLt; omega)
  calc ∑ n : Fin 16, ∑ r : Fin 1024, ∑ c : Fin 1024, f (blkrow n r) (blkcol n c)
      = ∑ a : Fin 4, ∑ b : Fin 4, ∑ r : Fin 1024, ∑ c : Fin 1024, f (blkrow (gridPt a b) r) (blkcol (gridPt a b) c) :=
        (sum_runs 4 4 16 (by norm_num) (fun n => ∑ r : Fin 1024, ∑ c : Fin 1024, f (blkrow n r) (blkcol n c)) gridPt
          (fun _ _ => rfl)).symm
    _ = ∑ a : Fin 4, ∑ b : Fin 4, ∑ r : Fin 1024, ∑ c : Fin 1024, f (runPos a r) (runPos b c) := by simp only [hr, hc]
    _ = ∑ a : Fin 4, ∑ r : Fin 1024, ∑ b : Fin 4, ∑ c : Fin 1024, f (runPos a r) (runPos b c) :=
        Finset.sum_congr rfl fun a _ => Finset.sum_comm
    _ = ∑ a : Fin 4, ∑ r : Fin 1024, ∑ q : Fin 4096, f (runPos a r) q :=
        Finset.sum_congr rfl fun a _ => Finset.sum_congr rfl fun r _ =>
          sum_runs 4 1024 4096 (by norm_num) (fun q => f (runPos a r) q) runPos (fun _ _ => rfl)
    _ = ∑ p : Fin 4096, ∑ q : Fin 4096, f p q :=
        sum_runs 4 1024 4096 (by norm_num) (fun p => ∑ q : Fin 4096, f p q) runPos (fun _ _ => rfl)

/-- A value that starts, from zero, at the first block's sum of kernel entries and takes up one block's sum per grid point
    holds at the last point the whole quadrant's sum. -/
theorem acc_eq_kquad (A B : Fin 4096 → Fin 512 → EReal) (bw : EReal)
    (blkrow blkcol : Fin 16 → Fin 1024 → Fin 4096)
    (hrow : ∀ n r, (blkrow n r).val = 1024 * (n.val / 4) + r.val)
    (hcol : ∀ n c, (blkcol n c).val = 1024 * (n.val % 4) + c.val)
    (acc : (n : ℕ) → n < 16 → EReal)
    (h0 : acc 0 (by norm_num) = ((0 : ℝ) : EReal)
      + ∑ r, ∑ c, kterm (dist (A (blkrow ⟨0, by norm_num⟩ r)) (B (blkcol ⟨0, by norm_num⟩ c))) bw)
    (hs : ∀ n (hn : n + 1 < 16), acc (n + 1) hn = acc n (Nat.lt_of_succ_lt hn)
      + ∑ r, ∑ c, kterm (dist (A (blkrow ⟨n + 1, hn⟩ r)) (B (blkcol ⟨n + 1, hn⟩ c))) bw) :
    acc 15 (by norm_num) = kquad A B bw := by
  rw [running_sum_last 16 (fun n => ∑ r, ∑ c, kterm (dist (A (blkrow n r)) (B (blkcol n c))) bw) acc
    (fun _ => by rw [h0, EReal.coe_zero, zero_add]) hs 15 (by norm_num) (by norm_num)]
  exact sum_blocks (fun p q => kterm (dist (A p) (B q)) bw) blkrow blkcol hrow hcol

end Cert.MMD

end
-- ==== Proof.KI.Value0.lean ====
/-
  Quadrant 0: the value the accumulator ends with. A row block read at an index is the array read at the block's
  offset plus the index inside the block; the grid is walked row by row, so point `t` reads rows
  `1024 (t / 4) + r` of the array its row window is cut from and rows `1024 (t % 4) + c` of the array its column
  window is cut from (the two windows may be cut from one array). After the first point the
  accumulator holds the first block's sum over zero, after each later point one more block's sum; after the sixteenth
  it holds the whole quadrant's double sum. The accumulator's array is one 1x1 block, written back after the last
  point only, so it ends holding what the last point left.
-/
import proofs.«101678_j64098091925653_1_alg».proof.Proof.KI.Pieces0
import proofs.«101678_j64098091925653_1_alg».proof.Proof.Payload
import proofs.«101678_j64098091925653_1_alg».proof.Proof.Blocks
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## Where each window's block sits at a point -/

theorem index0_0 : ∀ t : Fin grid0.N, win0_0.index t (0 : Fin 2) = 0 ∧ win0_0.index t (1 : Fin 2) = 0 := by decide +kernel
theorem index0_1 : ∀ t : Fin grid0.N, win0_1.index t (0 : Fin 2) = t.val / 4 ∧ win0_1.index t (1 : Fin 2) = 0 := by decide +kernel
theorem index0_2 : ∀ t : Fin grid0.N, win0_2.index t (0 : Fin 2) = t.val % 4 ∧ win0_2.index t (1 : Fin 2) = 0 := by decide +kernel

theorem row_lt0 (t : Fin cfg0.N) (r : Fin 1024) : 1024 * (t.val / 4) + r.val < 4096 := by
  have h1 := t.isLt; have hN : cfg0.N = 16 := N_0; have h2 := r.isLt; omega
theorem col_lt0 (t : Fin cfg0.N) (r : Fin 1024) : 1024 * (t.val % 4) + r.val < 4096 := by
  have h2 := r.isLt; omega

/-- The last of the 16 points is a point of the grid. -/
theorem last_lt0 : 15 < cfg0.N := by rw [show cfg0.N = 16 from N_0]; decide

section Ideal
variable (V : (c : Dev nD) → (b : Ref sig .tc) → Buf (Elt Ideal) ((c : Thread nD τ).loc b))

/-- The row window's block at point `t`: rows `1024 (t / 4) + r` of its array. -/
theorem iblk0_1_apply (c : Dev nD) (t : Fin cfg0.N) (r : Fin 1024) (d : Fin 512) :
    iblk0 (F := Ideal) V c 1 t (ix2 r d) = V c (Pipeline.arrRef spec0 1) (ix2 ⟨1024 * (t.val / 4) + r.val, row_lt0 t r⟩ d) := by
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t 0 * 1024 + 1 * r.val = 1024 * (t.val / 4) + r.val; rw [(index0_1 t).1]; omega
  | ⟨1, _⟩ => show win0_1.index t 1 * 512 + 1 * d.val = d.val; rw [(index0_1 t).2]; omega

/-- The column window's block at point `t`: rows `1024 (t % 4) + r` of its array. -/
theorem iblk0_2_apply (c : Dev nD) (t : Fin cfg0.N) (r : Fin 1024) (d : Fin 512) :
    iblk0 (F := Ideal) V c 2 t (ix2 r d) = V c (Pipeline.arrRef spec0 2) (ix2 ⟨1024 * (t.val % 4) + r.val, col_lt0 t r⟩ d) := by
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t 0 * 1024 + 1 * r.val = 1024 * (t.val % 4) + r.val; rw [(index0_2 t).1]; omega
  | ⟨1, _⟩ => show win0_2.index t 1 * 512 + 1 * d.val = d.val; rw [(index0_2 t).2]; omega

/-- The bandwidth's block is the bandwidth's one entry at every point. -/
theorem iblk0_0_apply (c : Dev nD) (t : Fin cfg0.N) :
    iblk0 (F := Ideal) V c 0 t (ix2 0 0) = V c (Pipeline.arrRef spec0 0) (ix2 0 0) := by
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t 0 * 1 + 1 * 0 = 0; rw [(index0_0 t).1]
  | ⟨1, _⟩ => show win0_0.index t 1 * 1 + 1 * 0 = 0; rw [(index0_0 t).2]

/-! ## The accumulation -/

/-- The sum of the kernel entries of the block of point `t`. -/
def blockSum0 (c : Dev nD) (t : Fin cfg0.N) : EReal :=
  ∑ r : Fin 1024, ∑ q : Fin 1024,
    Cert.MMD.kterm
      (Cert.MMD.dist (fun d => V c (Pipeline.arrRef spec0 1) (ix2 ⟨1024 * (t.val / 4) + r.val, row_lt0 t r⟩ d))
        (fun d => V c (Pipeline.arrRef spec0 2) (ix2 ⟨1024 * (t.val % 4) + q.val, col_lt0 t q⟩ d)))
      (V c (Pipeline.arrRef spec0 0) (ix2 0 0))

/-- What the body stores at point `t` over previous contents `prev`: `prev` plus the block's sum. -/
theorem step0 (c : Dev nD) (t : Fin cfg0.N) (prev : Vec Ideal S1x1 .f32) (j : S1x1.Idx) :
    k0_pay1 (F := Ideal) (k0_pay3 (iblk0 V c 1 t) (iblk0 V c 2 t)) (k0_pay4 (iblk0 V c 0 t))
        (k0_pay5 (iblk0 V c 1 t) (iblk0 V c 2 t) (iblk0 V c 0 t)) (k0_pay6 (iblk0 V c 1 t) (iblk0 V c 2 t))
        (k0_pay7 (iblk0 V c 0 t)) prev j
      = prev j + blockSum0 V c t := by
  rw [Cert.MMD.Payload.stored0 (iblk0 V c 1 t) (iblk0 V c 2 t) (iblk0 V c 0 t) prev j]
  unfold blockSum0
  simp only [iblk0_1_apply, iblk0_2_apply, iblk0_0_apply]

/-- After the first point: the first block's sum over zero. -/
theorem outsAt0_first (c : Dev nD) (t : Fin cfg0.N) (h0 : t.val % 16 = 0) (j : S1x1.Idx) :
    outsAt0 (F := Ideal) V c t.val t.isLt j = ((0 : ℝ) : EReal) + blockSum0 V c t := by
  rw [outsAt0_A V c t h0, out0_A_3_eq, step0 V c t _ j, Cert.MMD.Payload.zero0]

/-- After a later point: one more block's sum. -/
theorem outsAt0_next (c : Dev nD) (t : Fin cfg0.N) (h0 : ¬t.val % 16 = 0) (j : S1x1.Idx) :
    outsAt0 (F := Ideal) V c t.val t.isLt j
      = outsAt0 (F := Ideal) V c (t.val - 1) (Nat.lt_of_le_of_lt (Nat.sub_le _ _) t.isLt) j + blockSum0 V c t := by
  rw [outsAt0_B V c t h0, out0_B_3_eq, step0 V c t _ j]

/-- THE QUADRANT: after the last point the accumulator holds the double sum of the kernel entries over all pairs of a
    row of the row window's array and a row of the column window's array. -/
theorem quad0 (c : Dev nD) (j : S1x1.Idx) :
    outsAt0 (F := Ideal) V c 15 last_lt0 j
      = Cert.MMD.kquad (fun p d => V c (Pipeline.arrRef spec0 1) (ix2 p d))
          (fun p d => V c (Pipeline.arrRef spec0 2) (ix2 p d)) (V c (Pipeline.arrRef spec0 0) (ix2 0 0)) := by
  have hN : cfg0.N = 16 := N_0
  have lt : ∀ {n : ℕ}, n < 16 → n < cfg0.N := fun h => lt_of_lt_of_eq h hN.symm
  exact Cert.MMD.acc_eq_kquad (fun p d => V c (Pipeline.arrRef spec0 1) (ix2 p d))
    (fun p d => V c (Pipeline.arrRef spec0 2) (ix2 p d)) (V c (Pipeline.arrRef spec0 0) (ix2 0 0))
    (fun n r => ⟨1024 * (n.val / 4) + r.val, by have := n.isLt; have := r.isLt; omega⟩)
    (fun n q => ⟨1024 * (n.val % 4) + q.val, by have := q.isLt; omega⟩)
    (fun _ _ => rfl) (fun _ _ => rfl)
    (fun n hn => outsAt0 (F := Ideal) V c n (lt hn) j)
    (outsAt0_first V c ⟨0, lt (by norm_num)⟩ rfl j)
    (fun n hn => outsAt0_next V c ⟨n + 1, lt hn⟩ (by show ¬(n + 1) % 16 = 0; omega) j)

end Ideal

/-! ## The accumulator's array after the run -/

section Array
variable (V : (c : Dev nD) → (b : Ref sig .tc) → Buf (Elt F) ((c : Thread nD τ).loc b))

/-- What the last point leaves, as contents of the accumulator's array (its one block is the array). -/
abbrev res0 (c : Dev nD) : Buf (Elt F) ((c : Thread nD τ).loc main_v16) := outsAt0 V c 15 last_lt0

/-- The one write-back, at the last point, writes it: the block at offset zero of the 1x1 array is the array. -/
theorem flushed0_3_eq (c : Dev nD) (t : Fin cfg0.N) (hf : (cfg0.win 3).flush t = true) :
    (dat0 V c).flushed 3 t = ((cfg0.win 3).blk t).view.read (Elt F) (res0 V c) := by
  have hN : cfg0.N = 16 := N_0
  have h15 : t.val = 15 := by have := (flush0_3 t).mp hf; have := t.isLt; omega
  obtain rfl : t = t0_15 := Fin.ext h15
  show (cfg0.win 3).cut (grid0.coords t0_15) ((dat0 V c).after 3 t0_15) = _
  rw [after0_3]
  have hz' : (fun a => win0_3.index t0_15 a * main_v16.ty.shape.size a) = fun _ => 0 := funext fun a => by fin_cases a <;> decide
  exact (Memref.read_access_unit_zero (Elt F) main_v16 hz' (fun a => by rw [congrFun hz' a]; simp) (res0 V c)).symm

/-- So the accumulator's array ends holding what the last point left. -/
theorem arrAt0_3 (c : Dev nD) : (dat0 V c).arrAt 3 cfg0.N = res0 V c :=
  (dat0 V c).arrAt_eq_of_cover 3 (res0 V c) (flushed0_3_eq V c) fun i =>
    ⟨t0_15, (flush0_3 t0_15).mpr rfl, by
      show i ∈ ((View.whole main_v16).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

end Array

end Cert.KernelIdeal.Gen

end
-- ==== Proof.KI.Pieces1.lean ====
/-
  Quadrant 1: what one run of the body leaves in the accumulator, as a value. At the first point the body stores a
  zero, reads it back and stores the sum of the point's block over it; at a later point it stores the sum of the
  point's block over what the accumulator held. Each run's last store covers the 1x1 buffer, so what is left is that
  store's payload; every load reads a whole buffer through the full rectangle at offset zero, which is the buffer's
  contents.
-/
import proofs.«101678_j64098091925653_1_alg».proof.Proof.KI.Body1
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every load and store of the body: zero on both axes. -/
theorem hz1 : (![0, 0] : Fin 2 → Nat) = fun _ => 0 := funext fun a => by fin_cases a <;> rfl

/-- A later point leaves the block's sum added to what the accumulator held. -/
theorem out1_B_3_eq (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond1_0 i)
    (x0 : Vec F S1x1 .f32) (x1 : Vec F S1024x512 .f32) (x2 : Vec F S1024x512 .f32) (xo3 : Vec F S1x1 .f32) :
    out1_B_3 c i arg2 harg2 arg3 harg3 arg4 harg4 arg5 harg5 hc0 x0 x1 x2 xo3
      = k1_pay1 (k1_pay3 x1 x2) (k1_pay4 x0) (k1_pay5 x1 x2 x0) (k1_pay6 x1 x2) (k1_pay7 x0) xo3 := by
  unfold out1_B_3
  rw [View.read_writes_eq_canon _ _ _ (cover1_B_3 c i arg2 harg2 arg3 harg3 arg4 harg4 arg5 harg5 hc0 x0 x1 x2 xo3)]
  unfold kernelRun1_B
  dsimp only
  sl_unfold_words
  rw [View.canon_unit_zero hz1]
  simp only [View.readAt_eq_ld, harg2.read_unread, harg3.read_unread, harg4.read_unread, harg5.read_unread,
    View.ld_unit_zero (S := S1x1) hz1, View.ld_unit_zero (S := S1024x512) hz1]

/-- The first point leaves the block's sum added to the zero it has just stored and read back. -/
theorem out1_A_3_eq (c : Dev nD) (i : grid1.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond1_0 i)
    (x0 : Vec F S1x1 .f32) (x1 : Vec F S1024x512 .f32) (x2 : Vec F S1024x512 .f32) :
    out1_A_3 c i arg2 harg2 arg3 harg3 arg4 harg4 arg5 harg5 hc0 x0 x1 x2
      = k1_pay1 (k1_pay3 x1 x2) (k1_pay4 x0) (k1_pay5 x1 x2 x0) (k1_pay6 x1 x2) (k1_pay7 x0) (k1_pay2 (F := F)) := by
  unfold out1_A_3
  rw [View.read_writes_eq_canon _ _ _ (cover1_A_3 c i arg2 harg2 arg3 harg3 arg4 harg4 arg5 harg5 hc0 x0 x1 x2)]
  unfold kernelRun1_A
  dsimp only
  sl_unfold_words
  rw [View.canon_cons_unit_zero (S := S1x1) hz1, View.readCov_unit_zero (S := S1x1) _ hz1]
  simp only [View.readAt_eq_ld, harg2.read_unread, harg3.read_unread, harg4.read_unread,
    View.ld_unit_zero (S := S1x1) hz1, View.ld_unit_zero (S := S1024x512) hz1]

end Cert.KernelIdeal.Gen

end
-- ==== Proof.KI.Value1.lean ====
/-
  Quadrant 1: the value the accumulator ends with. A row block read at an index is the array read at the block's
  offset plus the index inside the block; the grid is walked row by row, so point `t` reads rows
  `1024 (t / 4) + r` of the array its row window is cut from and rows `1024 (t % 4) + c` of the array its column
  window is cut from (the two windows may be cut from one array). After the first point the
  accumulator holds the first block's sum over zero, after each later point one more block's sum; after the sixteenth
  it holds the whole quadrant's double sum. The accumulator's array is one 1x1 block, written back after the last
  point only, so it ends holding what the last point left.
-/
import proofs.«101678_j64098091925653_1_alg».proof.Proof.KI.Pieces1
import proofs.«101678_j64098091925653_1_alg».proof.Proof.Payload
import proofs.«101678_j64098091925653_1_alg».proof.Proof.Blocks
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## Where each window's block sits at a point -/

theorem index1_0 : ∀ t : Fin grid1.N, win1_0.index t (0 : Fin 2) = 0 ∧ win1_0.index t (1 : Fin 2) = 0 := by decide +kernel
theorem index1_1 : ∀ t : Fin grid1.N, win1_1.index t (0 : Fin 2) = t.val / 4 ∧ win1_1.index t (1 : Fin 2) = 0 := by decide +kernel
theorem index1_2 : ∀ t : Fin grid1.N, win1_2.index t (0 : Fin 2) = t.val % 4 ∧ win1_2.index t (1 : Fin 2) = 0 := by decide +kernel

theorem row_lt1 (t : Fin cfg1.N) (r : Fin 1024) : 1024 * (t.val / 4) + r.val < 4096 := by
  have h1 := t.isLt; have hN : cfg1.N = 16 := N_1; have h2 := r.isLt; omega
theorem col_lt1 (t : Fin cfg1.N) (r : Fin 1024) : 1024 * (t.val % 4) + r.val < 4096 := by
  have h2 := r.isLt; omega

/-- The last of the 16 points is a point of the grid. -/
theorem last_lt1 : 15 < cfg1.N := by rw [show cfg1.N = 16 from N_1]; decide

section Ideal
variable (V : (c : Dev nD) → (b : Ref sig .tc) → Buf (Elt Ideal) ((c : Thread nD τ).loc b))

/-- The row window's block at point `t`: rows `1024 (t / 4) + r` of its array. -/
theorem iblk1_1_apply (c : Dev nD) (t : Fin cfg1.N) (r : Fin 1024) (d : Fin 512) :
    iblk1 (F := Ideal) V c 1 t (ix2 r d) = V c (Pipeline.arrRef spec1 1) (ix2 ⟨1024 * (t.val / 4) + r.val, row_lt1 t r⟩ d) := by
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t 0 * 1024 + 1 * r.val = 1024 * (t.val / 4) + r.val; rw [(index1_1 t).1]; omega
  | ⟨1, _⟩ => show win1_1.index t 1 * 512 + 1 * d.val = d.val; rw [(index1_1 t).2]; omega

/-- The column window's block at point `t`: rows `1024 (t % 4) + r` of its array. -/
theorem iblk1_2_apply (c : Dev nD) (t : Fin cfg1.N) (r : Fin 1024) (d : Fin 512) :
    iblk1 (F := Ideal) V c 2 t (ix2 r d) = V c (Pipeline.arrRef spec1 2) (ix2 ⟨1024 * (t.val % 4) + r.val, col_lt1 t r⟩ d) := by
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t 0 * 1024 + 1 * r.val = 1024 * (t.val % 4) + r.val; rw [(index1_2 t).1]; omega
  | ⟨1, _⟩ => show win1_2.index t 1 * 512 + 1 * d.val = d.val; rw [(index1_2 t).2]; omega

/-- The bandwidth's block is the bandwidth's one entry at every point. -/
theorem iblk1_0_apply (c : Dev nD) (t : Fin cfg1.N) :
    iblk1 (F := Ideal) V c 0 t (ix2 0 0) = V c (Pipeline.arrRef spec1 0) (ix2 0 0) := by
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t 0 * 1 + 1 * 0 = 0; rw [(index1_0 t).1]
  | ⟨1, _⟩ => show win1_0.index t 1 * 1 + 1 * 0 = 0; rw [(index1_0 t).2]

/-! ## The accumulation -/

/-- The sum of the kernel entries of the block of point `t`. -/
def blockSum1 (c : Dev nD) (t : Fin cfg1.N) : EReal :=
  ∑ r : Fin 1024, ∑ q : Fin 1024,
    Cert.MMD.kterm
      (Cert.MMD.dist (fun d => V c (Pipeline.arrRef spec1 1) (ix2 ⟨1024 * (t.val / 4) + r.val, row_lt1 t r⟩ d))
        (fun d => V c (Pipeline.arrRef spec1 2) (ix2 ⟨1024 * (t.val % 4) + q.val, col_lt1 t q⟩ d)))
      (V c (Pipeline.arrRef spec1 0) (ix2 0 0))

/-- What the body stores at point `t` over previous contents `prev`: `prev` plus the block's sum. -/
theorem step1 (c : Dev nD) (t : Fin cfg1.N) (prev : Vec Ideal S1x1 .f32) (j : S1x1.Idx) :
    k1_pay1 (F := Ideal) (k1_pay3 (iblk1 V c 1 t) (iblk1 V c 2 t)) (k1_pay4 (iblk1 V c 0 t))
        (k1_pay5 (iblk1 V c 1 t) (iblk1 V c 2 t) (iblk1 V c 0 t)) (k1_pay6 (iblk1 V c 1 t) (iblk1 V c 2 t))
        (k1_pay7 (iblk1 V c 0 t)) prev j
      = prev j + blockSum1 V c t := by
  rw [Cert.MMD.Payload.stored1 (iblk1 V c 1 t) (iblk1 V c 2 t) (iblk1 V c 0 t) prev j]
  unfold blockSum1
  simp only [iblk1_1_apply, iblk1_2_apply, iblk1_0_apply]

/-- After the first point: the first block's sum over zero. -/
theorem outsAt1_first (c : Dev nD) (t : Fin cfg1.N) (h0 : t.val % 16 = 0) (j : S1x1.Idx) :
    outsAt1 (F := Ideal) V c t.val t.isLt j = ((0 : ℝ) : EReal) + blockSum1 V c t := by
  rw [outsAt1_A V c t h0, out1_A_3_eq, step1 V c t _ j, Cert.MMD.Payload.zero1]

/-- After a later point: one more block's sum. -/
theorem outsAt1_next (c : Dev nD) (t : Fin cfg1.N) (h0 : ¬t.val % 16 = 0) (j : S1x1.Idx) :
    outsAt1 (F := Ideal) V c t.val t.isLt j
      = outsAt1 (F := Ideal) V c (t.val - 1) (Nat.lt_of_le_of_lt (Nat.sub_le _ _) t.isLt) j + blockSum1 V c t := by
  rw [outsAt1_B V c t h0, out1_B_3_eq, step1 V c t _ j]

/-- THE QUADRANT: after the last point the accumulator holds the double sum of the kernel entries over all pairs of a
    row of the row window's array and a row of the column window's array. -/
theorem quad1 (c : Dev nD) (j : S1x1.Idx) :
    outsAt1 (F := Ideal) V c 15 last_lt1 j
      = Cert.MMD.kquad (fun p d => V c (Pipeline.arrRef spec1 1) (ix2 p d))
          (fun p d => V c (Pipeline.arrRef spec1 2) (ix2 p d)) (V c (Pipeline.arrRef spec1 0) (ix2 0 0)) := by
  have hN : cfg1.N = 16 := N_1
  have lt : ∀ {n : ℕ}, n < 16 → n < cfg1.N := fun h => lt_of_lt_of_eq h hN.symm
  exact Cert.MMD.acc_eq_kquad (fun p d => V c (Pipeline.arrRef spec1 1) (ix2 p d))
    (fun p d => V c (Pipeline.arrRef spec1 2) (ix2 p d)) (V c (Pipeline.arrRef spec1 0) (ix2 0 0))
    (fun n r => ⟨1024 * (n.val / 4) + r.val, by have := n.isLt; have := r.isLt; omega⟩)
    (fun n q => ⟨1024 * (n.val % 4) + q.val, by have := q.isLt; omega⟩)
    (fun _ _ => rfl) (fun _ _ => rfl)
    (fun n hn => outsAt1 (F := Ideal) V c n (lt hn) j)
    (outsAt1_first V c ⟨0, lt (by norm_num)⟩ rfl j)
    (fun n hn => outsAt1_next V c ⟨n + 1, lt hn⟩ (by show ¬(n + 1) % 16 = 0; omega) j)

end Ideal

/-! ## The accumulator's array after the run -/

section Array
variable (V : (c : Dev nD) → (b : Ref sig .tc) → Buf (Elt F) ((c : Thread nD τ).loc b))

/-- What the last point leaves, as contents of the accumulator's array (its one block is the array). -/
abbrev res1 (c : Dev nD) : Buf (Elt F) ((c : Thread nD τ).loc main_v19) := outsAt1 V c 15 last_lt1

/-- The one write-back, at the last point, writes it: the block at offset zero of the 1x1 array is the array. -/
theorem flushed1_3_eq (c : Dev nD) (t : Fin cfg1.N) (hf : (cfg1.win 3).flush t = true) :
    (dat1 V c).flushed 3 t = ((cfg1.win 3).blk t).view.read (Elt F) (res1 V c) := by
  have hN : cfg1.N = 16 := N_1
  have h15 : t.val = 15 := by have := (flush1_3 t).mp hf; have := t.isLt; omega
  obtain rfl : t = t1_15 := Fin.ext h15
  show (cfg1.win 3).cut (grid1.coords t1_15) ((dat1 V c).after 3 t1_15) = _
  rw [after1_3]
  have hz' : (fun a => win1_3.index t1_15 a * main_v19.ty.shape.size a) = fun _ => 0 := funext fun a => by fin_cases a <;> decide
  exact (Memref.read_access_unit_zero (Elt F) main_v19 hz' (fun a => by rw [congrFun hz' a]; simp) (res1 V c)).symm

/-- So the accumulator's array ends holding what the last point left. -/
theorem arrAt1_3 (c : Dev nD) : (dat1 V c).arrAt 3 cfg1.N = res1 V c :=
  (dat1 V c).arrAt_eq_of_cover 3 (res1 V c) (flushed1_3_eq V c) fun i =>
    ⟨t1_15, (flush1_3 t1_15).mpr rfl, by
      show i ∈ ((View.whole main_v19).slice (win1_3.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_15 0 * win1_3.size 0 ≤ (i 0 : Nat) ∧ (i 0 : Nat) < win1_3.index t1_15 0 * win1_3.size 0 + win1_3.xsize (grid1.coords t1_15) 0
                  rw [show win1_3.index t1_15 0 * win1_3.size 0 = 0 from by decide +kernel, show win1_3.xsize (grid1.coords t1_15) 0 = 1 from by decide +kernel]; omega
      | ⟨1, _⟩ => show win1_3.index t1_15 1 * win1_3.size 1 ≤ (i 1 : Nat) ∧ (i 1 : Nat) < win1_3.index t1_15 1 * win1_3.size 1 + win1_3.xsize (grid1.coords t1_15) 1
                  rw [show win1_3.index t1_15 1 * win1_3.size 1 = 0 from by decide +kernel, show win1_3.xsize (grid1.coords t1_15) 1 = 1 from by decide +kernel]; omega⟩

end Array

end Cert.KernelIdeal.Gen

end
-- ==== Proof.KI.Pieces2.lean ====
/-
  Quadrant 2: what one run of the body leaves in the accumulator, as a value. At the first point the body stores a
  zero, reads it back and stores the sum of the point's block over it; at a later point it stores the sum of the
  point's block over what the accumulator held. Each run's last store covers the 1x1 buffer, so what is left is that
  store's payload; every load reads a whole buffer through the full rectangle at offset zero, which is the buffer's
  contents.
-/
import proofs.«101678_j64098091925653_1_alg».proof.Proof.KI.Body2
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every load and store of the body: zero on both axes. -/
theorem hz2 : (![0, 0] : Fin 2 → Nat) = fun _ => 0 := funext fun a => by fin_cases a <;> rfl

/-- A later point leaves the block's sum added to what the accumulator held. -/
theorem out2_B_3_eq (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : ¬cond2_0 i)
    (x0 : Vec F S1x1 .f32) (x1 : Vec F S1024x512 .f32) (x2 : Vec F S1024x512 .f32) (xo3 : Vec F S1x1 .f32) :
    out2_B_3 c i arg2 harg2 arg3 harg3 arg4 harg4 arg5 harg5 hc0 x0 x1 x2 xo3
      = k2_pay1 (k2_pay3 x1 x2) (k2_pay4 x0) (k2_pay5 x1 x2 x0) (k2_pay6 x1 x2) (k2_pay7 x0) xo3 := by
  unfold out2_B_3
  rw [View.read_writes_eq_canon _ _ _ (cover2_B_3 c i arg2 harg2 arg3 harg3 arg4 harg4 arg5 harg5 hc0 x0 x1 x2 xo3)]
  unfold kernelRun2_B
  dsimp only
  sl_unfold_words
  rw [View.canon_unit_zero hz2]
  simp only [View.readAt_eq_ld, harg2.read_unread, harg3.read_unread, harg4.read_unread, harg5.read_unread,
    View.ld_unit_zero (S := S1x1) hz2, View.ld_unit_zero (S := S1024x512) hz2]

/-- The first point leaves the block's sum added to the zero it has just stored and read back. -/
theorem out2_A_3_eq (c : Dev nD) (i : grid2.Coords) (arg2 : Memref sig .tc .vmem S1x1 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x1 .f32) (harg5 : arg5.IsWhole) (hc0 : cond2_0 i)
    (x0 : Vec F S1x1 .f32) (x1 : Vec F S1024x512 .f32) (x2 : Vec F S1024x512 .f32) :
    out2_A_3 c i arg2 harg2 arg3 harg3 arg4 harg4 arg5 harg5 hc0 x0 x1 x2
      = k2_pay1 (k2_pay3 x1 x2) (k2_pay4 x0) (k2_pay5 x1 x2 x0) (k2_pay6 x1 x2) (k2_pay7 x0) (k2_pay2 (F := F)) := by
  unfold out2_A_3
  rw [View.read_writes_eq_canon _ _ _ (cover2_A_3 c i arg2 harg2 arg3 harg3 arg4 harg4 arg5 harg5 hc0 x0 x1 x2)]
  unfold kernelRun2_A
  dsimp only
  sl_unfold_words
  rw [View.canon_cons_unit_zero (S := S1x1) hz2, View.readCov_unit_zero (S := S1x1) _ hz2]
  simp only [View.readAt_eq_ld, harg2.read_unread, harg3.read_unread, harg4.read_unread,
    View.ld_unit_zero (S := S1x1) hz2, View.ld_unit_zero (S := S1024x512) hz2]

end Cert.KernelIdeal.Gen

end
-- ==== Proof.KI.Value2.lean ====
/-
  Quadrant 2: the value the accumulator ends with. A row block read at an index is the array read at the block's
  offset plus the index inside the block; the grid is walked row by row, so point `t` reads rows
  `1024 (t / 4) + r` of the array its row window is cut from and rows `1024 (t % 4) + c` of the array its column
  window is cut from (the two windows may be cut from one array). After the first point the
  accumulator holds the first block's sum over zero, after each later point one more block's sum; after the sixteenth
  it holds the whole quadrant's double sum. The accumulator's array is one 1x1 block, written back after the last
  point only, so it ends holding what the last point left.
-/
import proofs.«101678_j64098091925653_1_alg».proof.Proof.KI.Pieces2
import proofs.«101678_j64098091925653_1_alg».proof.Proof.Payload
import proofs.«101678_j64098091925653_1_alg».proof.Proof.Blocks
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## Where each window's block sits at a point -/

theorem index2_0 : ∀ t : Fin grid2.N, win2_0.index t (0 : Fin 2) = 0 ∧ win2_0.index t (1 : Fin 2) = 0 := by decide +kernel
theorem index2_1 : ∀ t : Fin grid2.N, win2_1.index t (0 : Fin 2) = t.val / 4 ∧ win2_1.index t (1 : Fin 2) = 0 := by decide +kernel
theorem index2_2 : ∀ t : Fin grid2.N, win2_2.index t (0 : Fin 2) = t.val % 4 ∧ win2_2.index t (1 : Fin 2) = 0 := by decide +kernel

theorem row_lt2 (t : Fin cfg2.N) (r : Fin 1024) : 1024 * (t.val / 4) + r.val < 4096 := by
  have h1 := t.isLt; have hN : cfg2.N = 16 := N_2; have h2 := r.isLt; omega
theorem col_lt2 (t : Fin cfg2.N) (r : Fin 1024) : 1024 * (t.val % 4) + r.val < 4096 := by
  have h2 := r.isLt; omega

/-- The last of the 16 points is a point of the grid. -/
theorem last_lt2 : 15 < cfg2.N := by rw [show cfg2.N = 16 from N_2]; decide

section Ideal
variable (V : (c : Dev nD) → (b : Ref sig .tc) → Buf (Elt Ideal) ((c : Thread nD τ).loc b))

/-- The row window's block at point `t`: rows `1024 (t / 4) + r` of its array. -/
theorem iblk2_1_apply (c : Dev nD) (t : Fin cfg2.N) (r : Fin 1024) (d : Fin 512) :
    iblk2 (F := Ideal) V c 1 t (ix2 r d) = V c (Pipeline.arrRef spec2 1) (ix2 ⟨1024 * (t.val / 4) + r.val, row_lt2 t r⟩ d) := by
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t 0 * 1024 + 1 * r.val = 1024 * (t.val / 4) + r.val; rw [(index2_1 t).1]; omega
  | ⟨1, _⟩ => show win2_1.index t 1 * 512 + 1 * d.val = d.val; rw [(index2_1 t).2]; omega

/-- The column window's block at point `t`: rows `1024 (t % 4) + r` of its array. -/
theorem iblk2_2_apply (c : Dev nD) (t : Fin cfg2.N) (r : Fin 1024) (d : Fin 512) :
    iblk2 (F := Ideal) V c 2 t (ix2 r d) = V c (Pipeline.arrRef spec2 2) (ix2 ⟨1024 * (t.val % 4) + r.val, col_lt2 t r⟩ d) := by
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t 0 * 1024 + 1 * r.val = 1024 * (t.val % 4) + r.val; rw [(index2_2 t).1]; omega
  | ⟨1, _⟩ => show win2_2.index t 1 * 512 + 1 * d.val = d.val; rw [(index2_2 t).2]; omega

/-- The bandwidth's block is the bandwidth's one entry at every point. -/
theorem iblk2_0_apply (c : Dev nD) (t : Fin cfg2.N) :
    iblk2 (F := Ideal) V c 0 t (ix2 0 0) = V c (Pipeline.arrRef spec2 0) (ix2 0 0) := by
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t 0 * 1 + 1 * 0 = 0; rw [(index2_0 t).1]
  | ⟨1, _⟩ => show win2_0.index t 1 * 1 + 1 * 0 = 0; rw [(index2_0 t).2]

/-! ## The accumulation -/

/-- The sum of the kernel entries of the block of point `t`. -/
def blockSum2 (c : Dev nD) (t : Fin cfg2.N) : EReal :=
  ∑ r : Fin 1024, ∑ q : Fin 1024,
    Cert.MMD.kterm
      (Cert.MMD.dist (fun d => V c (Pipeline.arrRef spec2 1) (ix2 ⟨1024 * (t.val / 4) + r.val, row_lt2 t r⟩ d))
        (fun d => V c (Pipeline.arrRef spec2 2) (ix2 ⟨1024 * (t.val % 4) + q.val, col_lt2 t q⟩ d)))
      (V c (Pipeline.arrRef spec2 0) (ix2 0 0))

/-- What the body stores at point `t` over previous contents `prev`: `prev` plus the block's sum. -/
theorem step2 (c : Dev nD) (t : Fin cfg2.N) (prev : Vec Ideal S1x1 .f32) (j : S1x1.Idx) :
    k2_pay1 (F := Ideal) (k2_pay3 (iblk2 V c 1 t) (iblk2 V c 2 t)) (k2_pay4 (iblk2 V c 0 t))
        (k2_pay5 (iblk2 V c 1 t) (iblk2 V c 2 t) (iblk2 V c 0 t)) (k2_pay6 (iblk2 V c 1 t) (iblk2 V c 2 t))
        (k2_pay7 (iblk2 V c 0 t)) prev j
      = prev j + blockSum2 V c t := by
  rw [Cert.MMD.Payload.stored2 (iblk2 V c 1 t) (iblk2 V c 2 t) (iblk2 V c 0 t) prev j]
  unfold blockSum2
  simp only [iblk2_1_apply, iblk2_2_apply, iblk2_0_apply]

/-- After the first point: the first block's sum over zero. -/
theorem outsAt2_first (c : Dev nD) (t : Fin cfg2.N) (h0 : t.val % 16 = 0) (j : S1x1.Idx) :
    outsAt2 (F := Ideal) V c t.val t.isLt j = ((0 : ℝ) : EReal) + blockSum2 V c t := by
  rw [outsAt2_A V c t h0, out2_A_3_eq, step2 V c t _ j, Cert.MMD.Payload.zero2]

/-- After a later point: one more block's sum. -/
theorem outsAt2_next (c : Dev nD) (t : Fin cfg2.N) (h0 : ¬t.val % 16 = 0) (j : S1x1.Idx) :
    outsAt2 (F := Ideal) V c t.val t.isLt j
      = outsAt2 (F := Ideal) V c (t.val - 1) (Nat.lt_of_le_of_lt (Nat.sub_le _ _) t.isLt) j + blockSum2 V c t := by
  rw [outsAt2_B V c t h0, out2_B_3_eq, step2 V c t _ j]

/-- THE QUADRANT: after the last point the accumulator holds the double sum of the kernel entries over all pairs of a
    row of the row window's array and a row of the column window's array. -/
theorem quad2 (c : Dev nD) (j : S1x1.Idx) :
    outsAt2 (F := Ideal) V c 15 last_lt2 j
      = Cert.MMD.kquad (fun p d => V c (Pipeline.arrRef spec2 1) (ix2 p d))
          (fun p d => V c (Pipeline.arrRef spec2 2) (ix2 p d)) (V c (Pipeline.arrRef spec2 0) (ix2 0 0)) := by
  have hN : cfg2.N = 16 := N_2
  have lt : ∀ {n : ℕ}, n < 16 → n < cfg2.N := fun h => lt_of_lt_of_eq h hN.symm
  exact Cert.MMD.acc_eq_kquad (fun p d => V c (Pipeline.arrRef spec2 1) (ix2 p d))
    (fun p d => V c (Pipeline.arrRef spec2 2) (ix2 p d)) (V c (Pipeline.arrRef spec2 0) (ix2 0 0))
    (fun n r => ⟨1024 * (n.val / 4) + r.val, by have := n.isLt; have := r.isLt; omega⟩)
    (fun n q => ⟨1024 * (n.val % 4) + q.val, by have := q.isLt; omega⟩)
    (fun _ _ => rfl) (fun _ _ => rfl)
    (fun n hn => outsAt2 (F := Ideal) V c n (lt hn) j)
    (outsAt2_first V c ⟨0, lt (by norm_num)⟩ rfl j)
    (fun n hn => outsAt2_next V c ⟨n + 1, lt hn⟩ (by show ¬(n + 1) % 16 = 0; omega) j)

end Ideal

/-! ## The accumulator's array after the run -/

section Array
variable (V : (c : Dev nD) → (b : Ref sig .tc) → Buf (Elt F) ((c : Thread nD τ).loc b))

/-- What the last point leaves, as contents of the accumulator's array (its one block is the array). -/
abbrev res2 (c : Dev nD) : Buf (Elt F) ((c : Thread nD τ).loc main_v22) := outsAt2 V c 15 last_lt2

/-- The one write-back, at the last point, writes it: the block at offset zero of the 1x1 array is the array. -/
theorem flushed2_3_eq (c : Dev nD) (t : Fin cfg2.N) (hf : (cfg2.win 3).flush t = true) :
    (dat2 V c).flushed 3 t = ((cfg2.win 3).blk t).view.read (Elt F) (res2 V c) := by
  have hN : cfg2.N = 16 := N_2
  have h15 : t.val = 15 := by have := (flush2_3 t).mp hf; have := t.isLt; omega
  obtain rfl : t = t2_15 := Fin.ext h15
  show (cfg2.win 3).cut (grid2.coords t2_15) ((dat2 V c).after 3 t2_15) = _
  rw [after2_3]
  have hz' : (fun a => win2_3.index t2_15 a * main_v22.ty.shape.size a) = fun _ => 0 := funext fun a => by fin_cases a <;> decide
  exact (Memref.read_access_unit_zero (Elt F) main_v22 hz' (fun a => by rw [congrFun hz' a]; simp) (res2 V c)).symm

/-- So the accumulator's array ends holding what the last point left. -/
theorem arrAt2_3 (c : Dev nD) : (dat2 V c).arrAt 3 cfg2.N = res2 V c :=
  (dat2 V c).arrAt_eq_of_cover 3 (res2 V c) (flushed2_3_eq V c) fun i =>
    ⟨t2_15, (flush2_3 t2_15).mpr rfl, by
      show i ∈ ((View.whole main_v22).slice (win2_3.rect t2_15)).set
      rw [View.set_slice_whole, Rect.mem_set_unit]
      intro a
      have h0 : (i 0 : Nat) < 1 := (i 0).isLt
      have h1 : (i 1 : Nat) < 1 := (i 1).isLt
      match a with
      | ⟨0, _⟩ => show win2_3.index t2_15 0 * win2_3.size 0 ≤ (i 0 : Nat) ∧ (i 0 : Nat) < win2_3.index t2_15 0 * win2_3.size 0 + win2_3.xsize (grid2.coords t2_15) 0
                  rw [show win2_3.index t2_15 0 * win2_3.size 0 = 0 from by decide +kernel, show win2_3.xsize (grid2.coords t2_15) 0 = 1 from by decide +kernel]; omega
      | ⟨1, _⟩ => show win2_3.index t2_15 1 * win2_3.size 1 ≤ (i 1 : Nat) ∧ (i 1 : Nat) < win2_3.index t2_15 1 * win2_3.size 1 + win2_3.xsize (grid2.coords t2_15) 1
                  rw [show win2_3.index t2_15 1 * win2_3.size 1 = 0 from by decide +kernel, show win2_3.xsize (grid2.coords t2_15) 1 = 1 from by decide +kernel]; omega⟩

end Array

end Cert.KernelIdeal.Gen

end
-- ==== Proof.KI.Host.lean ====
/-
  The kernel program's host operations, read as values over the extended reals.

  Before the first launch the host computes the bandwidth from the two point clouds `a`, `b` (4096 points of dimension
  512 each): the sum of all squared entries of both, times 16384, minus twice the squared norm of the sum of all points,
  divided by 67100672 and then by 4. Each host sum starts from a zero that is absorbed; a sum over both axes is the double
  sum over points and coordinates, a sum over the points is taken coordinate by coordinate. Between the launches the host
  only reshapes one-element arrays (a scalar to a 1 × 1 block and back). After the last launch it divides the three
  quadrant sums by 16777216 and combines them as first + second - 2 · third.
-/
import proofs.«101678_j64098091925653_1_alg».proof.Proof.Gen.KernelIdeal.Launch
import proofs.«101678_j64098091925653_1_alg».proof.Proof.Spec
import proofs.«101678_j64098091925653_1_alg».proof.Proof.Consts
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.MMD.Host

open Idealize.ShloMosaic Idealize.ShloMosaic.TcCoe Idealize.ShloMosaic.ValueIdx Idealize.ShloMosaic.StableHlo
open Cert.KernelIdeal Cert.KernelIdeal.Gen

/-- An array of 4096 × 512 entries as 4096 points of dimension 512. -/
def rows (x : S4096x512.Idx → EReal) : Fin 4096 → Fin 512 → EReal := fun p d => x (ix2 p d)

/-! ## One-element arrays reshaped -/

theorem numel_scalar : S_.numel = 1 := Shape.numel_eq_one fun a => a.elim0

theorem numel_unit : S1x1.numel = 1 :=
  Shape.numel_eq_one fun a => by match a with | ⟨0, _⟩ => rfl | ⟨1, _⟩ => rfl

/-- A 1 × 1 block read as a scalar: its one entry. -/
theorem scalar_of_unit {α : Type} (x : S1x1.Idx → α) (i : S_.Idx) :
    shapeCast S_ x shapeCasts_S1x1_S_ i = x (ix2 0 0) :=
  shapeCast_apply x shapeCasts_S1x1_S_ i (ix2 0 0) (by
    have h1 := (S1x1.rowMajor (ix2 0 0)).isLt
    have h2 := (S_.rowMajor i).isLt
    have n1 := numel_unit
    have n0 := numel_scalar
    omega)

/-- A scalar read as a 1 × 1 block: the scalar at its one entry. -/
theorem unit_of_scalar {α : Type} (x : S_.Idx → α) (j : S1x1.Idx) :
    shapeCast S1x1 x shapeCasts_S_S1x1 j = x ix0 :=
  shapeCast_apply x shapeCasts_S_S1x1 j ix0 (by
    have h1 := (S1x1.rowMajor j).isLt
    have h2 := (S_.rowMajor ix0).isLt
    have n1 := numel_unit
    have n0 := numel_scalar
    omega)

/-! ## The host's sums -/

/-- The zero a host sum starts from. -/
theorem init_zero :
    (constant (F := Ideal) S_ .f32 0x00000000#32) (Shape.Idx.first h_S_) = ((0 : ℝ) : EReal) :=
  Cert.MMD.Consts.ofBits_0

/-- A sum over the indices of a vector is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv
    (⟨fun i => i 0, fun a => ix1 a, fun i => (eq_ix1 i).symm, fun _ => rfl⟩ : (⟨1, ![n]⟩ : Shape).Idx ≃ Fin n)
    f (fun a => f (ix1 a)) fun i => ?_
  exact congrArg f (eq_ix1 i)

/-- The sum of all entries of a 4096 × 512 array: over the points, then over the coordinates. -/
theorem sumAll_apply (y : FVec Ideal S4096x512 .f32) (i : S_.Idx) :
    Host.reduceAdd (F := Ideal) y (constant (F := Ideal) S_ .f32 0x00000000#32) reducesTo_S4096x512_S_d0_1 h_S_ i
      = ∑ p : Fin 4096, ∑ d : Fin 512, y (ix2 p d) := by
  simp only [Host.reduceAdd, Ideal.hostReduceAdd_def]
  rw [Ideal.hostReduceAdd_total reducesTo_S4096x512_S_d0_1 (fun b => b.elim0), init_zero, EReal.coe_zero, zero_add]
  exact sum_idx2 y

/-- The sum of the points of a 4096 × 512 array, at coordinate `d`. -/
theorem sumPoints_apply (y : FVec Ideal S4096x512 .f32) (d : Fin 512) :
    Host.reduceAdd (F := Ideal) y (constant (F := Ideal) S_ .f32 0x00000000#32) reducesTo_S4096x512_S512_d0 h_S_ (ix1 d)
      = ∑ p : Fin 4096, y (ix2 p d) := by
  simp only [Host.reduceAdd, Ideal.hostReduceAdd_def]
  rw [Ideal.hostReduceAdd_single reducesTo_S4096x512_S512_d0 (by decide), init_zero, EReal.coe_zero, zero_add]
  show ∑ p : Fin 4096, y _ = _
  refine Finset.sum_congr rfl fun p _ => ?_
  exact congrArg y (funext fun a => Fin.ext (by match a with | ⟨0, _⟩ => rfl | ⟨1, _⟩ => rfl))

/-- The sum of the 512 entries of a vector. -/
theorem sumCoords_apply (y : FVec Ideal S512 .f32) (i : S_.Idx) :
    Host.reduceAdd (F := Ideal) y (constant (F := Ideal) S_ .f32 0x00000000#32) reducesTo_S512_S_d0 h_S_ i
      = ∑ d : Fin 512, y (ix1 d) := by
  simp only [Host.reduceAdd, Ideal.hostReduceAdd_def]
  rw [Ideal.hostReduceAdd_total reducesTo_S512_S_d0 (fun b => b.elim0), init_zero, EReal.coe_zero, zero_add]
  exact sum_idx1 y

/-! ## The bandwidth -/

/-- The sum of the points of both clouds, coordinate by coordinate. -/
def pointSum (A0 A1 : FVec Ideal S4096x512 .f32) : FVec Ideal S512 .f32 :=
  addf (Host.reduceAdd (F := Ideal) A0 (constant (F := Ideal) S_ .f32 0x00000000#32) reducesTo_S4096x512_S512_d0 h_S_)
    (Host.reduceAdd (F := Ideal) A1 (constant (F := Ideal) S_ .f32 0x00000000#32) reducesTo_S4096x512_S512_d0 h_S_)

/-- The host's bandwidth computation as one term over the two clouds. -/
def bwTerm (A0 A1 : FVec Ideal S4096x512 .f32) : FVec Ideal S_ .f32 :=
  Host.divf (Host.divf
    (subf
      (mulf (constant (F := Ideal) S_ .f32 0x46800000#32)
        (addf
          (Host.reduceAdd (F := Ideal) (mulf A0 A0) (constant (F := Ideal) S_ .f32 0x00000000#32) reducesTo_S4096x512_S_d0_1 h_S_)
          (Host.reduceAdd (F := Ideal) (mulf A1 A1) (constant (F := Ideal) S_ .f32 0x00000000#32) reducesTo_S4096x512_S_d0_1 h_S_)))
      (mulf (constant (F := Ideal) S_ .f32 0x40000000#32)
        (Host.reduceAdd (F := Ideal) (mulf (pointSum A0 A1) (pointSum A0 A1)) (constant (F := Ideal) S_ .f32 0x00000000#32)
          reducesTo_S512_S_d0 h_S_)))
    (constant (F := Ideal) S_ .f32 0x4C7FF800#32)) (constant (F := Ideal) S_ .f32 0x40800000#32)

/-- The bandwidth term is the specification's bandwidth of the two clouds. -/
theorem bwTerm_apply (A0 A1 : FVec Ideal S4096x512 .f32) (i : S_.Idx) :
    bwTerm A0 A1 i = Cert.MMD.kbw (rows A0) (rows A1) := by
  show Ideal.div (Ideal.div
      (Ideal.ofBits .f32 0x46800000#32
          * (Host.reduceAdd (F := Ideal) (mulf A0 A0) (constant (F := Ideal) S_ .f32 0x00000000#32) reducesTo_S4096x512_S_d0_1 h_S_ i
            + Host.reduceAdd (F := Ideal) (mulf A1 A1) (constant (F := Ideal) S_ .f32 0x00000000#32) reducesTo_S4096x512_S_d0_1 h_S_ i)
        - Ideal.ofBits .f32 0x40000000#32
          * Host.reduceAdd (F := Ideal) (mulf (pointSum A0 A1) (pointSum A0 A1)) (constant (F := Ideal) S_ .f32 0x00000000#32)
              reducesTo_S512_S_d0 h_S_ i)
      (Ideal.ofBits .f32 0x4C7FF800#32)) (Ideal.ofBits .f32 0x40800000#32) = _
  rw [sumAll_apply, sumAll_apply, sumCoords_apply]
  unfold pointSum
  simp only [mulf_apply, addf_apply, sumPoints_apply]
  rw [Cert.MMD.Consts.ofBits_16384, Cert.MMD.Consts.ofBits_2, Cert.MMD.Consts.ofBits_67100672, Cert.MMD.Consts.ofBits_4]
  rfl

/-! ## The four stretches -/

variable (W : Valuation τ sig (Elt Ideal))

/-- Before the first launch: the bandwidth, as a scalar. -/
theorem after0_v14 : (StableHlo.after hostOps0 W main_v14 : S_.Idx → EReal)
    = fun _ => Cert.MMD.kbw (rows (W main_arg0 : S4096x512.Idx → EReal)) (rows (W main_arg1 : S4096x512.Idx → EReal)) := by
  dsimp only [hostOps0]
  after_results
  funext i
  exact bwTerm_apply _ _ i

/-- Before the first launch: the bandwidth, as the 1 × 1 block the launches read. -/
theorem after0_v15 : (StableHlo.after hostOps0 W main_v15 : S1x1.Idx → EReal)
    = fun _ => Cert.MMD.kbw (rows (W main_arg0 : S4096x512.Idx → EReal)) (rows (W main_arg1 : S4096x512.Idx → EReal)) := by
  dsimp only [hostOps0]
  after_results
  funext j
  exact (unit_of_scalar (bwTerm (W main_arg0 : S4096x512.Idx → EReal) (W main_arg1 : S4096x512.Idx → EReal)) j).trans
    (bwTerm_apply _ _ _)

/-- After the first launch: its 1 × 1 result as a scalar. -/
theorem after1_v17 : (StableHlo.after hostOps1 W main_v17 : S_.Idx → EReal)
    = fun _ => (W main_v16 : S1x1.Idx → EReal) (ix2 0 0) := by
  dsimp only [hostOps1]
  after_results
  funext i
  exact scalar_of_unit _ i

/-- After the first launch: the bandwidth as a 1 × 1 block again. -/
theorem after1_v18 : (StableHlo.after hostOps1 W main_v18 : S1x1.Idx → EReal)
    = fun _ => (W main_v14 : S_.Idx → EReal) ix0 := by
  dsimp only [hostOps1]
  after_results
  funext j
  exact unit_of_scalar _ j

/-- After the second launch: its 1 × 1 result as a scalar. -/
theorem after2_v20 : (StableHlo.after hostOps2 W main_v20 : S_.Idx → EReal)
    = fun _ => (W main_v19 : S1x1.Idx → EReal) (ix2 0 0) := by
  dsimp only [hostOps2]
  after_results
  funext i
  exact scalar_of_unit _ i

/-- After the second launch: the bandwidth as a 1 × 1 block again. -/
theorem after2_v21 : (StableHlo.after hostOps2 W main_v21 : S1x1.Idx → EReal)
    = fun _ => (W main_v14 : S_.Idx → EReal) ix0 := by
  dsimp only [hostOps2]
  after_results
  funext j
  exact unit_of_scalar _ j

/-- After the third launch: the three quadrant sums, each divided by 16777216, combined. -/
theorem after3_v29 : (StableHlo.after hostOps3 W main_v29 : S_.Idx → EReal)
    = fun _ => (Ideal.div ((W main_v17 : S_.Idx → EReal) ix0) ((16777216 : ℝ) : EReal)
          + Ideal.div ((W main_v20 : S_.Idx → EReal) ix0) ((16777216 : ℝ) : EReal))
        - ((2 : ℝ) : EReal) * Ideal.div ((W main_v22 : S1x1.Idx → EReal) (ix2 0 0)) ((16777216 : ℝ) : EReal) := by
  dsimp only [hostOps3]
  after_results
  funext i
  obtain rfl : i = ix0 := eq_ix0 i
  show (Ideal.div ((W main_v17 : S_.Idx → EReal) ix0) (Ideal.ofBits .f32 0x4B800000#32)
        + Ideal.div ((W main_v20 : S_.Idx → EReal) ix0) (Ideal.ofBits .f32 0x4B800000#32))
      - Ideal.ofBits .f32 0x40000000#32
        * Ideal.div (shapeCast S_ (W main_v22 : S1x1.Idx → EReal) shapeCasts_S1x1_S_ ix0) (Ideal.ofBits .f32 0x4B800000#32) = _
  rw [scalar_of_unit, Cert.MMD.Consts.ofBits_16777216, Cert.MMD.Consts.ofBits_2]

end Cert.MMD.Host

end
-- ==== Proof.KI.Final.lean ====
/-
  The kernel's result at the ideal instance. Reading the fold of buffer contents backwards from the result: the last host
  stretch combines the three accumulators' scalars; each accumulator's array holds what its pipeline wrote back after the
  last grid point, which is the sum of the quadrant's 16 block sums, that is, the whole quadrant's sum of five-term entries
  at the bandwidth; the bandwidth block every quadrant reads is the first host stretch's scalar, carried unchanged between
  the quadrants; and the row blocks are cut from the argument arrays, which nothing writes.
-/
import proofs.«101678_j64098091925653_1_alg».proof.Proof.KI.Fold
import proofs.«101678_j64098091925653_1_alg».proof.Proof.KI.Value0
import proofs.«101678_j64098091925653_1_alg».proof.Proof.KI.Value1
import proofs.«101678_j64098091925653_1_alg».proof.Proof.KI.Value2
import proofs.«101678_j64098091925653_1_alg».proof.Proof.KI.Host

set_option maxRecDepth 16384

noncomputable section

namespace Cert.KernelIdeal.Gen

open Idealize.ShloMosaic Idealize.ShloMosaic.TcCoe Idealize.ShloMosaic.ValueIdx
open Idealize.SL.Sem
open Cert.MMD Cert.MMD.Host

variable (m : (ℓ : Loc nD τ sig) → Buf (Elt Ideal) ℓ)

/-- The two clouds as launched, as 4096 points of dimension 512 each. -/
abbrev cloud0 (c : Dev nD) : Fin 4096 → Fin 512 → EReal := rows (m ((c : Thread nD τ).loc main_arg0) : S4096x512.Idx → EReal)
abbrev cloud1 (c : Dev nD) : Fin 4096 → Fin 512 → EReal := rows (m ((c : Thread nD τ).loc main_arg1) : S4096x512.Idx → EReal)

/-- The kernel's result: its closed formula of the two clouds. -/
def result (c : Dev nD) : Buf (Elt Ideal) ((c.tc : Thread nD τ).loc main_v29) := fun _ => kernelSpec (cloud0 m c) (cloud1 m c)

/-- The bandwidth scalar after the first host stretch. -/
theorem bwScalar (c : Dev nD) : (W1 m c main_v14 : S_.Idx → EReal) = fun _ => kbw (cloud0 m c) (cloud1 m c) :=
  after0_v14 (W0 m c)

/-- Quadrant 0's bandwidth block holds the bandwidth. -/
theorem bwBlock0 (c : Dev nD) : (R1 m c (Pipeline.arrRef spec0 0) : S1x1.Idx → EReal) (ix2 0 0) = kbw (cloud0 m c) (cloud1 m c) := by
  show (W1 m c main_v15 : S1x1.Idx → EReal) (ix2 0 0) = _
  exact congrFun (after0_v15 (W0 m c)) _

/-- Quadrant 0's pipeline leaves the whole quadrant's sum in its accumulator's array. -/
theorem sum0 (c : Dev nD) (j : S1x1.Idx) :
    (o0 m c : S1x1.Idx → EReal) j = kquad (cloud0 m c) (cloud0 m c) (kbw (cloud0 m c) (cloud1 m c)) := by
  unfold o0
  rw [arrAt0_3]
  refine (quad0 (R1 m) c j).trans ?_
  rw [bwBlock0 m c]
  have e1 : (R1 m c (Pipeline.arrRef spec0 1) : S4096x512.Idx → EReal) = (m ((c : Thread nD τ).loc main_arg0) : S4096x512.Idx → EReal) := W1_arg0 m c
  have e2 : (R1 m c (Pipeline.arrRef spec0 2) : S4096x512.Idx → EReal) = (m ((c : Thread nD τ).loc main_arg0) : S4096x512.Idx → EReal) := W1_arg0 m c
  rw [e1]
  try rw [e2]
  rfl

/-- Quadrant 1's bandwidth block holds the bandwidth. -/
theorem bwBlock1 (c : Dev nD) : (R3 m c (Pipeline.arrRef spec1 0) : S1x1.Idx → EReal) (ix2 0 0) = kbw (cloud0 m c) (cloud1 m c) := by
  show (W3 m c main_v18 : S1x1.Idx → EReal) (ix2 0 0) = _
  rw [show W3 m c = StableHlo.after hostOps1 (W2 m c) from rfl, after1_v18 (W2 m c)]
  show (W2 m c main_v14 : S_.Idx → EReal) ix0 = _
  rw [W2_v14 m c, bwScalar m c]

/-- Quadrant 1's pipeline leaves the whole quadrant's sum in its accumulator's array. -/
theorem sum1 (c : Dev nD) (j : S1x1.Idx) :
    (o1 m c : S1x1.Idx → EReal) j = kquad (cloud1 m c) (cloud1 m c) (kbw (cloud0 m c) (cloud1 m c)) := by
  unfold o1
  rw [arrAt1_3]
  refine (quad1 (R3 m) c j).trans ?_
  rw [bwBlock1 m c]
  have e1 : (R3 m c (Pipeline.arrRef spec1 1) : S4096x512.Idx → EReal) = (m ((c : Thread nD τ).loc main_arg1) : S4096x512.Idx → EReal) := W3_arg1 m c
  have e2 : (R3 m c (Pipeline.arrRef spec1 2) : S4096x512.Idx → EReal) = (m ((c : Thread nD τ).loc main_arg1) : S4096x512.Idx → EReal) := W3_arg1 m c
  rw [e1]
  try rw [e2]
  rfl

/-- Quadrant 2's bandwidth block holds the bandwidth. -/
theorem bwBlock2 (c : Dev nD) : (R5 m c (Pipeline.arrRef spec2 0) : S1x1.Idx → EReal) (ix2 0 0) = kbw (cloud0 m c) (cloud1 m c) := by
  show (W5 m c main_v21 : S1x1.Idx → EReal) (ix2 0 0) = _
  rw [show W5 m c = StableHlo.after hostOps2 (W4 m c) from rfl, after2_v21 (W4 m c)]
  show (W4 m c main_v14 : S_.Idx → EReal) ix0 = _
  rw [W4_v14 m c, bwScalar m c]

/-- Quadrant 2's pipeline leaves the whole quadrant's sum in its accumulator's array. -/
theorem sum2 (c : Dev nD) (j : S1x1.Idx) :
    (o2 m c : S1x1.Idx → EReal) j = kquad (cloud0 m c) (cloud1 m c) (kbw (cloud0 m c) (cloud1 m c)) := by
  unfold o2
  rw [arrAt2_3]
  refine (quad2 (R5 m) c j).trans ?_
  rw [bwBlock2 m c]
  have e1 : (R5 m c (Pipeline.arrRef spec2 1) : S4096x512.Idx → EReal) = (m ((c : Thread nD τ).loc main_arg0) : S4096x512.Idx → EReal) := W5_arg0 m c
  have e2 : (R5 m c (Pipeline.arrRef spec2 2) : S4096x512.Idx → EReal) = (m ((c : Thread nD τ).loc main_arg1) : S4096x512.Idx → EReal) := W5_arg1 m c
  rw [e1]
  try rw [e2]
  rfl

/-- The result buffer at the last boundary holds the closed formula. -/
theorem value (c : Dev nD) : W7 m c main_v29 = result m c := by
  show (StableHlo.after hostOps3 (W6 m c) main_v29 : S_.Idx → EReal) = _
  rw [after3_v29 (W6 m c)]
  unfold result kernelSpec
  funext _
  have h17 : (W6 m c main_v17 : S_.Idx → EReal) ix0 = kquad (cloud0 m c) (cloud0 m c) (kbw (cloud0 m c) (cloud1 m c)) := by
    rw [W6_v17 m c, show W3 m c = StableHlo.after hostOps1 (W2 m c) from rfl, after1_v17 (W2 m c)]
    show (W2 m c main_v16 : S1x1.Idx → EReal) (ix2 0 0) = _
    rw [W2_out m c]
    exact sum0 m c _
  have h20 : (W6 m c main_v20 : S_.Idx → EReal) ix0 = kquad (cloud1 m c) (cloud1 m c) (kbw (cloud0 m c) (cloud1 m c)) := by
    rw [W6_v20 m c, show W5 m c = StableHlo.after hostOps2 (W4 m c) from rfl, after2_v20 (W4 m c)]
    show (W4 m c main_v19 : S1x1.Idx → EReal) (ix2 0 0) = _
    rw [W4_out m c]
    exact sum1 m c _
  have h22 : (W6 m c main_v22 : S1x1.Idx → EReal) (ix2 0 0) = kquad (cloud0 m c) (cloud1 m c) (kbw (cloud0 m c) (cloud1 m c)) := by
    rw [W6_out m c]
    exact sum2 m c _
  rw [h17, h20, h22]

/-- THE KERNEL'S RUN at the ideal instance: every weakly fair execution terminates with the result at the closed formula
    and the two argument arrays as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v29 (by decide))).trans (value m c),
      (h c _ (mem_uc main_arg0 (by decide))).trans (W7_main_arg0 m c),
      (h c _ (mem_uc main_arg1 (by decide))).trans (W7_main_arg1 m c)⟩) (run_all m ρ)

end Cert.KernelIdeal.Gen

end
-- ==== Proof.RefValue.lean ====
/-
  The reference program read index by index. Its run is a chain of whole-array operations; at an index each of them reads
  one entry (or one row, or all entries) of the arrays before it, and the chain collapses to the closed formula
  `refSpec`:

  * the two clouds are stacked (rows below 4096 come from the first, row `4096 + p` is row `p` of the second);
  * entry `(i, j)` of the distance matrix is `dist (T i) (T j)`, the squared norms coming from row sums of squares and the
    inner product from the contraction of the stacked array with its transpose;
  * the bandwidth is the sum of all entries of the distance matrix, divided twice;
  * entry `(i, j)` of the kernel matrix is the five-term sum `rterm` of that distance;
  * each quadrant's mean is the double sum over a 4096 × 4096 block of the kernel matrix, whose rows and columns are
    rows of the first or of the second cloud according to the block's offsets, divided by the block's size;
  * the result combines the four means.

  Every reduction starts from zero, and `0 + x = x` holds for every extended real, so the initial values drop out.
-/
import proofs.«101678_j64098091925653_1_alg».proof.Defs
import proofs.«101678_j64098091925653_1_alg».proof.Proof.Gen.ReferenceIdeal.Read
import proofs.«101678_j64098091925653_1_alg».proof.Proof.Spec
import proofs.«101678_j64098091925653_1_alg».proof.Proof.Consts
import Idealize.ShloMosaic.Lib.Pipeline.Value
import Idealize.ShloMosaic.Lib.ValueIdx
import Idealize.ShloMosaic.PureOps.Ideal.Laws

noncomputable section

namespace Cert.MMD.Ref

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-! ## The stacked cloud -/

/-- A 4096 × 512 array as a family of 4096 points. -/
abbrev rows (x : FVec Ideal S4096x512 .f32) : Fin 4096 → Fin 512 → EReal := fun p d => x (ix2 p d)

/-- Row `p` of the upper half of the stacked cloud. -/
abbrev lo (p : Fin 4096) : Fin 8192 := ⟨p.val, by have := p.isLt; omega⟩

/-- Row `4096 + p` of the stacked cloud: row `p` of its lower half. -/
abbrev hi (p : Fin 4096) : Fin 8192 := ⟨4096 + p.val, by have := p.isLt; omega⟩

/-- A row of the upper half of the stack is the first cloud's. -/
theorem cat_lo (a b : Fin 4096 → Fin 512 → EReal) (p : Fin 4096) : cat a b (lo p) = a p := by
  unfold cat
  rw [dif_pos (show (lo p).val < 4096 from p.isLt)]

/-- A row of the lower half of the stack is the second cloud's. -/
theorem cat_hi (a b : Fin 4096 → Fin 512 → EReal) (p : Fin 4096) : cat a b (hi p) = b p := by
  unfold cat
  rw [dif_neg (show ¬ (hi p).val < 4096 from by show ¬ 4096 + p.val < 4096; omega)]
  exact congrArg b (Fin.ext (by show 4096 + p.val - 4096 = p.val; omega))

/-- The concatenation along the rows, at an index, is the stacked cloud. -/
theorem v0_at (x0 x1 : FVec Ideal S4096x512 .f32) (r : Fin 8192) (d : Fin 512) :
    val_main_v0 (F := Ideal) x0 x1 (ix2 r d) = cat (rows x0) (rows x1) r d := by
  unfold val_main_v0 cat
  by_cases h : r.val < 4096
  · rw [dif_pos h]
    exact concatenate_pair_apply_left 0 x0 x1 _ (ix2 r d) rfl (ix2 ⟨r.val, h⟩ d)
      (fun b => by match b with | ⟨0, _⟩ => rfl | ⟨1, _⟩ => rfl)
  · rw [dif_neg h]
    exact concatenate_pair_apply_right 0 x0 x1 _ (ix2 r d) rfl rfl
      (ix2 ⟨r.val - 4096, by have := r.isLt; omega⟩ d)
      (fun b hb => by match b with | ⟨0, _⟩ => exact absurd rfl hb | ⟨1, _⟩ => rfl)
      (by show r.val - 4096 + 4096 = r.val; omega)

/-- The stacked cloud of two arrays. -/
abbrev stack (x0 x1 : FVec Ideal S4096x512 .f32) : Fin 8192 → Fin 512 → EReal := cat (rows x0) (rows x1)

/-! ## The distance matrix -/

theorem idx_v2 (r : Fin 8192) (k : Fin 512) : idx_main_v2 (ix1 r) k = ix2 r k :=
  funext fun a => Fin.ext (by match a with | ⟨0, _⟩ => rfl | ⟨1, _⟩ => rfl)

/-- The row sums of the squares are the squared norms of the stacked points. -/
theorem v2_at (x0 x1 : FVec Ideal S4096x512 .f32) (r : Fin 8192) :
    val_main_v2 (F := Ideal) x0 x1 (ix1 r) = sq (stack x0 x1 r) := by
  rw [val_main_v2_apply, val_main_cst_apply]
  simp only [idx_v2, val_main_v1_apply, v0_at, Ideal.ofBits_def, Ideal.mulf_def, Consts.ofBits_0, EReal.coe_zero, zero_add]
  rfl

theorem idx_v3_v5 (i j : Fin 8192) : idx_main_v3 (idx_main_v5 (ix2 i j)) = ix1 i :=
  funext fun a => Fin.ext (by match a with | ⟨0, _⟩ => rfl)

theorem idx_v4_v6 (i j : Fin 8192) : idx_main_v4 (idx_main_v6 (ix2 i j)) = ix1 j :=
  funext fun a => Fin.ext (by match a with | ⟨0, _⟩ => rfl)

theorem lidx_v9 (i j : Fin 8192) (k : Fin 512) : lidx_main_v9 (ix2 i j) k = ix2 i k :=
  funext fun a => Fin.ext (by match a with | ⟨0, _⟩ => rfl | ⟨1, _⟩ => rfl)

theorem idx_v8_ridx_v9 (i j : Fin 8192) (k : Fin 512) : idx_main_v8 (ridx_main_v9 (ix2 i j) k) = ix2 j k :=
  funext fun a => Fin.ext (by match a with | ⟨0, _⟩ => rfl | ⟨1, _⟩ => rfl)

/-- Entry `(i, j)` of the distance matrix: the two squared norms, broadcast along the columns and along the rows, less
    twice the inner product of rows `i` and `j`. -/
theorem v12_at (x0 x1 : FVec Ideal S4096x512 .f32) (i j : Fin 8192) :
    val_main_v12 (F := Ideal) x0 x1 (ix2 i j) = dist (stack x0 x1 i) (stack x0 x1 j) := by
  rw [val_main_v12_apply, val_main_v7_apply, val_main_v5_apply, val_main_v3_apply, val_main_v6_apply, val_main_v4_apply,
    val_main_v11_apply, val_main_v10_apply, val_main_cst_0_apply, val_main_v9_apply]
  simp only [val_main_v8_apply, idx_v3_v5, idx_v4_v6, lidx_v9, idx_v8_ridx_v9, v0_at, v2_at, Ideal.ofBits_def,
    Ideal.mulf_def, Ideal.addf_def, Ideal.subf_def, Consts.ofBits_2]
  rfl

/-! ## The bandwidth -/

/-- The bandwidth: the sum of every entry of the distance matrix, divided by the number of ordered pairs of distinct
    points and by four. -/
theorem v15_at (x0 x1 : FVec Ideal S4096x512 .f32) (s : S_.Idx) :
    val_main_v15 (F := Ideal) x0 x1 s = rbw (stack x0 x1) := by
  rw [val_main_v15_apply, val_main_v14_apply, val_main_v13_apply, val_main_cst_1_apply, val_main_cst_2_apply,
    val_main_cst_3_apply, sum_idx2]
  simp only [v12_at, Ideal.ofBits_def, Ideal.hostDivf_def, Consts.ofBits_0, Consts.ofBits_67100672, Consts.ofBits_4,
    EReal.coe_zero, zero_add]
  rfl

/-! ## The kernel matrix -/

/-- Entry `(i, j)` of the kernel matrix: from zero, the five exponentials of the negated distance over the bandwidth
    times 1, 2, 4, 8, 16. -/
theorem v46_at (x0 x1 : FVec Ideal S4096x512 .f32) (i j : Fin 8192) :
    val_main_v46 (F := Ideal) x0 x1 (ix2 i j)
      = rterm (dist (stack x0 x1 i) (stack x0 x1 j)) (rbw (stack x0 x1)) := by
  rw [val_main_v46_apply, val_main_v45_apply, val_main_v44_apply, val_main_v43_apply, val_main_v42_apply, val_main_v41_apply,
    val_main_v40_apply, val_main_v39_apply, val_main_v38_apply, val_main_v37_apply, val_main_v36_apply, val_main_v35_apply,
    val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_cst_4_apply, val_main_cst_5_apply, val_main_cst_6_apply, val_main_cst_7_apply,
    val_main_cst_8_apply, val_main_cst_9_apply]
  simp only [v12_at, v15_at, Ideal.ofBits_def, Ideal.hostDivf_def, Ideal.hostNegf_def, Ideal.negf_def, Ideal.mulf_def,
    Ideal.addf_def, Ideal.hostUnary_exp_def, Consts.ofBits_0, Consts.ofBits_1, Consts.ofBits_2, Consts.ofBits_4,
    Consts.ofBits_8, Consts.ofBits_16]
  rfl

/-! ## The four quadrants -/

theorem idx_v47 (p q : Fin 4096) : idx_main_v47 (ix2 p q) = ix2 (lo p) (lo q) :=
  funext fun a => Fin.ext (by match a with | ⟨0, _⟩ => rfl | ⟨1, _⟩ => rfl)

theorem idx_v50 (p q : Fin 4096) : idx_main_v50 (ix2 p q) = ix2 (hi p) (hi q) :=
  funext fun a => Fin.ext (by match a with | ⟨0, _⟩ => rfl | ⟨1, _⟩ => rfl)

theorem idx_v53 (p q : Fin 4096) : idx_main_v53 (ix2 p q) = ix2 (lo p) (hi q) :=
  funext fun a => Fin.ext (by match a with | ⟨0, _⟩ => rfl | ⟨1, _⟩ => rfl)

theorem idx_v56 (p q : Fin 4096) : idx_main_v56 (ix2 p q) = ix2 (hi p) (lo q) :=
  funext fun a => Fin.ext (by match a with | ⟨0, _⟩ => rfl | ⟨1, _⟩ => rfl)

/-- The upper-left block: the first cloud against itself. -/
theorem v48_at (x0 x1 : FVec Ideal S4096x512 .f32) (s : S_.Idx) :
    val_main_v48 (F := Ideal) x0 x1 s = rquad (rows x0) (rows x0) (rbw (stack x0 x1)) := by
  rw [val_main_v48_apply, val_main_cst_10_apply, sum_idx2]
  simp only [val_main_v47_apply, idx_v47, v46_at, cat_lo, Ideal.ofBits_def, Consts.ofBits_0, EReal.coe_zero, zero_add]
  rfl

/-- The lower-right block: the second cloud against itself. -/
theorem v51_at (x0 x1 : FVec Ideal S4096x512 .f32) (s : S_.Idx) :
    val_main_v51 (F := Ideal) x0 x1 s = rquad (rows x1) (rows x1) (rbw (stack x0 x1)) := by
  rw [val_main_v51_apply, val_main_cst_12_apply, sum_idx2]
  simp only [val_main_v50_apply, idx_v50, v46_at, cat_hi, Ideal.ofBits_def, Consts.ofBits_0, EReal.coe_zero, zero_add]
  rfl

/-- The upper-right block: the first cloud against the second. -/
theorem v54_at (x0 x1 : FVec Ideal S4096x512 .f32) (s : S_.Idx) :
    val_main_v54 (F := Ideal) x0 x1 s = rquad (rows x0) (rows x1) (rbw (stack x0 x1)) := by
  rw [val_main_v54_apply, val_main_cst_14_apply, sum_idx2]
  simp only [val_main_v53_apply, idx_v53, v46_at, cat_lo, cat_hi, Ideal.ofBits_def, Consts.ofBits_0, EReal.coe_zero,
    zero_add]
  rfl

/-- The lower-left block: the second cloud against the first. -/
theorem v57_at (x0 x1 : FVec Ideal S4096x512 .f32) (s : S_.Idx) :
    val_main_v57 (F := Ideal) x0 x1 s = rquad (rows x1) (rows x0) (rbw (stack x0 x1)) := by
  rw [val_main_v57_apply, val_main_cst_16_apply, sum_idx2]
  simp only [val_main_v56_apply, idx_v56, v46_at, cat_lo, cat_hi, Ideal.ofBits_def, Consts.ofBits_0, EReal.coe_zero,
    zero_add]
  rfl

/-! ## The result -/

/-- The reference's result is the closed formula. -/
theorem value_eq (x0 x1 : FVec Ideal S4096x512 .f32) :
    val_main_v61 (F := Ideal) x0 x1 = fun _ => refSpec (fun p d => x0 (ix2 p d)) (fun p d => x1 (ix2 p d)) := by
  funext s
  rw [val_main_v61_apply, val_main_v60_apply, val_main_v59_apply, val_main_v49_apply, val_main_v52_apply, val_main_v55_apply,
    val_main_v58_apply, v48_at, v51_at, v54_at, v57_at, val_main_cst_11_apply, val_main_cst_13_apply, val_main_cst_15_apply,
    val_main_cst_17_apply]
  simp only [Ideal.ofBits_def, Ideal.hostDivf_def, Ideal.addf_def, Ideal.subf_def, Consts.ofBits_16777216]
  rfl

/-- The reference's run: its result buffer holds the closed formula of the two argument arrays, which are unchanged. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v61)
          = (fun _ => refSpec (fun p d => m ((c.tc : Thread nD τ).loc main_arg0) (ix2 p d))
              (fun p d => m ((c.tc : Thread nD τ).loc main_arg1) (ix2 p d)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run Cert.ReferenceIdeal.defs _ _).mono
    (fun _ h c => ⟨(h c).1.trans ((val_main_v61_eq m c).trans (value_eq _ _)), (h c).2⟩)
    (Cert.ReferenceIdeal.Value.run (F := Ideal) m ρ)

end Cert.MMD.Ref

end
-- ==== Proof.AlgebraReal.lean ====
/-
  The real-number side of the comparison of the two discrepancy programs: the squared distance in Gram form is a sum
  of squares (so it is symmetric and nonnegative), the sum of all pairwise squared distances of a finite family of
  points is `2 n ∑ᵢ |tᵢ|² - 2 |∑ᵢ tᵢ|²`, and a sum over the 8192 stacked points splits into the sums over the two clouds.
-/
import proofs.«101678_j64098091925653_1_alg».proof.Proof.Spec

noncomputable section

namespace Cert.MMD

section General

variable {ι D : Type*} [Fintype ι] [Fintype D]

/-- A real point's squared norm. -/
def sqR (u : D → ℝ) : ℝ := ∑ d, u d * u d

/-- The inner product of two real points. -/
def dotR (u v : D → ℝ) : ℝ := ∑ d, u d * v d

/-- The squared distance of two real points in Gram form. -/
def distR (u v : D → ℝ) : ℝ := (sqR u + sqR v) - 2 * dotR u v

/-- The Gram form is the sum of the squared coordinate differences. -/
theorem distR_eq (u v : D → ℝ) : distR u v = ∑ d, (u d - v d) ^ 2 := by
  unfold distR sqR dotR
  rw [Finset.mul_sum, ← Finset.sum_add_distrib, ← Finset.sum_sub_distrib]
  exact Finset.sum_congr rfl (fun d _ => by ring)

theorem distR_nonneg (u v : D → ℝ) : 0 ≤ distR u v := by
  rw [distR_eq]
  exact Finset.sum_nonneg (fun d _ => sq_nonneg _)

theorem distR_comm (u v : D → ℝ) : distR u v = distR v u := by
  rw [distR_eq, distR_eq]
  exact Finset.sum_congr rfl (fun d _ => by ring)

/-- The inner products of all pairs add up to the squared norm of the sum of the points, coordinate by coordinate. -/
theorem sum_sum_dotR (T : ι → D → ℝ) :
    ∑ i, ∑ j, dotR (T i) (T j) = ∑ d, (∑ i, T i d) * (∑ i, T i d) := by
  unfold dotR
  calc ∑ i, ∑ j, ∑ d, T i d * T j d
      = ∑ i, ∑ d, ∑ j, T i d * T j d := Finset.sum_congr rfl (fun i _ => Finset.sum_comm)
    _ = ∑ d, ∑ i, ∑ j, T i d * T j d := Finset.sum_comm
    _ = ∑ d, (∑ i, T i d) * (∑ i, T i d) :=
        Finset.sum_congr rfl (fun d _ => (Finset.sum_mul_sum _ _ _ _).symm)

/-- The sum of all pairwise squared distances of `n` points: `2 n ∑ᵢ |tᵢ|² - 2 |∑ᵢ tᵢ|²`. -/
theorem sum_sum_distR (T : ι → D → ℝ) :
    ∑ i, ∑ j, distR (T i) (T j)
      = 2 * (Fintype.card ι : ℝ) * ∑ i, sqR (T i) - 2 * ∑ d, (∑ i, T i d) * (∑ i, T i d) := by
  have h1 : ∑ i : ι, ∑ j : ι, sqR (T i) = (Fintype.card ι : ℝ) * ∑ i, sqR (T i) := by
    rw [Finset.mul_sum]
    exact Finset.sum_congr rfl (fun i _ => by rw [Finset.sum_const, Finset.card_univ, nsmul_eq_mul])
  have h2 : ∑ _i : ι, ∑ j : ι, sqR (T j) = (Fintype.card ι : ℝ) * ∑ i, sqR (T i) := by
    rw [Finset.sum_const, Finset.card_univ, nsmul_eq_mul]
  have h3 : ∑ i : ι, ∑ j : ι, 2 * dotR (T i) (T j) = 2 * ∑ d, (∑ i, T i d) * (∑ i, T i d) := by
    rw [← sum_sum_dotR, Finset.mul_sum]
    exact Finset.sum_congr rfl (fun i _ => by rw [Finset.mul_sum])
  unfold distR
  simp only [Finset.sum_sub_distrib, Finset.sum_add_distrib]
  rw [h1, h2, h3]
  ring

/-- If all pairwise squared distances add up to zero, each of them is zero. -/
theorem distR_eq_zero_of_sum (T : ι → D → ℝ) (h : ∑ i, ∑ j, distR (T i) (T j) = 0) (i j : ι) :
    distR (T i) (T j) = 0 := by
  have hi := (Finset.sum_eq_zero_iff_of_nonneg
    (fun i _ => Finset.sum_nonneg (fun j _ => distR_nonneg (T i) (T j)))).1 h i (Finset.mem_univ i)
  exact (Finset.sum_eq_zero_iff_of_nonneg (fun j _ => distR_nonneg (T i) (T j))).1 hi j (Finset.mem_univ j)

end General

/-- The two real clouds stacked, as the programs stack them. -/
def catR (x y : Fin 4096 → Fin 512 → ℝ) : Fin 8192 → Fin 512 → ℝ :=
  fun i => if h : i.val < 4096 then x ⟨i.val, h⟩ else y ⟨i.val - 4096, by have := i.isLt; omega⟩

theorem catR_left (x y : Fin 4096 → Fin 512 → ℝ) (p : Fin 4096) :
    catR x y (Fin.castAdd 4096 p) = x p := by
  unfold catR
  rw [dif_pos (show (Fin.castAdd 4096 p).val < 4096 from p.isLt)]
  rfl

theorem catR_right (x y : Fin 4096 → Fin 512 → ℝ) (p : Fin 4096) :
    catR x y (Fin.natAdd 4096 p) = y p := by
  unfold catR
  rw [dif_neg (show ¬ (Fin.natAdd 4096 p).val < 4096 by simp)]
  exact congrArg y (Fin.ext (by simp))

/-- A sum over the stacked points is the sum over the first cloud plus the sum over the second. -/
theorem sum_catR {M : Type*} [AddCommMonoid M] (x y : Fin 4096 → Fin 512 → ℝ) (F : (Fin 512 → ℝ) → M) :
    ∑ i, F (catR x y i) = ∑ p, F (x p) + ∑ p, F (y p) := by
  have h := Fin.sum_univ_add (a := 4096) (b := 4096) (fun i => F (catR x y i))
  simp only [catR_left, catR_right] at h
  exact h

/-- The bandwidth identity: the sum of all pairwise squared distances of the stacked points, in the form the
    first program computes it. -/
theorem sum_sum_distR_catR (x y : Fin 4096 → Fin 512 → ℝ) :
    ∑ i, ∑ j, distR (catR x y i) (catR x y j)
      = 16384 * ((∑ p, ∑ d, x p d * x p d) + (∑ p, ∑ d, y p d * y p d))
        - 2 * ∑ d, ((∑ p, x p d) + (∑ p, y p d)) * ((∑ p, x p d) + (∑ p, y p d)) := by
  have hd : ∀ d, ∑ i, catR x y i d = (∑ p, x p d) + (∑ p, y p d) :=
    fun d => sum_catR x y (fun u => u d)
  rw [sum_sum_distR, Fintype.card_fin, sum_catR x y sqR]
  simp only [hd]
  unfold sqR
  push_cast
  ring

end Cert.MMD

end
-- ==== Proof.AlgebraCoe.lean ====
/-
  Finite inputs keep both programs inside the real numbers as long as the bandwidth is not zero: every intermediate
  value is the image of a real number, and the image map commutes with sums, products and differences. This module
  rewrites the building blocks of the two closed formulas (squared distances, bandwidths, the five-term kernel entries
  and the quadrant sums) as images of real expressions; at bandwidth zero it evaluates the entries at the corner.
-/
import proofs.«101678_j64098091925653_1_alg».proof.Proof.AlgebraReal

noncomputable section

namespace Cert.MMD

open Idealize.ShloMosaic

/-- The image of a finite sum of reals is the sum of the images. -/
theorem sum_coe {α : Type*} (s : Finset α) (f : α → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- The squared distance of two finite points is the image of the real squared distance. -/
theorem dist_coe (u v : Fin 512 → ℝ) :
    dist (fun d => ((u d : ℝ) : EReal)) (fun d => ((v d : ℝ) : EReal)) = ((distR u v : ℝ) : EReal) := by
  unfold dist sq dot distR sqR dotR
  simp only [← EReal.coe_mul, sum_coe, ← EReal.coe_add, ← EReal.coe_sub]

/-- Stacking commutes with taking images. -/
theorem cat_coe (x y : Fin 4096 → Fin 512 → ℝ) (i : Fin 8192) :
    cat (fun p d => ((x p d : ℝ) : EReal)) (fun p d => ((y p d : ℝ) : EReal)) i
      = fun d => ((catR x y i d : ℝ) : EReal) := by
  unfold cat catR
  by_cases h : i.val < 4096
  · simp only [dif_pos h]
  · simp only [dif_neg h]

/-- The common real bandwidth of the two programs. -/
def bwR (x y : Fin 4096 → Fin 512 → ℝ) : ℝ :=
  (∑ i, ∑ j, distR (catR x y i) (catR x y j)) * (1 / 67100672) * (1 / 4)

theorem rbw_coe (x y : Fin 4096 → Fin 512 → ℝ) :
    rbw (cat (fun p d => ((x p d : ℝ) : EReal)) (fun p d => ((y p d : ℝ) : EReal))) = ((bwR x y : ℝ) : EReal) := by
  unfold rbw bwR
  have h1 : (67100672 : ℝ) ≠ 0 := by norm_num
  have h2 : (4 : ℝ) ≠ 0 := by norm_num
  simp only [cat_coe, dist_coe, sum_coe]
  rw [Ideal.div_coe h1, ← EReal.coe_mul, Ideal.div_coe h2, ← EReal.coe_mul]

theorem kbw_coe (x y : Fin 4096 → Fin 512 → ℝ) :
    kbw (fun p d => ((x p d : ℝ) : EReal)) (fun p d => ((y p d : ℝ) : EReal)) = ((bwR x y : ℝ) : EReal) := by
  unfold kbw bwR
  have h1 : (67100672 : ℝ) ≠ 0 := by norm_num
  have h2 : (4 : ℝ) ≠ 0 := by norm_num
  simp only [← EReal.coe_mul, sum_coe, ← EReal.coe_add, ← EReal.coe_sub]
  rw [Ideal.div_coe h1, ← EReal.coe_mul, Ideal.div_coe h2, ← EReal.coe_mul, sum_sum_distR_catR]

/-- The bandwidth is zero only if all pairwise squared distances of the stacked points are. -/
theorem distR_eq_zero_of_bwR (x y : Fin 4096 → Fin 512 → ℝ) (h : bwR x y = 0) (i j : Fin 8192) :
    distR (catR x y i) (catR x y j) = 0 := by
  apply distR_eq_zero_of_sum (catR x y) _ i j
  unfold bwR at h
  have h1 : (1 / 67100672 : ℝ) ≠ 0 := by norm_num
  have h2 : (1 / 4 : ℝ) ≠ 0 := by norm_num
  rcases mul_eq_zero.1 h with h | h
  · rcases mul_eq_zero.1 h with h | h
    · exact h
    · exact absurd h h1
  · exact absurd h h2

/-- The five-term entry over the reals. -/
def termR (L β : ℝ) : ℝ :=
  Real.exp (-L / β) + Real.exp (-L / (β * 2)) + Real.exp (-L / (β * 4)) + Real.exp (-L / (β * 8))
    + Real.exp (-L / (β * 16))

theorem kterm_coe (L β : ℝ) (hβ : β ≠ 0) : kterm (L : EReal) (β : EReal) = ((termR L β : ℝ) : EReal) := by
  have h2 : β * 2 ≠ 0 := mul_ne_zero hβ (by norm_num)
  have h4 : β * 4 ≠ 0 := mul_ne_zero hβ (by norm_num)
  have h8 : β * 8 ≠ 0 := mul_ne_zero hβ (by norm_num)
  have h16 : β * 16 ≠ 0 := mul_ne_zero hβ (by norm_num)
  unfold kterm termR
  simp only [← EReal.coe_mul]
  rw [Ideal.div_coe hβ, Ideal.div_coe h2, Ideal.div_coe h4, Ideal.div_coe h8, Ideal.div_coe h16]
  simp only [← EReal.coe_mul, ← EReal.coe_sub, Ideal.exp_coe, ← EReal.coe_add]
  congr 1
  have e : ∀ c : ℝ, (0 - L) * (1 * (1 / c)) = -L / c := fun c => by ring
  simp only [e]

theorem rterm_coe (L β : ℝ) (hβ : β ≠ 0) : rterm (L : EReal) (β : EReal) = ((termR L β : ℝ) : EReal) := by
  have h1 : β * 1 ≠ 0 := mul_ne_zero hβ (by norm_num)
  have h2 : β * 2 ≠ 0 := mul_ne_zero hβ (by norm_num)
  have h4 : β * 4 ≠ 0 := mul_ne_zero hβ (by norm_num)
  have h8 : β * 8 ≠ 0 := mul_ne_zero hβ (by norm_num)
  have h16 : β * 16 ≠ 0 := mul_ne_zero hβ (by norm_num)
  unfold rterm termR
  simp only [← EReal.coe_mul, ← EReal.coe_neg]
  rw [Ideal.div_coe h1, Ideal.div_coe h2, Ideal.div_coe h4, Ideal.div_coe h8, Ideal.div_coe h16]
  simp only [← EReal.coe_mul, Ideal.exp_coe, ← EReal.coe_add]
  congr 1
  have e : ∀ c : ℝ, -L * (1 / c) = -L / c := fun c => by ring
  simp only [e, mul_one, zero_add]

/-- At bandwidth zero and distance zero the first program's entry is five: the reciprocal of zero is `⊤`, zero times
    `⊤` is zero, and the exponential of zero is one. -/
theorem kterm_zero : kterm ((0 : ℝ) : EReal) ((0 : ℝ) : EReal) = ((5 : ℝ) : EReal) := by
  have hd : Ideal.div ((1 : ℝ) : EReal) 0 = ⊤ := by
    rw [Ideal.div, if_pos rfl, if_pos (by exact_mod_cast one_pos)]
  unfold kterm
  simp only [EReal.coe_zero, zero_mul, sub_zero, hd]
  rw [← EReal.coe_zero, Ideal.exp_coe, Real.exp_zero]
  norm_cast

/-- At bandwidth zero and distance zero the second program's entry is zero: zero divided by zero is `⊥`, whose
    exponential is zero. -/
theorem rterm_zero : rterm ((0 : ℝ) : EReal) ((0 : ℝ) : EReal) = ((0 : ℝ) : EReal) := by
  have hd : Ideal.div (0 : EReal) 0 = ⊥ := by
    rw [Ideal.div, if_pos rfl, if_neg (lt_irrefl _)]
  unfold rterm
  simp only [EReal.coe_zero, zero_mul, neg_zero, hd, Ideal.exp_bot, add_zero]

/-- The real quadrant sum. -/
def quadR (A B : Fin 4096 → Fin 512 → ℝ) (β : ℝ) : ℝ := ∑ p, ∑ q, termR (distR (A p) (B q)) β

theorem kquad_coe (A B : Fin 4096 → Fin 512 → ℝ) (β : ℝ) (hβ : β ≠ 0) :
    kquad (fun p d => ((A p d : ℝ) : EReal)) (fun p d => ((B p d : ℝ) : EReal)) (β : EReal)
      = ((quadR A B β : ℝ) : EReal) := by
  unfold kquad quadR
  simp only [dist_coe, kterm_coe _ _ hβ, sum_coe]

theorem rquad_coe (A B : Fin 4096 → Fin 512 → ℝ) (β : ℝ) (hβ : β ≠ 0) :
    rquad (fun p d => ((A p d : ℝ) : EReal)) (fun p d => ((B p d : ℝ) : EReal)) (β : EReal)
      = ((quadR A B β : ℝ) : EReal) := by
  unfold rquad quadR
  simp only [dist_coe, rterm_coe _ _ hβ, sum_coe]

theorem quadR_comm (A B : Fin 4096 → Fin 512 → ℝ) (β : ℝ) : quadR B A β = quadR A B β := by
  unfold quadR
  rw [Finset.sum_comm]
  exact Finset.sum_congr rfl (fun p _ => Finset.sum_congr rfl (fun q _ => by rw [distR_comm]))

/-- With all distances zero and bandwidth zero, a quadrant of the first program is the same real constant whatever
    the two clouds. -/
theorem kquad_zero (A B : Fin 4096 → Fin 512 → ℝ) (h : ∀ p q, distR (A p) (B q) = 0) :
    kquad (fun p d => ((A p d : ℝ) : EReal)) (fun p d => ((B p d : ℝ) : EReal)) ((0 : ℝ) : EReal)
      = ((∑ _p : Fin 4096, ∑ _q : Fin 4096, (5 : ℝ) : ℝ) : EReal) := by
  unfold kquad
  simp only [dist_coe, h, kterm_zero, sum_coe]

theorem rquad_zero (A B : Fin 4096 → Fin 512 → ℝ) (h : ∀ p q, distR (A p) (B q) = 0) :
    rquad (fun p d => ((A p d : ℝ) : EReal)) (fun p d => ((B p d : ℝ) : EReal)) ((0 : ℝ) : EReal)
      = ((0 : ℝ) : EReal) := by
  unfold rquad
  simp only [dist_coe, h, rterm_zero, sum_coe, Finset.sum_const_zero]

end Cert.MMD

end
-- ==== Proof.Algebra.lean ====
/-
  The two discrepancy programs agree on finite inputs.

  Both bandwidths are the image of one real number `β` (the sum of all pairwise squared distances of the stacked
  points, scaled). If `β ≠ 0`, multiplying `-L` by the reciprocal of `β · 2^k` and dividing `-L` by `β · 2^k` are
  the same real number, so the quadrant sums agree; the mixed quadrant is symmetric, so the first program's doubled
  mixed quadrant is the second program's two mixed quadrants. If `β = 0`, all the points coincide (a sum of squares
  vanishes), every entry of the first program is `5` and every entry of the second is `0`, and both results are
  zero: `c + c - 2 c = 0 = 0 + 0 - 0 - 0`.
-/
import proofs.«101678_j64098091925653_1_alg».proof.Proof.AlgebraCoe

noncomputable section

namespace Cert.MMD

open Idealize.ShloMosaic

/-- The last step over the reals: twice the mixed quadrant against the mixed quadrant taken twice. -/
theorem combine_coe (K1 K2 K3 R1 R2 R3 R4 : ℝ)
    (h : K1 * (1 / 16777216) + K2 * (1 / 16777216) - 2 * (K3 * (1 / 16777216))
      = R1 * (1 / 16777216) + R2 * (1 / 16777216) - R3 * (1 / 16777216) - R4 * (1 / 16777216)) :
    (Ideal.div (K1 : EReal) ((16777216 : ℝ) : EReal) + Ideal.div (K2 : EReal) ((16777216 : ℝ) : EReal))
        - ((2 : ℝ) : EReal) * Ideal.div (K3 : EReal) ((16777216 : ℝ) : EReal)
      = ((Ideal.div (R1 : EReal) ((16777216 : ℝ) : EReal) + Ideal.div (R2 : EReal) ((16777216 : ℝ) : EReal))
          - Ideal.div (R3 : EReal) ((16777216 : ℝ) : EReal))
        - Ideal.div (R4 : EReal) ((16777216 : ℝ) : EReal) := by
  have hN : (16777216 : ℝ) ≠ 0 := by norm_num
  simp only [Ideal.div_coe hN, ← EReal.coe_mul, ← EReal.coe_add, ← EReal.coe_sub]
  rw [h]

/-- Equal quadrants on both sides, the mixed one counted twice. -/
theorem real_case_ne (a b c : ℝ) :
    a * (1 / 16777216) + b * (1 / 16777216) - 2 * (c * (1 / 16777216))
      = a * (1 / 16777216) + b * (1 / 16777216) - c * (1 / 16777216) - c * (1 / 16777216) := by
  ring

/-- One constant in every quadrant of the first program, zero in every quadrant of the second. -/
theorem real_case_zero (c : ℝ) :
    c * (1 / 16777216) + c * (1 / 16777216) - 2 * (c * (1 / 16777216))
      = 0 * (1 / 16777216) + 0 * (1 / 16777216) - 0 * (1 / 16777216) - 0 * (1 / 16777216) := by
  ring

theorem kernelSpec_eq_refSpec (x y : Fin 4096 → Fin 512 → ℝ) :
    kernelSpec (fun p d => ((x p d : ℝ) : EReal)) (fun p d => ((y p d : ℝ) : EReal))
      = refSpec (fun p d => ((x p d : ℝ) : EReal)) (fun p d => ((y p d : ℝ) : EReal)) := by
  unfold kernelSpec refSpec
  rw [kbw_coe, rbw_coe]
  by_cases hβ : bwR x y = 0
  · -- all the stacked points coincide
    have hz := distR_eq_zero_of_bwR x y hβ
    have hxx : ∀ p q, distR (x p) (x q) = 0 := fun p q => by
      have h := hz (Fin.castAdd 4096 p) (Fin.castAdd 4096 q)
      rwa [catR_left, catR_left] at h
    have hyy : ∀ p q, distR (y p) (y q) = 0 := fun p q => by
      have h := hz (Fin.natAdd 4096 p) (Fin.natAdd 4096 q)
      rwa [catR_right, catR_right] at h
    have hxy : ∀ p q, distR (x p) (y q) = 0 := fun p q => by
      have h := hz (Fin.castAdd 4096 p) (Fin.natAdd 4096 q)
      rwa [catR_left, catR_right] at h
    have hyx : ∀ p q, distR (y p) (x q) = 0 := fun p q => by
      have h := hz (Fin.natAdd 4096 p) (Fin.castAdd 4096 q)
      rwa [catR_right, catR_left] at h
    rw [hβ, kquad_zero x x hxx, kquad_zero y y hyy, kquad_zero x y hxy, rquad_zero x x hxx, rquad_zero y y hyy,
      rquad_zero x y hxy, rquad_zero y x hyx]
    exact combine_coe _ _ _ _ _ _ _ (real_case_zero _)
  · rw [kquad_coe x x _ hβ, kquad_coe y y _ hβ, kquad_coe x y _ hβ, rquad_coe x x _ hβ, rquad_coe y y _ hβ,
      rquad_coe x y _ hβ, rquad_coe y x _ hβ, quadR_comm x y]
    exact combine_coe _ _ _ _ _ _ _ (real_case_ne _ _ _)

end Cert.MMD

end
-- ==== Proof.Finite.lean ====
/-
  The finiteness precondition, read back: the printed predicate says that every entry of either input has an absolute
  value strictly below `+∞`. The absolute value of an extended real is the larger of it and its negative, which is
  `⊤` at both infinities; so an entry that passes the test is a real number. With real witnesses chosen for all the
  entries, the two closed formulas agree by the algebra module's theorem.
-/
import proofs.«101678_j64098091925653_1_alg».proof.Defs
import proofs.«101678_j64098091925653_1_alg».proof.Proof.Gen.Pre_finite_inputs
import proofs.«101678_j64098091925653_1_alg».proof.Proof.Algebra
import Idealize.ShloMosaic.Lib.ReduceAll
import Idealize.ShloMosaic.Lib.ValueIdx

noncomputable section

namespace Cert.MMD

open Idealize.ShloMosaic

/-- An extended real whose absolute value is strictly below `⊤` is a real number. -/
theorem exists_real_of_abs_lt_top (x : EReal) (h : max x (-x) < ⊤) : ∃ r : ℝ, x = ((r : ℝ) : EReal) := by
  induction x using EReal.rec with
  | bot => simp at h
  | coe r => exact ⟨r, rfl⟩
  | top => simp at h

/-- The bit pattern of `+∞` denotes `⊤`. -/
theorem ofBits_inf : Ideal.ofBits .f32 0x7F800000#32 = (⊤ : EReal) := by
  simp [Ideal.ofBits, Ideal.ieee]

/-- One entry's test, read back: the strict comparison of the absolute value with `+∞` came out true. -/
theorem real_of_cmp (x : EReal)
    (h : Ideal.cmp .olt (max x (-x)) (Ideal.ofBits .f32 0x7F800000#32) = 1#1) : ∃ r : ℝ, x = ((r : ℝ) : EReal) := by
  rw [ofBits_inf] at h
  unfold Ideal.cmp at h
  apply exists_real_of_abs_lt_top
  by_contra hn
  simp [hn] at h

/-- The scalar shape has one index. -/
instance subsingleton_S_ : Subsingleton Cert.Pre_finite_inputs.S_.Idx := ⟨fun a b => funext fun d => d.elim0⟩

/-- The precondition decoded: every entry of both inputs is a real number. -/
theorem finite_of_pre [Cert.Pre_finite_inputs.Facts] (x0 x1 : FVec Ideal Cert.Pre_finite_inputs.S4096x512 .f32)
    (h : Cert.Pre_finite_inputs.fn (F := Ideal) x0 x1 = fun _ => 1#1) :
    (∀ i, ∃ r : ℝ, x0 i = ((r : ℝ) : EReal)) ∧ (∀ i, ∃ r : ℝ, x1 i = ((r : ℝ) : EReal)) := by
  have e := congrFun h ValueIdx.ix0
  dsimp only [Cert.Pre_finite_inputs.fn] at e
  obtain ⟨e0, e1⟩ := IntOp.andi_eq_one.1 e
  refine ⟨fun i => ?_, fun i => ?_⟩
  · exact real_of_cmp (x0 i) (Host.reduce_andi_all _ _ _ _ _ e0 i)
  · exact real_of_cmp (x1 i) (Host.reduce_andi_all _ _ _ _ _ e1 i)

/-- The two closed formulas agree on clouds all of whose entries are real numbers. -/
theorem kernelSpec_eq_refSpec_of_finite (a b : Fin 4096 → Fin 512 → EReal)
    (ha : ∀ p d, ∃ r : ℝ, a p d = ((r : ℝ) : EReal)) (hb : ∀ p d, ∃ r : ℝ, b p d = ((r : ℝ) : EReal)) :
    kernelSpec a b = refSpec a b := by
  choose x hx using ha
  choose y hy using hb
  have ea : a = fun p d => ((x p d : ℝ) : EReal) := funext fun p => funext fun d => hx p d
  have eb : b = fun p d => ((y p d : ℝ) : EReal) := funext fun p => funext fun d => hy p d
  subst ea eb
  exact kernelSpec_eq_refSpec x y

/-- Under the precondition the two closed formulas agree on the inputs read by coordinates. -/
theorem spec_eq_of_pre [Cert.Pre_finite_inputs.Facts] (x0 x1 : FVec Ideal Cert.Pre_finite_inputs.S4096x512 .f32)
    (h : Cert.Pre_finite_inputs.fn (F := Ideal) x0 x1 = fun _ => 1#1) :
    kernelSpec (fun p d => x0 (ValueIdx.ix2 p d)) (fun p d => x1 (ValueIdx.ix2 p d))
      = refSpec (fun p d => x0 (ValueIdx.ix2 p d)) (fun p d => x1 (ValueIdx.ix2 p d)) := by
  obtain ⟨h0, h1⟩ := finite_of_pre x0 x1 h
  exact kernelSpec_eq_refSpec_of_finite _ _ (fun p d => h0 (ValueIdx.ix2 p d)) (fun p d => h1 (ValueIdx.ix2 p d))

end Cert.MMD

end
-- ==== Proof.lean ====
/-
  Two programs computing a multi-bandwidth Gaussian-kernel discrepancy (MMD) of two clouds of 4096 points in dimension
  512 agree at the ideal instance on finite inputs.

  With `dist u v = |u|² + |v|² - 2 u·v`, both programs sum, over pairs of points, the five terms
  `exp (-dist / (bw · 2^k))`, `k = 0 … 4`. The kernel takes the bandwidth `bw` from the identity
  `∑ᵢⱼ dist(tᵢ, tⱼ) = 2 n ∑ᵢ |tᵢ|² - 2 |∑ᵢ tᵢ|²` over the n = 8192 stacked points, runs three pallas_calls — one per
  quadrant of the pair matrix: first cloud against itself, second against itself, first against second — each walking a
  4 x 4 grid of 1024 x 1024 blocks and accumulating the blocks' sums in a 1x1 buffer, and returns XX/N + YY/N - 2·XY/N. The
  reference stacks the clouds, sums `dist` over all pairs for the bandwidth, and returns XX/N + YY/N - XY/N - YX/N over the four
  quadrants of the stacked matrix.

  * On finite inputs every quantity is a real number as long as the bandwidth is not zero; then the two results are the same
    real expression: the bandwidth identity, `x · (1/y) = x / y`, the symmetry of `dist` (the fourth quadrant's sum is the
    third's), and a sum over 4096 x 4096 pairs cut into 16 blocks of 1024 x 1024.
  * The bandwidth is zero only when all points coincide (it is a sum of squared distances); every `dist` is then zero, the
    kernel's entries are all 5 and its result 5 + 5 - 2·5 = 0, the reference's entries are all 0 and so is its result.
  * Each program's frame: the kernel's three pipelines are run segment by segment between the host operations; the body of a
    quadrant is run whole at the first grid point (the accumulator is reset) and at a later one (it is added to). Two windows
    of the first two quadrants read one array, held at the two halves of its share.
  The idealization rewrote nothing, so there is nothing to preserve.
-/
import proofs.«101678_j64098091925653_1_alg».proof.Defs
import proofs.«101678_j64098091925653_1_alg».proof.Proof.Gen.Kernel
import proofs.«101678_j64098091925653_1_alg».proof.Proof.Gen.KernelIdeal
import proofs.«101678_j64098091925653_1_alg».proof.Proof.Gen.ReferenceIdeal
import proofs.«101678_j64098091925653_1_alg».proof.Proof.Gen.Pre_finite_inputs
import proofs.«101678_j64098091925653_1_alg».proof.Proof.KB.Segs
import proofs.«101678_j64098091925653_1_alg».proof.Proof.KI.Final
import proofs.«101678_j64098091925653_1_alg».proof.Proof.RefValue
import proofs.«101678_j64098091925653_1_alg».proof.Proof.Finite
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs to the end and leaves its two argument arrays as launched. -/
theorem frame_k : Cert.frame_Kernel := fun m ρ _ => Cert.Kernel.Gen.frame (F := Bits) m ρ

/-- So does the kernel read at the ideal instance. -/
theorem frame_ki : Cert.frame_KernelIdeal := fun m ρ _ => Cert.KernelIdeal.Gen.frame (F := Ideal) m ρ

/-- The reference is a host program: its run, with the result dropped. -/
theorem frame_ri : Cert.frame_ReferenceIdeal := fun m ρ _ =>
  (θ_run Cert.ReferenceIdeal.defs _ _).mono (fun _ h c => (h c).2) (Cert.MMD.Ref.run m ρ)

/-- At the ideal instance the kernel ends with its closed formula of the two clouds, the reference with its own; on finite
    clouds the two formulas are equal. -/
theorem algebraic : Cert.algebraic_KernelIdeal_ReferenceIdeal := by
  intro m ρ m' ρ' hpre hagree
  refine ⟨fun c => Cert.KernelIdeal.Gen.result m c, Cert.KernelIdeal.Gen.kernel_run m ρ, ?_⟩
  refine (θ_run Cert.ReferenceIdeal.defs _ _).mono (fun _ h c => ⟨(h c).1.trans ?_, (h c).2⟩) (Cert.MMD.Ref.run m' ρ')
  rw [(hagree c).1, (hagree c).2]
  funext _
  exact (Cert.MMD.spec_eq_of_pre _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
